-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x384x1248 : Shape := ⟨4, ![4, 3, 384, 1248]⟩
abbrev S_ : Shape := ⟨0, ![]⟩

class Facts : Prop where
  bcast_S_S4x3x384x1248 : S_.BroadcastsInDim S4x3x384x1248 (![] : Fin 0 → Fin S4x3x384x1248.rank)
  reducesTo_S4x3x384x1248_S_d0_1_2_3 : S4x3x384x1248.ReducesTo [0, 1, 2, 3] S_
  h_S_ : 0 < S_.numel

variable [Facts]

def fn {F : FTy → Type} [FloatOps F] (main_arg0 : FVec F S4x3x384x1248 .f32) (main_arg1 : FVec F S4x3x384x1248 .f32) : IVec S_ 1 :=
  let main_v0 : FVec F S4x3x384x1248 .f32 := Host.absf main_arg0
  let main_cst : FVec F S_ .f32 := constant S_ .f32 0x7F800000#32
  let main_v1 : FVec F S4x3x384x1248 .f32 := broadcastInDim S4x3x384x1248 ![] bcast_S_S4x3x384x1248 main_cst
  let main_v2 : IVec S4x3x384x1248 1 := cmpf .olt main_v0 main_v1
  let main_c : IVec S_ 1 := constantI S_ 1 1#1
  let main_v3 : IVec S_ 1 := (fun x v => Host.reduce IntOp.andi x v reducesTo_S4x3x384x1248_S_d0_1_2_3 h_S_) main_v2 main_c
  let main_v4 : FVec F S4x3x384x1248 .f32 := Host.absf main_arg1
  let main_cst_0 : FVec F S_ .f32 := constant S_ .f32 0x7F800000#32
  let main_v5 : FVec F S4x3x384x1248 .f32 := broadcastInDim S4x3x384x1248 ![] bcast_S_S4x3x384x1248 main_cst_0
  let main_v6 : IVec S4x3x384x1248 1 := cmpf .olt main_v4 main_v5
  let main_c_1 : IVec S_ 1 := constantI S_ 1 1#1
  let main_v7 : IVec S_ 1 := (fun x v => Host.reduce IntOp.andi x v reducesTo_S4x3x384x1248_S_d0_1_2_3 h_S_) main_v6 main_c_1
  let main_v8 : IVec S_ 1 := andi main_v3 main_v7
  main_v8
-- ==== Kernel.lean ====
abbrev S4x3x384x1248 : Shape := ⟨4, ![4, 3, 384, 1248]⟩
abbrev S4x27x384x1248 : Shape := ⟨4, ![4, 27, 384, 1248]⟩
abbrev S1x3x384x1248 : Shape := ⟨4, ![1, 3, 384, 1248]⟩
abbrev S1x27x128x1248 : Shape := ⟨4, ![1, 27, 128, 1248]⟩
abbrev S3x386x1250 : Shape := ⟨3, ![3, 386, 1250]⟩
abbrev S3x384x1248 : Shape := ⟨3, ![3, 384, 1248]⟩
abbrev S3x1x1248 : Shape := ⟨3, ![3, 1, 1248]⟩
abbrev S3x385x1248 : Shape := ⟨3, ![3, 385, 1248]⟩
abbrev S3x386x1248 : Shape := ⟨3, ![3, 386, 1248]⟩
abbrev S3x386x1 : Shape := ⟨3, ![3, 386, 1]⟩
abbrev S3x386x1249 : Shape := ⟨3, ![3, 386, 1249]⟩
abbrev S3x128x1250 : Shape := ⟨3, ![3, 128, 1250]⟩
abbrev S3x128x1248 : Shape := ⟨3, ![3, 128, 1248]⟩
abbrev S1x3x128x1248 : Shape := ⟨4, ![1, 3, 128, 1248]⟩
abbrev S9x9 : Shape := ⟨2, ![9, 9]⟩
abbrev S_ : Shape := ⟨0, ![]⟩
abbrev S9x1x1x3x3 : Shape := ⟨5, ![9, 1, 1, 3, 3]⟩

abbrev nBuf : Space → Nat
  | .hbm => 12
  | .vmem => 10
  | .smem => 0
  | _ => 0

abbrev bufTy : (tb : Table) → Fin (tcTables nBuf tb) → BufTy
  | .hbm, ⟨0, _⟩ => ⟨S4x3x384x1248, .f32⟩
  | .hbm, ⟨1, _⟩ => ⟨S4x3x384x1248, .f32⟩
  | .hbm, ⟨2, _⟩ => ⟨S4x27x384x1248, .f32⟩
  | .hbm, ⟨3, _⟩ => ⟨S4x27x384x1248, .f32⟩
  | .hbm, ⟨4, _⟩ => ⟨S9x9, .i32⟩
  | .hbm, ⟨5, _⟩ => ⟨S9x9, .i32⟩
  | .hbm, ⟨6, _⟩ => ⟨S_, .i32⟩
  | .hbm, ⟨7, _⟩ => ⟨S9x9, .i32⟩
  | .hbm, ⟨8, _⟩ => ⟨S9x9, .i32⟩
  | .hbm, ⟨9, _⟩ => ⟨S9x9, .i1⟩
  | .hbm, ⟨10, _⟩ => ⟨S9x9, .f32⟩
  | .hbm, ⟨11, _⟩ => ⟨S9x1x1x3x3, .f32⟩
  | .local _ .vmem, ⟨0, _⟩ => ⟨S1x3x384x1248, .f32⟩
  | .local _ .vmem, ⟨1, _⟩ => ⟨S1x3x384x1248, .f32⟩
  | .local _ .vmem, ⟨2, _⟩ => ⟨S1x27x128x1248, .f32⟩
  | .local _ .vmem, ⟨3, _⟩ => ⟨S1x27x128x1248, .f32⟩
  | .local _ .vmem, ⟨4, _⟩ => ⟨S3x386x1250, .f32⟩
  | .local _ .vmem, ⟨5, _⟩ => ⟨S1x3x384x1248, .f32⟩
  | .local _ .vmem, ⟨6, _⟩ => ⟨S1x3x384x1248, .f32⟩
  | .local _ .vmem, ⟨7, _⟩ => ⟨S1x27x128x1248, .f32⟩
  | .local _ .vmem, ⟨8, _⟩ => ⟨S1x27x128x1248, .f32⟩
  | .local _ .vmem, ⟨9, _⟩ => ⟨S3x386x1250, .f32⟩
  | _, _ => ⟨S4x3x384x1248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![4, 3], ![false, false]⟩

def k0_off1 (i : grid0.Coords) (c0_i32_1 : BitVec 32) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := Scalar.addi v3 c0_i32_1
  let v5 : Index := Scalar.indexCast v4
  let c0_2 : Index := 0#32
  ![0, v5.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x384x1248 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x27x128x1248 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 3], ![false, false]⟩

def k1_off1 (i : grid1.Coords) (c0_i32_1 : BitVec 32) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := Scalar.addi v3 c0_i32_1
  let v5 : Index := Scalar.indexCast v4
  let c0_2 : Index := 0#32
  ![0, v5.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x3x384x1248 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x27x128x1248 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S1x3x384x1248_S1x3x384x1248_0_0_0_0 : ∀ a, (![0, 0, 0, 0] : Fin 4 → Nat) a + S1x3x384x1248.size a ≤ S1x3x384x1248.size a
  h_S1x3x384x1248 : 0 < S1x3x384x1248.numel
  shapeCasts_S1x3x384x1248_S3x384x1248 : S1x3x384x1248.ShapeCasts S3x384x1248
  concatenates_S3x1x1248_S3x384x1248_S3x385x1248_d1 : Shape.Concatenates [S3x1x1248, S3x384x1248] S3x385x1248 1
  concatenates_S3x385x1248_S3x1x1248_S3x386x1248_d1 : Shape.Concatenates [S3x385x1248, S3x1x1248] S3x386x1248 1
  concatenates_S3x386x1_S3x386x1248_S3x386x1249_d2 : Shape.Concatenates [S3x386x1, S3x386x1248] S3x386x1249 2
  concatenates_S3x386x1249_S3x386x1_S3x386x1250_d2 : Shape.Concatenates [S3x386x1249, S3x386x1] S3x386x1250 2
  inb_S3x386x1250_S3x386x1250_0_0_0 : ∀ a, (![0, 0, 0] : Fin 3 → Nat) a + S3x386x1250.size a ≤ S3x386x1250.size a
  h_S3x386x1250 : 0 < S3x386x1250.numel
  shapeCasts_S3x386x1250_S3x386x1250 : S3x386x1250.ShapeCasts S3x386x1250
  h_S3x128x1250 : 0 < S3x128x1250.numel
  slices_S3x128x1250_o0_0_0_S3x128x1248 : S3x128x1250.Slices ![0, 0, 0] S3x128x1248
  inb_S1x27x128x1248_S1x3x128x1248_0_0_0_0 : ∀ a, (![0, 0, 0, 0] : Fin 4 → Nat) a + S1x3x128x1248.size a ≤ S1x27x128x1248.size a
  h_S1x3x128x1248 : 0 < S1x3x128x1248.numel
  shapeCasts_S1x3x128x1248_S3x128x1248 : S1x3x128x1248.ShapeCasts S3x128x1248
  shapeCasts_S3x128x1248_S1x3x128x1248 : S3x128x1248.ShapeCasts S1x3x128x1248
  slices_S3x128x1250_o0_0_1_S3x128x1248 : S3x128x1250.Slices ![0, 0, 1] S3x128x1248
  inb_S1x27x128x1248_S1x3x128x1248_0_3_0_0 : ∀ a, (![0, 3, 0, 0] : Fin 4 → Nat) a + S1x3x128x1248.size a ≤ S1x27x128x1248.size a
  slices_S3x128x1250_o0_0_2_S3x128x1248 : S3x128x1250.Slices ![0, 0, 2] S3x128x1248
  inb_S1x27x128x1248_S1x3x128x1248_0_6_0_0 : ∀ a, (![0, 6, 0, 0] : Fin 4 → Nat) a + S1x3x128x1248.size a ≤ S1x27x128x1248.size a
  inb_S1x27x128x1248_S1x3x128x1248_0_9_0_0 : ∀ a, (![0, 9, 0, 0] : Fin 4 → Nat) a + S1x3x128x1248.size a ≤ S1x27x128x1248.size a
  inb_S1x27x128x1248_S1x3x128x1248_0_12_0_0 : ∀ a, (![0, 12, 0, 0] : Fin 4 → Nat) a + S1x3x128x1248.size a ≤ S1x27x128x1248.size a
  inb_S1x27x128x1248_S1x3x128x1248_0_15_0_0 : ∀ a, (![0, 15, 0, 0] : Fin 4 → Nat) a + S1x3x128x1248.size a ≤ S1x27x128x1248.size a
  inb_S1x27x128x1248_S1x3x128x1248_0_18_0_0 : ∀ a, (![0, 18, 0, 0] : Fin 4 → Nat) a + S1x3x128x1248.size a ≤ S1x27x128x1248.size a
  inb_S1x27x128x1248_S1x3x128x1248_0_21_0_0 : ∀ a, (![0, 21, 0, 0] : Fin 4 → Nat) a + S1x3x128x1248.size a ≤ S1x27x128x1248.size a
  inb_S1x27x128x1248_S1x3x128x1248_0_24_0_0 : ∀ a, (![0, 24, 0, 0] : Fin 4 → Nat) a + S1x3x128x1248.size a ≤ S1x27x128x1248.size a
  bcast_S_S9x9 : S_.BroadcastsInDim S9x9 (![] : Fin 0 → Fin S9x9.rank)
  shapeCasts_S9x9_S9x1x1x3x3 : S9x9.ShapeCasts S9x1x1x3x3
  hrank0 : 0 < grid0.rank
  k0_off1_inb : ∀ i : grid0.Coords, ∀ (r : Fin 3), ∀ a, (k0_off1 i (BitVec.ofNat 32 r.val)) a + S3x128x1250.size a ≤ S3x386x1250.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x384x1248.size a ≤ S4x3x384x1248.size a
  hwx0_0 : ∀ i : grid0.Coords, EltTy.bits .f32 = 32 ∨ (Rect.block (s := S4x3x384x1248) S1x3x384x1248.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x27x128x1248.size a ≤ S4x27x384x1248.size a
  hwx0_1 : ∀ i : grid0.Coords, EltTy.bits .f32 = 32 ∨ (Rect.block (s := S4x27x384x1248) S1x27x128x1248.size (cc0_transform_1 i) (hinb0_1 i)).WholeWords (EltTy.packing .f32)
  hrank1 : 0 < grid1.rank
  k1_off1_inb : ∀ i : grid1.Coords, ∀ (r : Fin 3), ∀ a, (k1_off1 i (BitVec.ofNat 32 r.val)) a + S3x128x1250.size a ≤ S3x386x1250.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x384x1248.size a ≤ S4x3x384x1248.size a
  hwx1_0 : ∀ i : grid1.Coords, EltTy.bits .f32 = 32 ∨ (Rect.block (s := S4x3x384x1248) S1x3x384x1248.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x27x128x1248.size a ≤ S4x27x384x1248.size a
  hwx1_1 : ∀ i : grid1.Coords, EltTy.bits .f32 = 32 ∨ (Rect.block (s := S4x27x384x1248) S1x27x128x1248.size (cc1_transform_1 i) (hinb1_1 i)).WholeWords (EltTy.packing .f32)

variable [Facts₀]

abbrev win0_0 : Pipeline.Window sig grid0 :=
  Pipeline.Window.ofSpec (Memref.whole main_arg0) S1x3x384x1248.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x27x128x1248.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x3x384x1248.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x27x128x1248.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4x3x384x1248 : Shape := ⟨4, ![4, 3, 384, 1248]⟩
abbrev S_ : Shape := ⟨0, ![]⟩
abbrev S4x3x386x1250 : Shape := ⟨4, ![4, 3, 386, 1250]⟩
abbrev S4x1x3x384x1248 : Shape := ⟨5, ![4, 1, 3, 384, 1248]⟩
abbrev S4x9x3x384x1248 : Shape := ⟨5, ![4, 9, 3, 384, 1248]⟩
abbrev S4x27x384x1248 : Shape := ⟨4, ![4, 27, 384, 1248]⟩
abbrev S9x9 : Shape := ⟨2, ![9, 9]⟩
abbrev S9x1x1x3x3 : Shape := ⟨5, ![9, 1, 1, 3, 3]⟩

abbrev nBuf : Space → Nat
  | .hbm => 56
  | .vmem => 0
  | .smem => 0
  | _ => 0

abbrev bufTy : (tb : Table) → Fin (tcTables nBuf tb) → BufTy
  | .hbm, ⟨0, _⟩ => ⟨S4x3x384x1248, .f32⟩
  | .hbm, ⟨1, _⟩ => ⟨S4x3x384x1248, .f32⟩
  | .hbm, ⟨2, _⟩ => ⟨S_, .i32⟩
  | .hbm, ⟨3, _⟩ => ⟨S_, .f32⟩
  | .hbm, ⟨4, _⟩ => ⟨S4x3x386x1250, .f32⟩
  | .hbm, ⟨5, _⟩ => ⟨S4x3x384x1248, .f32⟩
  | .hbm, ⟨6, _⟩ => ⟨S4x3x384x1248, .f32⟩
  | .hbm, ⟨7, _⟩ => ⟨S4x3x384x1248, .f32⟩
  | .hbm, ⟨8, _⟩ => ⟨S4x3x384x1248, .f32⟩
  | .hbm, ⟨9, _⟩ => ⟨S4x3x384x1248, .f32⟩
  | .hbm, ⟨10, _⟩ => ⟨S4x3x384x1248, .f32⟩
  | .hbm, ⟨11, _⟩ => ⟨S4x3x384x1248, .f32⟩
  | .hbm, ⟨12, _⟩ => ⟨S4x3x384x1248, .f32⟩
  | .hbm, ⟨13, _⟩ => ⟨S4x3x384x1248, .f32⟩
  | .hbm, ⟨14, _⟩ => ⟨S4x1x3x384x1248, .f32⟩
  | .hbm, ⟨15, _⟩ => ⟨S4x1x3x384x1248, .f32⟩
  | .hbm, ⟨16, _⟩ => ⟨S4x1x3x384x1248, .f32⟩
  | .hbm, ⟨17, _⟩ => ⟨S4x1x3x384x1248, .f32⟩
  | .hbm, ⟨18, _⟩ => ⟨S4x1x3x384x1248, .f32⟩
  | .hbm, ⟨19, _⟩ => ⟨S4x1x3x384x1248, .f32⟩
  | .hbm, ⟨20, _⟩ => ⟨S4x1x3x384x1248, .f32⟩
  | .hbm, ⟨21, _⟩ => ⟨S4x1x3x384x1248, .f32⟩
  | .hbm, ⟨22, _⟩ => ⟨S4x1x3x384x1248, .f32⟩
  | .hbm, ⟨23, _⟩ => ⟨S4x9x3x384x1248, .f32⟩
  | .hbm, ⟨24, _⟩ => ⟨S4x27x384x1248, .f32⟩
  | .hbm, ⟨25, _⟩ => ⟨S_, .i32⟩
  | .hbm, ⟨26, _⟩ => ⟨S_, .f32⟩
  | .hbm, ⟨27, _⟩ => ⟨S4x3x386x1250, .f32⟩
  | .hbm, ⟨28, _⟩ => ⟨S4x3x384x1248, .f32⟩
  | .hbm, ⟨29, _⟩ => ⟨S4x3x384x1248, .f32⟩
  | .hbm, ⟨30, _⟩ => ⟨S4x3x384x1248, .f32⟩
  | .hbm, ⟨31, _⟩ => ⟨S4x3x384x1248, .f32⟩
  | .hbm, ⟨32, _⟩ => ⟨S4x3x384x1248, .f32⟩
  | .hbm, ⟨33, _⟩ => ⟨S4x3x384x1248, .f32⟩
  | .hbm, ⟨34, _⟩ => ⟨S4x3x384x1248, .f32⟩
  | .hbm, ⟨35, _⟩ => ⟨S4x3x384x1248, .f32⟩
  | .hbm, ⟨36, _⟩ => ⟨S4x3x384x1248, .f32⟩
  | .hbm, ⟨37, _⟩ => ⟨S4x1x3x384x1248, .f32⟩
  | .hbm, ⟨38, _⟩ => ⟨S4x1x3x384x1248, .f32⟩
  | .hbm, ⟨39, _⟩ => ⟨S4x1x3x384x1248, .f32⟩
  | .hbm, ⟨40, _⟩ => ⟨S4x1x3x384x1248, .f32⟩
  | .hbm, ⟨41, _⟩ => ⟨S4x1x3x384x1248, .f32⟩
  | .hbm, ⟨42, _⟩ => ⟨S4x1x3x384x1248, .f32⟩
  | .hbm, ⟨43, _⟩ => ⟨S4x1x3x384x1248, .f32⟩
  | .hbm, ⟨44, _⟩ => ⟨S4x1x3x384x1248, .f32⟩
  | .hbm, ⟨45, _⟩ => ⟨S4x1x3x384x1248, .f32⟩
  | .hbm, ⟨46, _⟩ => ⟨S4x9x3x384x1248, .f32⟩
  | .hbm, ⟨47, _⟩ => ⟨S4x27x384x1248, .f32⟩
  | .hbm, ⟨48, _⟩ => ⟨S9x9, .i32⟩
  | .hbm, ⟨49, _⟩ => ⟨S9x9, .i32⟩
  | .hbm, ⟨50, _⟩ => ⟨S_, .i32⟩
  | .hbm, ⟨51, _⟩ => ⟨S9x9, .i32⟩
  | .hbm, ⟨52, _⟩ => ⟨S9x9, .i32⟩
  | .hbm, ⟨53, _⟩ => ⟨S9x9, .i1⟩
  | .hbm, ⟨54, _⟩ => ⟨S9x9, .f32⟩
  | .hbm, ⟨55, _⟩ => ⟨S9x1x1x3x3, .f32⟩
  | _, _ => ⟨S4x3x384x1248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c_1 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]

class Facts₀ : Prop where
  pads_S4x3x384x1248_S4x3x386x1250_000_000_110_110 : S4x3x384x1248.Pads (![0, 0, 1, 1] : Fin 4 → Nat) ![0, 0, 1, 1] ![0, 0, 0, 0] S4x3x386x1250
  h_S_ : 0 < S_.numel
  slices_S4x3x386x1250_S4x3x384x1248_0_0_0_0 : S4x3x386x1250.Slices ![0, 0, 0, 0] S4x3x384x1248
  slices_S4x3x386x1250_S4x3x384x1248_0_0_0_1 : S4x3x386x1250.Slices ![0, 0, 0, 1] S4x3x384x1248
  slices_S4x3x386x1250_S4x3x384x1248_0_0_0_2 : S4x3x386x1250.Slices ![0, 0, 0, 2] S4x3x384x1248
  slices_S4x3x386x1250_S4x3x384x1248_0_0_1_0 : S4x3x386x1250.Slices ![0, 0, 1, 0] S4x3x384x1248
  slices_S4x3x386x1250_S4x3x384x1248_0_0_1_1 : S4x3x386x1250.Slices ![0, 0, 1, 1] S4x3x384x1248
  slices_S4x3x386x1250_S4x3x384x1248_0_0_1_2 : S4x3x386x1250.Slices ![0, 0, 1, 2] S4x3x384x1248
  slices_S4x3x386x1250_S4x3x384x1248_0_0_2_0 : S4x3x386x1250.Slices ![0, 0, 2, 0] S4x3x384x1248
  slices_S4x3x386x1250_S4x3x384x1248_0_0_2_1 : S4x3x386x1250.Slices ![0, 0, 2, 1] S4x3x384x1248
  slices_S4x3x386x1250_S4x3x384x1248_0_0_2_2 : S4x3x386x1250.Slices ![0, 0, 2, 2] S4x3x384x1248
  bcast_S4x3x384x1248_S4x1x3x384x1248_0_2_3_4 : S4x3x384x1248.BroadcastsInDim S4x1x3x384x1248 (![0, 2, 3, 4] : Fin 4 → Fin S4x1x3x384x1248.rank)
  concatenates_S4x1x3x384x1248_S4x1x3x384x1248_S4x1x3x384x1248_S4x1x3x384x1248_S4x1x3x384x1248_S4x1x3x384x1248_S4x1x3x384x1248_S4x1x3x384x1248_S4x1x3x384x1248_S4x9x3x384x1248_d1 : Shape.Concatenates [S4x1x3x384x1248, S4x1x3x384x1248, S4x1x3x384x1248, S4x1x3x384x1248, S4x1x3x384x1248, S4x1x3x384x1248, S4x1x3x384x1248, S4x1x3x384x1248, S4x1x3x384x1248] S4x9x3x384x1248 1
  shapeCasts_S4x9x3x384x1248_S4x27x384x1248 : S4x9x3x384x1248.ShapeCasts S4x27x384x1248
  bcast_S_S9x9 : S_.BroadcastsInDim S9x9 (![] : Fin 0 → Fin S9x9.rank)
  shapeCasts_S9x9_S9x1x1x3x3 : S9x9.ShapeCasts S9x1x1x3x3

variable [Facts₀]

class Facts : Prop extends Facts₀ where

variable [Facts]
-- ==== Proof.KernelR0Defs.lean ====
/-
  Region 0 of the program (the patch kernel run on argument 0): the body's one branch, its scratch, and what the body
  computes written as plain functions of the scratch contents — no memory, no separation logic.
-/
import proofs.«113457_j14800457302529_2_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.SL.Sem

variable {F : FTy → Type} [FloatOps F]

/-! ## Region 0: when the body refills its padded scratch -/

/-- The body's one branch: taken exactly when the point's second grid coordinate (the row tile) is 0, that is at the
    first of the three row tiles of each image. -/
abbrev cond0 (i : grid0.Coords) : Prop :=
  (Scalar.cmpi .ne (Scalar.extui (Scalar.cmpi .eq (BitVec.ofNat 32 (i 1).val) 0#32)) 0#32) = 1#1

/-- Over the 12 grid points (4 images × 3 row tiles, row tile fastest) the branch is taken at the points ≡ 0 mod 3. -/
theorem hcond0 : ∀ t : Fin cfg0.N, cond0 (grid0.coords t) ↔ t.val % 3 = 0 :=
  (by decide +kernel : ∀ t : Fin grid0.N, cond0 (grid0.coords t) ↔ t.val % 3 = 0)

/-- The kernel's scratch operand: the whole scoped buffer that holds the padded image between grid points. -/
abbrev scM0 : Memref sig .tc .vmem S3x386x1250 .f32 := Memref.whole cc0_scratch0

/-! ## Region 0: what the body computes, as plain functions -/

/-- The window of the padded scratch the body reads for vertical shift `r` (0, 1 or 2): all three channels, the 128
    rows starting at row `128·(row tile) + r`, all 1250 columns. -/
abbrev win0R (i : grid0.Coords) (r : Fin 3) : Rect S3x386x1250 :=
  Rect.unit (s := S3x386x1250) (k0_off1 i (BitVec.ofNat 32 r.val)) S3x128x1250.size (k0_off1_inb i r)

/-- The output block the body leaves when the scratch holds `s`: nine groups of three channels, group `3·dy + dx`
    being the window of `s` at vertical shift `dy` cut to the 1248 columns starting at column `dx` (listed last
    store first, as a list of pieces that tile the block). -/
def outOf0 (s : Vec F S3x386x1250 .f32) (i : grid0.Coords) : Vec F S1x27x128x1248 .f32 :=
  View.canon [
    ⟨Rect.unit (s := S1x27x128x1248) ![0, 24, 0, 0] S1x3x128x1248.size inb_S1x27x128x1248_S1x3x128x1248_0_24_0_0, k0_pay5 (View.ld s (win0R i 2))⟩,
    ⟨Rect.unit (s := S1x27x128x1248) ![0, 21, 0, 0] S1x3x128x1248.size inb_S1x27x128x1248_S1x3x128x1248_0_21_0_0, k0_pay4 (View.ld s (win0R i 2))⟩,
    ⟨Rect.unit (s := S1x27x128x1248) ![0, 18, 0, 0] S1x3x128x1248.size inb_S1x27x128x1248_S1x3x128x1248_0_18_0_0, k0_pay3 (View.ld s (win0R i 2))⟩,
    ⟨Rect.unit (s := S1x27x128x1248) ![0, 15, 0, 0] S1x3x128x1248.size inb_S1x27x128x1248_S1x3x128x1248_0_15_0_0, k0_pay2 (View.ld s (win0R i 1))⟩,
    ⟨Rect.unit (s := S1x27x128x1248) ![0, 12, 0, 0] S1x3x128x1248.size inb_S1x27x128x1248_S1x3x128x1248_0_12_0_0, k0_pay1 (k0_pay11 (View.ld s (win0R i 1)))⟩,
    ⟨Rect.unit (s := S1x27x128x1248) ![0, 9, 0, 0] S1x3x128x1248.size inb_S1x27x128x1248_S1x3x128x1248_0_9_0_0, k0_pay10 (View.ld s (win0R i 1))⟩,
    ⟨Rect.unit (s := S1x27x128x1248) ![0, 6, 0, 0] S1x3x128x1248.size inb_S1x27x128x1248_S1x3x128x1248_0_6_0_0, k0_pay9 (View.ld s (win0R i 0))⟩,
    ⟨Rect.unit (s := S1x27x128x1248) ![0, 3, 0, 0] S1x3x128x1248.size inb_S1x27x128x1248_S1x3x128x1248_0_3_0_0, k0_pay8 (View.ld s (win0R i 0))⟩,
    ⟨Rect.unit (s := S1x27x128x1248) ![0, 0, 0, 0] S1x3x128x1248.size inb_S1x27x128x1248_S1x3x128x1248_0_0_0_0, k0_pay7 (View.ld s (win0R i 0))⟩]

end Cert.Kernel.Hand

end
-- ==== Proof.KernelR0.lean ====
/-
  Region 0 of the program (the patch kernel run on argument 0) as a pipeline region: the body run symbolically in its
  two cases (the padded scratch refilled at the first row tile of an image; kept and only read at the other two), what
  each case leaves in the scratch and in the output's staging buffer as the plain functions of the Defs module, the
  pipeline's proof data with the scratch CARRIED between grid points in the region invariant, and the body obligation.
-/
import proofs.«113457_j14800457302529_2_alg».proof.Proof.Gen.Kernel.Launch
import proofs.«113457_j14800457302529_2_alg».proof.Proof.Gen.Kernel.Skeleton
import proofs.«113457_j14800457302529_2_alg».proof.Proof.Gen.Kernel.Points
import proofs.«113457_j14800457302529_2_alg».proof.Proof.KernelR0Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken. From the input block `x0` in its staging buffer, the output's
    staging buffer and the scratch at anything, the body overwrites the whole scratch (with the padded block), then
    copies nine shifted windows of the scratch into the nine channel groups of the output buffer. The witnesses are
    the pieces each buffer ends up written with (last store first). -/
noncomputable def runFill0 (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : cond0 i) (x0 : Vec F S1x3x384x1248 .f32) :
    Σ' (L1 : List (View.Piece (Elt F) S1x27x128x1248 .f32)), { LS : List (View.Piece (Elt F) S3x386x1250 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS)) -∗ K ⟨⟩))
          ⊢ wp frame (wpE (defs₀ (F := F)) Variants.none c none) E (cc0__extract_patches_kernel i arg2 harg2 arg3 harg3 arg4 harg4) K } := by
  refine ⟨?_, ?_, fun E K => ?run⟩
  case run =>
    simp only [cc0__extract_patches_kernel_eq_skeleton]; unfold cc0__extract_patches_kernel_skel
    simp only [k0_part1_eq_skeleton]
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]
    · iexists _; iexact H1
    iexists _; iexact HS

set_option maxHeartbeats 4000000 in
/-- The body at a point where the branch is not taken. The scratch still holds what an earlier point left (`xs`) and
    is only read: the body copies nine shifted windows of it into the nine channel groups of the output buffer. The
    witness is the list of pieces the output buffer ends up written with (last store first). -/
noncomputable def runKeep0 (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : ¬cond0 i) (x0 : Vec F S1x3x384x1248 .f32) (xs : Vec F S3x386x1250 .f32) :
    { L1 : List (View.Piece (Elt F) S1x27x128x1248 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f L1)
                ∗ owns (c : Thread nD τ) arg4 fullShare xs) -∗ K ⟨⟩))
          ⊢ wp frame (wpE (defs₀ (F := F)) Variants.none c none) E (cc0__extract_patches_kernel i arg2 harg2 arg3 harg3 arg4 harg4) K } := by
  refine ⟨?_, fun E K => ?run⟩
  case run =>
    simp only [cc0__extract_patches_kernel_eq_skeleton]; unfold cc0__extract_patches_kernel_skel
    simp only [k0_part1_eq_skeleton]
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]
    · iexists _; iexact H1
    iexists _; isplitr; · ipureintro; exact harg4.read_unread _
    iexact HS

/-! ## Region 0: the symbolic run's witnesses are those functions -/

theorem zero4_0 : (![0, 0, 0, 0] : Fin 4 → Nat) = fun _ => 0 := by funext a; fin_cases a <;> rfl
theorem zero3_0 : (![0, 0, 0] : Fin 3 → Nat) = fun _ => 0 := by funext a; fin_cases a <;> rfl

/-- A buffer overwritten whole reads back as what was written, whatever it held. -/
theorem cover_whole0 (w : S3x386x1250.Idx → Elt F .f32) (y : S3x386x1250.Idx) :
    ∃ p ∈ [(⟨Rect.unit (s := S3x386x1250) ![0, 0, 0] S3x386x1250.size inb_S3x386x1250_S3x386x1250_0_0_0, w⟩ : View.Piece (Elt F) S3x386x1250 .f32)], y ∈ p.1.set :=
  View.cover_of_tiledL [(⟨Rect.unit (s := S3x386x1250) ![0, 0, 0] S3x386x1250.size inb_S3x386x1250_S3x386x1250_0_0_0, w⟩ : View.Piece (Elt F) S3x386x1250 .f32)] S3x386x1250.size (by sl_kernel_rfl) y
theorem read_write_whole0 (v : View sig .tc .vmem S3x386x1250 .f32) (f : v.ty.Contents (Elt F)) (w : S3x386x1250.Idx → Elt F .f32) :
    v.read (Elt F) (v.writes (Elt F) f [(⟨Rect.unit (s := S3x386x1250) ![0, 0, 0] S3x386x1250.size inb_S3x386x1250_S3x386x1250_0_0_0, w⟩ : View.Piece (Elt F) S3x386x1250 .f32)]) = w :=
  (View.read_writes_eq_canon v f _ (cover_whole0 w)).trans
    (View.canon_unit_zero (S := S3x386x1250) zero3_0 inb_S3x386x1250_S3x386x1250_0_0_0 w)

theorem read_write_whole0' (v : View sig .tc .vmem S3x386x1250 .f32) (f : v.ty.Contents (Elt F)) (w : S3x386x1250.Idx → Elt F .f32) :
    v.read (Elt F) (v.writes (Elt F) f [(⟨Rect.unit (s := S3x386x1250) ![0, 0, 0] ![3, 386, 1250] inb_S3x386x1250_S3x386x1250_0_0_0, w⟩ : View.Piece (Elt F) S3x386x1250 .f32)]) = w :=
  read_write_whole0 v f w

section Witnesses
variable (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (x0 : Vec F S1x3x384x1248 .f32)

/-- Where the branch is taken the scratch ends holding the padded input block. -/
theorem canon_fill_sc0 (hc : cond0 i) :
    View.canon (runFill0 (F := F) c i arg2 harg2 arg3 harg3 arg4 harg4 hc x0).2.1 = k0_pay6 x0 := by
  unfold runFill0; dsimp only; sl_unfold_run_names
  rw [View.canon_unit_zero zero3_0]
  simp only [View.readAt_eq_ld, harg2.read_unread, View.ld_unit_zero (S := S1x3x384x1248) zero4_0]

/-- and the output block is the nine shifted windows of that padded block. -/
theorem canon_fill_out0 (hc : cond0 i) :
    View.canon (runFill0 (F := F) c i arg2 harg2 arg3 harg3 arg4 harg4 hc x0).1 = outOf0 (k0_pay6 x0) i := by
  unfold runFill0; dsimp only; sl_unfold_run_names
  unfold outOf0
  simp only [View.readAt_eq_ld, harg2.read_unread, View.ld_unit_zero (S := S1x3x384x1248) zero4_0, read_write_whole0, read_write_whole0']
  rfl

/-- Where it is not taken the output block is the nine shifted windows of what the scratch held. -/
theorem canon_keep_out0 (hc : ¬cond0 i) (xs : Vec F S3x386x1250 .f32) :
    View.canon (runKeep0 (F := F) c i arg2 harg2 arg3 harg3 arg4 harg4 hc x0 xs).1 = outOf0 xs i := by
  unfold runKeep0; dsimp only; sl_unfold_run_names
  unfold outOf0
  simp only [View.readAt_eq_ld, harg4.read_unread]
  rfl

/-- The nine stores tile the output block; the one store of the scratch is the whole scratch. -/
theorem cover_fill_out0 (hc : cond0 i) (y : S1x27x128x1248.Idx) :
    ∃ pc ∈ (runFill0 (F := F) c i arg2 harg2 arg3 harg3 arg4 harg4 hc x0).1, y ∈ pc.1.set :=
  View.cover_of_tiledL (runFill0 (F := F) c i arg2 harg2 arg3 harg3 arg4 harg4 hc x0).1 S1x3x128x1248.size (by sl_kernel_rfl) y
theorem cover_fill_sc0 (hc : cond0 i) (y : S3x386x1250.Idx) :
    ∃ pc ∈ (runFill0 (F := F) c i arg2 harg2 arg3 harg3 arg4 harg4 hc x0).2.1, y ∈ pc.1.set :=
  View.cover_of_tiledL (runFill0 (F := F) c i arg2 harg2 arg3 harg3 arg4 harg4 hc x0).2.1 S3x386x1250.size (by sl_kernel_rfl) y
theorem cover_keep_out0 (hc : ¬cond0 i) (xs : Vec F S3x386x1250 .f32) (y : S1x27x128x1248.Idx) :
    ∃ pc ∈ (runKeep0 (F := F) c i arg2 harg2 arg3 harg3 arg4 harg4 hc x0 xs).1, y ∈ pc.1.set :=
  View.cover_of_tiledL (runKeep0 (F := F) c i arg2 harg2 arg3 harg3 arg4 harg4 hc x0 xs).1 S1x3x128x1248.size (by sl_kernel_rfl) y

end Witnesses

/-! ## Region 0: the proof data, at the buffer contents `V` the region is entered with -/

section Data
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not (between fetches
    the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin cfg0.N) : Memref sig .tc .vmem S1x3x384x1248 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x27x128x1248 .f32 := win0_1.stage (cfg0.slots t 1)
abbrev hs0_1 (t : Fin cfg0.N) : (ms0_1 t).IsWhole := hstage0_1 ((cfg0.slots t 1).cast nbuf0_1)

/-- The point at which the image that point `t` belongs to was padded into the scratch: the first of its three row
    tiles. -/
def fillPt0 (t : Fin cfg0.N) : Fin cfg0.N :=
  ⟨3 * (t.val / 3), lt_of_lt_of_eq (b := 12) (by have h : t.val < 12 := lt_of_lt_of_eq t.isLt (show cfg0.N = 12 from N_0); omega) (show (12 : ℕ) = cfg0.N from N_0.symm)⟩

theorem fillPt0_of_fill (t : Fin cfg0.N) (h : t.val % 3 = 0) : fillPt0 t = t :=
  Fin.ext (by show 3 * (t.val / 3) = t.val; omega)

theorem fillPt0_pred (n : ℕ) (hn : n + 1 < cfg0.N) (h : ¬(n + 1) % 3 = 0) :
    fillPt0 ⟨n, Nat.lt_of_succ_lt hn⟩ = fillPt0 ⟨n + 1, hn⟩ :=
  Fin.ext (by show 3 * (n / 3) = 3 * ((n + 1) / 3); omega)

/-- The padded image as a function of the point whose input block it pads. -/
def padAt0 (c : Dev nD) (u : Fin cfg0.N) : Vec F S3x386x1250 .f32 := k0_pay6 (iblk0 V c 0 u)

/-- What the scratch holds after the body at point `t`: the padded image of `t`'s image, written at the first of its
    row tiles and kept since. -/
def scAt0 (c : Dev nD) (t : Fin cfg0.N) : Vec F S3x386x1250 .f32 := padAt0 V c (fillPt0 t)

/-- What the output's staging buffer holds after the body at point `t`: the nine shifted windows of that padded
    image at `t`'s row tile. -/
def outAt0 (c : Dev nD) (t : Fin cfg0.N) : Vec F S1x27x128x1248 .f32 := outOf0 (scAt0 V c t) (grid0.coords t)

/-- The core's scoped buffers other than this kernel's staging buffers and scratch (the other kernel's), each at
    something: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The scoped buffers no window stages are the scratch, at something, and those others. -/
theorem scopedRest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restBut0 c) := by
  rw [Pipeline.scopedRest_split_of_list spec0 c [cc0_scratch0] (by decide) (by decide)]
  simp only [bigSepL_singleton, scM0, owns_whole]
  try rfl

/-- The region's invariant before position `n`: before the first point the scoped buffers no window stages, at
    anything; afterwards the scratch at what the point before left in it, and the other scoped buffers at anything. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (scAt0 V c ⟨n, hn⟩) ∗ restBut0 c)

theorem PhiS0_succ (c : Dev nD) (n : ℕ) (hn : n < cfg0.N) :
    PhiS0 V c (n + 1) hn = iprop(owns (c : Thread nD τ) scM0 fullShare (scAt0 V c ⟨n, hn⟩) ∗ restBut0 c) := rfl

/-- Whatever the position, the invariant gives the scratch at something and the other scoped buffers. -/
theorem PhiS0_any (c : Dev nD) (n : ℕ) (h : n ≤ cfg0.N) :
    PhiS0 V c n h ⊢ (iprop((∃ d, owns (c : Thread nD τ) scM0 fullShare d) ∗ restBut0 c) : sProp 𝕄) := by
  cases n with
  | zero => rw [show PhiS0 V c 0 h = Pipeline.scopedRest (Ix := Unit) (Name := ℕ) (U := UR sig nD τ) (Lvl := ℕ) (Val := Elt F) spec0 c from rfl, scopedRest_split0]
  | succ n =>
    rw [PhiS0_succ]
    iintro ⟨H, Hr⟩
    isplitl [H]; · iexists _; iexact H
    iexact Hr

/-- The proof data of this pipeline on core `c`: the arrays as the region finds them; after the body at point `t` the
    input's buffer at its block and the output's at `outAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc0 (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d

/-! ## Region 0: the body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 4000000 in
/-- The body at any point. At the first row tile of an image (the branch taken) the scratch is entered at anything and
    left at the padded block of this point's input block, which is this image's; at the other row tiles it is entered
    at the padded block the first row tile left, read, and left as it was. Either way the output's buffer ends at the
    nine shifted windows of the scratch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ, after0_0, after0_1, Phi_castSucc0]
  by_cases h0 : t.val % 3 = 0
  · -- the branch is taken
    have hsc : scAt0 V c ⟨t.val, t.isLt⟩ = k0_pay6 (iblk0 V c 0 t) := by
      show padAt0 V c (fillPt0 t) = padAt0 V c t
      rw [fillPt0_of_fill t h0]
    have hout : outAt0 V c t = outOf0 (k0_pay6 (iblk0 V c 0 t)) (grid0.coords t) := by
      show outOf0 (scAt0 V c ⟨t.val, t.isLt⟩) (grid0.coords t) = _
      rw [hsc]
    rw [hsc, hout]
    iintro ⟨HΦ, Ho, ⟨%d0, H0⟩, ⟨%d1, H1⟩⟩
    ihave HΦ' := (PhiS0_any V c t.val (Nat.le_of_lt t.isLt)) $$ HΦ
    icases HΦ' with ⟨HS, Hr⟩
    iapply ((runFill0 c (grid0.coords t) _ (hs0_0 t) _ (hs0_1 t) scM0 (Memref.isWhole_whole _) ((hcond0 t).mpr h0) (iblk0 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr]
    · isplitl [HS]
      · unfold owns; iexists _; isplitr
        swap; · iexact HS
        ipureintro
        exact (View.read_writes_eq_canon _ _ _ (cover_fill_sc0 c _ _ _ _ _ _ _ _ _)).trans (canon_fill_sc0 c _ _ _ _ _ _ _ _ _)
      iexact Hr
    isplitl [Ho]; · iexact Ho
    isplitl [H0]; · iexact H0
    unfold owns; iexists _; isplitr
    swap; · iexact H1
    ipureintro
    exact (View.read_writes_eq_canon _ _ _ (cover_fill_out0 c _ _ _ _ _ _ _ _ _)).trans (canon_fill_out0 c _ _ _ _ _ _ _ _ _)
  · -- the branch is not taken: not the first point, and the same image as the point before
    obtain ⟨n, hn⟩ := t
    cases n with
    | zero => exact absurd (Nat.zero_mod _) h0
    | succ n =>
      have hsc : scAt0 V c ⟨n + 1, hn⟩ = scAt0 V c ⟨n, Nat.lt_of_succ_lt hn⟩ := by
        show padAt0 V c (fillPt0 ⟨n + 1, hn⟩) = padAt0 V c (fillPt0 ⟨n, Nat.lt_of_succ_lt hn⟩)
        rw [fillPt0_pred n hn h0]
      have hout : outAt0 V c ⟨n + 1, hn⟩ = outOf0 (scAt0 V c ⟨n, Nat.lt_of_succ_lt hn⟩) (grid0.coords ⟨n + 1, hn⟩) := by
        show outOf0 (scAt0 V c ⟨n + 1, hn⟩) _ = _
        rw [hsc]
      rw [show PhiS0 V c (n + 1) (Nat.le_of_lt hn) = iprop(owns (c : Thread nD τ) scM0 fullShare (scAt0 V c ⟨n, Nat.lt_of_succ_lt hn⟩) ∗ restBut0 c) from rfl]
      rw [show scAt0 V c ⟨(⟨n + 1, hn⟩ : Fin cfg0.N).val, hn⟩ = scAt0 V c ⟨n, Nat.lt_of_succ_lt hn⟩ from hsc, hout]
      iintro ⟨⟨HS, Hr⟩, Ho, ⟨%d0, H0⟩, ⟨%d1, H1⟩⟩
      iapply ((runKeep0 c (grid0.coords ⟨n + 1, hn⟩) _ (hs0_0 ⟨n + 1, hn⟩) _ (hs0_1 ⟨n + 1, hn⟩) scM0 (Memref.isWhole_whole _) (fun h => h0 ((hcond0 ⟨n + 1, hn⟩).mp h)) (iblk0 V c 0 ⟨n + 1, hn⟩) (scAt0 V c ⟨n, Nat.lt_of_succ_lt hn⟩)).2 Set.univ _)
      isplitl [H0]; · iexact H0
      isplitl [H1]; · iexists _; iexact H1
      isplitl [HS]; · iexact HS
      iintro ⟨H0, ⟨%e1, H1⟩, HS⟩
      isplitl [HS Hr]
      · isplitl [HS]; · iexact HS
        iexact Hr
      isplitl [Ho]; · iexact Ho
      isplitl [H0]; · iexact H0
      unfold owns; iexists _; isplitr
      swap; · iexact H1
      ipureintro
      exact (View.read_writes_eq_canon _ _ _ (cover_keep_out0 c _ _ _ _ _ _ _ _ _ _)).trans (canon_keep_out0 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.Kernel.Hand

end
-- ==== Proof.KernelR1Defs.lean ====
/-
  Region 1 of the program (the patch kernel run on argument 1): the body's one branch, its scratch, and what the body
  computes written as plain functions of the scratch contents — no memory, no separation logic.
-/
import proofs.«113457_j14800457302529_2_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.SL.Sem

variable {F : FTy → Type} [FloatOps F]

/-! ## Region 1: when the body refills its padded scratch -/

/-- The body's one branch: taken exactly when the point's second grid coordinate (the row tile) is 0, that is at the
    first of the three row tiles of each image. -/
abbrev cond1 (i : grid1.Coords) : Prop :=
  (Scalar.cmpi .ne (Scalar.extui (Scalar.cmpi .eq (BitVec.ofNat 32 (i 1).val) 0#32)) 0#32) = 1#1

/-- Over the 12 grid points (4 images × 3 row tiles, row tile fastest) the branch is taken at the points ≡ 0 mod 3. -/
theorem hcond1 : ∀ t : Fin cfg1.N, cond1 (grid1.coords t) ↔ t.val % 3 = 0 :=
  (by decide +kernel : ∀ t : Fin grid1.N, cond1 (grid1.coords t) ↔ t.val % 3 = 0)

/-- The kernel's scratch operand: the whole scoped buffer that holds the padded image between grid points. -/
abbrev scM1 : Memref sig .tc .vmem S3x386x1250 .f32 := Memref.whole cc1_scratch0

/-! ## Region 1: what the body computes, as plain functions -/

/-- The window of the padded scratch the body reads for vertical shift `r` (0, 1 or 2): all three channels, the 128
    rows starting at row `128·(row tile) + r`, all 1250 columns. -/
abbrev win1R (i : grid1.Coords) (r : Fin 3) : Rect S3x386x1250 :=
  Rect.unit (s := S3x386x1250) (k1_off1 i (BitVec.ofNat 32 r.val)) S3x128x1250.size (k1_off1_inb i r)

/-- The output block the body leaves when the scratch holds `s`: nine groups of three channels, group `3·dy + dx`
    being the window of `s` at vertical shift `dy` cut to the 1248 columns starting at column `dx` (listed last
    store first, as a list of pieces that tile the block). -/
def outOf1 (s : Vec F S3x386x1250 .f32) (i : grid1.Coords) : Vec F S1x27x128x1248 .f32 :=
  View.canon [
    ⟨Rect.unit (s := S1x27x128x1248) ![0, 24, 0, 0] S1x3x128x1248.size inb_S1x27x128x1248_S1x3x128x1248_0_24_0_0, k1_pay5 (View.ld s (win1R i 2))⟩,
    ⟨Rect.unit (s := S1x27x128x1248) ![0, 21, 0, 0] S1x3x128x1248.size inb_S1x27x128x1248_S1x3x128x1248_0_21_0_0, k1_pay4 (View.ld s (win1R i 2))⟩,
    ⟨Rect.unit (s := S1x27x128x1248) ![0, 18, 0, 0] S1x3x128x1248.size inb_S1x27x128x1248_S1x3x128x1248_0_18_0_0, k1_pay3 (View.ld s (win1R i 2))⟩,
    ⟨Rect.unit (s := S1x27x128x1248) ![0, 15, 0, 0] S1x3x128x1248.size inb_S1x27x128x1248_S1x3x128x1248_0_15_0_0, k1_pay2 (View.ld s (win1R i 1))⟩,
    ⟨Rect.unit (s := S1x27x128x1248) ![0, 12, 0, 0] S1x3x128x1248.size inb_S1x27x128x1248_S1x3x128x1248_0_12_0_0, k1_pay1 (k1_pay11 (View.ld s (win1R i 1)))⟩,
    ⟨Rect.unit (s := S1x27x128x1248) ![0, 9, 0, 0] S1x3x128x1248.size inb_S1x27x128x1248_S1x3x128x1248_0_9_0_0, k1_pay10 (View.ld s (win1R i 1))⟩,
    ⟨Rect.unit (s := S1x27x128x1248) ![0, 6, 0, 0] S1x3x128x1248.size inb_S1x27x128x1248_S1x3x128x1248_0_6_0_0, k1_pay9 (View.ld s (win1R i 0))⟩,
    ⟨Rect.unit (s := S1x27x128x1248) ![0, 3, 0, 0] S1x3x128x1248.size inb_S1x27x128x1248_S1x3x128x1248_0_3_0_0, k1_pay8 (View.ld s (win1R i 0))⟩,
    ⟨Rect.unit (s := S1x27x128x1248) ![0, 0, 0, 0] S1x3x128x1248.size inb_S1x27x128x1248_S1x3x128x1248_0_0_0_0, k1_pay7 (View.ld s (win1R i 0))⟩]

end Cert.Kernel.Hand

end
-- ==== Proof.KernelR1.lean ====
/-
  Region 1 of the program (the patch kernel run on argument 1) as a pipeline region: the body run symbolically in its
  two cases (the padded scratch refilled at the first row tile of an image; kept and only read at the other two), what
  each case leaves in the scratch and in the output's staging buffer as the plain functions of the Defs module, the
  pipeline's proof data with the scratch CARRIED between grid points in the region invariant, and the body obligation.
-/
import proofs.«113457_j14800457302529_2_alg».proof.Proof.Gen.Kernel.Launch
import proofs.«113457_j14800457302529_2_alg».proof.Proof.Gen.Kernel.Skeleton
import proofs.«113457_j14800457302529_2_alg».proof.Proof.Gen.Kernel.Points
import proofs.«113457_j14800457302529_2_alg».proof.Proof.KernelR1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken. From the input block `x0` in its staging buffer, the output's
    staging buffer and the scratch at anything, the body overwrites the whole scratch (with the padded block), then
    copies nine shifted windows of the scratch into the nine channel groups of the output buffer. The witnesses are
    the pieces each buffer ends up written with (last store first). -/
noncomputable def runFill1 (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : cond1 i) (x0 : Vec F S1x3x384x1248 .f32) :
    Σ' (L1 : List (View.Piece (Elt F) S1x27x128x1248 .f32)), { LS : List (View.Piece (Elt F) S3x386x1250 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS)) -∗ K ⟨⟩))
          ⊢ wp frame (wpE (defs₀ (F := F)) Variants.none c none) E (cc1__extract_patches_kernel i arg2 harg2 arg3 harg3 arg4 harg4) K } := by
  refine ⟨?_, ?_, fun E K => ?run⟩
  case run =>
    simp only [cc1__extract_patches_kernel_eq_skeleton]; unfold cc1__extract_patches_kernel_skel
    simp only [k1_part1_eq_skeleton]
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]
    · iexists _; iexact H1
    iexists _; iexact HS

set_option maxHeartbeats 4000000 in
/-- The body at a point where the branch is not taken. The scratch still holds what an earlier point left (`xs`) and
    is only read: the body copies nine shifted windows of it into the nine channel groups of the output buffer. The
    witness is the list of pieces the output buffer ends up written with (last store first). -/
noncomputable def runKeep1 (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : ¬cond1 i) (x0 : Vec F S1x3x384x1248 .f32) (xs : Vec F S3x386x1250 .f32) :
    { L1 : List (View.Piece (Elt F) S1x27x128x1248 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f L1)
                ∗ owns (c : Thread nD τ) arg4 fullShare xs) -∗ K ⟨⟩))
          ⊢ wp frame (wpE (defs₀ (F := F)) Variants.none c none) E (cc1__extract_patches_kernel i arg2 harg2 arg3 harg3 arg4 harg4) K } := by
  refine ⟨?_, fun E K => ?run⟩
  case run =>
    simp only [cc1__extract_patches_kernel_eq_skeleton]; unfold cc1__extract_patches_kernel_skel
    simp only [k1_part1_eq_skeleton]
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]
    · iexists _; iexact H1
    iexists _; isplitr; · ipureintro; exact harg4.read_unread _
    iexact HS

/-! ## Region 1: the symbolic run's witnesses are those functions -/

theorem zero4_1 : (![0, 0, 0, 0] : Fin 4 → Nat) = fun _ => 0 := by funext a; fin_cases a <;> rfl
theorem zero3_1 : (![0, 0, 0] : Fin 3 → Nat) = fun _ => 0 := by funext a; fin_cases a <;> rfl

/-- A buffer overwritten whole reads back as what was written, whatever it held. -/
theorem cover_whole1 (w : S3x386x1250.Idx → Elt F .f32) (y : S3x386x1250.Idx) :
    ∃ p ∈ [(⟨Rect.unit (s := S3x386x1250) ![0, 0, 0] S3x386x1250.size inb_S3x386x1250_S3x386x1250_0_0_0, w⟩ : View.Piece (Elt F) S3x386x1250 .f32)], y ∈ p.1.set :=
  View.cover_of_tiledL [(⟨Rect.unit (s := S3x386x1250) ![0, 0, 0] S3x386x1250.size inb_S3x386x1250_S3x386x1250_0_0_0, w⟩ : View.Piece (Elt F) S3x386x1250 .f32)] S3x386x1250.size (by sl_kernel_rfl) y
theorem read_write_whole1 (v : View sig .tc .vmem S3x386x1250 .f32) (f : v.ty.Contents (Elt F)) (w : S3x386x1250.Idx → Elt F .f32) :
    v.read (Elt F) (v.writes (Elt F) f [(⟨Rect.unit (s := S3x386x1250) ![0, 0, 0] S3x386x1250.size inb_S3x386x1250_S3x386x1250_0_0_0, w⟩ : View.Piece (Elt F) S3x386x1250 .f32)]) = w :=
  (View.read_writes_eq_canon v f _ (cover_whole1 w)).trans
    (View.canon_unit_zero (S := S3x386x1250) zero3_1 inb_S3x386x1250_S3x386x1250_0_0_0 w)

theorem read_write_whole1' (v : View sig .tc .vmem S3x386x1250 .f32) (f : v.ty.Contents (Elt F)) (w : S3x386x1250.Idx → Elt F .f32) :
    v.read (Elt F) (v.writes (Elt F) f [(⟨Rect.unit (s := S3x386x1250) ![0, 0, 0] ![3, 386, 1250] inb_S3x386x1250_S3x386x1250_0_0_0, w⟩ : View.Piece (Elt F) S3x386x1250 .f32)]) = w :=
  read_write_whole1 v f w

section Witnesses
variable (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (x0 : Vec F S1x3x384x1248 .f32)

/-- Where the branch is taken the scratch ends holding the padded input block. -/
theorem canon_fill_sc1 (hc : cond1 i) :
    View.canon (runFill1 (F := F) c i arg2 harg2 arg3 harg3 arg4 harg4 hc x0).2.1 = k1_pay6 x0 := by
  unfold runFill1; dsimp only; sl_unfold_run_names
  rw [View.canon_unit_zero zero3_1]
  simp only [View.readAt_eq_ld, harg2.read_unread, View.ld_unit_zero (S := S1x3x384x1248) zero4_1]

/-- and the output block is the nine shifted windows of that padded block. -/
theorem canon_fill_out1 (hc : cond1 i) :
    View.canon (runFill1 (F := F) c i arg2 harg2 arg3 harg3 arg4 harg4 hc x0).1 = outOf1 (k1_pay6 x0) i := by
  unfold runFill1; dsimp only; sl_unfold_run_names
  unfold outOf1
  simp only [View.readAt_eq_ld, harg2.read_unread, View.ld_unit_zero (S := S1x3x384x1248) zero4_1, read_write_whole1, read_write_whole1']
  rfl

/-- Where it is not taken the output block is the nine shifted windows of what the scratch held. -/
theorem canon_keep_out1 (hc : ¬cond1 i) (xs : Vec F S3x386x1250 .f32) :
    View.canon (runKeep1 (F := F) c i arg2 harg2 arg3 harg3 arg4 harg4 hc x0 xs).1 = outOf1 xs i := by
  unfold runKeep1; dsimp only; sl_unfold_run_names
  unfold outOf1
  simp only [View.readAt_eq_ld, harg4.read_unread]
  rfl

/-- The nine stores tile the output block; the one store of the scratch is the whole scratch. -/
theorem cover_fill_out1 (hc : cond1 i) (y : S1x27x128x1248.Idx) :
    ∃ pc ∈ (runFill1 (F := F) c i arg2 harg2 arg3 harg3 arg4 harg4 hc x0).1, y ∈ pc.1.set :=
  View.cover_of_tiledL (runFill1 (F := F) c i arg2 harg2 arg3 harg3 arg4 harg4 hc x0).1 S1x3x128x1248.size (by sl_kernel_rfl) y
theorem cover_fill_sc1 (hc : cond1 i) (y : S3x386x1250.Idx) :
    ∃ pc ∈ (runFill1 (F := F) c i arg2 harg2 arg3 harg3 arg4 harg4 hc x0).2.1, y ∈ pc.1.set :=
  View.cover_of_tiledL (runFill1 (F := F) c i arg2 harg2 arg3 harg3 arg4 harg4 hc x0).2.1 S3x386x1250.size (by sl_kernel_rfl) y
theorem cover_keep_out1 (hc : ¬cond1 i) (xs : Vec F S3x386x1250 .f32) (y : S1x27x128x1248.Idx) :
    ∃ pc ∈ (runKeep1 (F := F) c i arg2 harg2 arg3 harg3 arg4 harg4 hc x0 xs).1, y ∈ pc.1.set :=
  View.cover_of_tiledL (runKeep1 (F := F) c i arg2 harg2 arg3 harg3 arg4 harg4 hc x0 xs).1 S1x3x128x1248.size (by sl_kernel_rfl) y

end Witnesses

/-! ## Region 1: the proof data, at the buffer contents `V` the region is entered with -/

section Data
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (between fetches
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S1x3x384x1248 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x27x128x1248 .f32 := win1_1.stage (cfg1.slots t 1)
abbrev hs1_1 (t : Fin cfg1.N) : (ms1_1 t).IsWhole := hstage1_1 ((cfg1.slots t 1).cast nbuf1_1)

/-- The point at which the image that point `t` belongs to was padded into the scratch: the first of its three row
    tiles. -/
def fillPt1 (t : Fin cfg1.N) : Fin cfg1.N :=
  ⟨3 * (t.val / 3), lt_of_lt_of_eq (b := 12) (by have h : t.val < 12 := lt_of_lt_of_eq t.isLt (show cfg1.N = 12 from N_1); omega) (show (12 : ℕ) = cfg1.N from N_1.symm)⟩

theorem fillPt1_of_fill (t : Fin cfg1.N) (h : t.val % 3 = 0) : fillPt1 t = t :=
  Fin.ext (by show 3 * (t.val / 3) = t.val; omega)

theorem fillPt1_pred (n : ℕ) (hn : n + 1 < cfg1.N) (h : ¬(n + 1) % 3 = 0) :
    fillPt1 ⟨n, Nat.lt_of_succ_lt hn⟩ = fillPt1 ⟨n + 1, hn⟩ :=
  Fin.ext (by show 3 * (n / 3) = 3 * ((n + 1) / 3); omega)

/-- The padded image as a function of the point whose input block it pads. -/
def padAt1 (c : Dev nD) (u : Fin cfg1.N) : Vec F S3x386x1250 .f32 := k1_pay6 (iblk1 V c 0 u)

/-- What the scratch holds after the body at point `t`: the padded image of `t`'s image, written at the first of its
    row tiles and kept since. -/
def scAt1 (c : Dev nD) (t : Fin cfg1.N) : Vec F S3x386x1250 .f32 := padAt1 V c (fillPt1 t)

/-- What the output's staging buffer holds after the body at point `t`: the nine shifted windows of that padded
    image at `t`'s row tile. -/
def outAt1 (c : Dev nD) (t : Fin cfg1.N) : Vec F S1x27x128x1248 .f32 := outOf1 (scAt1 V c t) (grid1.coords t)

/-- The core's scoped buffers other than this kernel's staging buffers and scratch (the other kernel's), each at
    something: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The scoped buffers no window stages are the scratch, at something, and those others. -/
theorem scopedRest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ restBut1 c) := by
  rw [Pipeline.scopedRest_split_of_list spec1 c [cc1_scratch0] (by decide) (by decide)]
  simp only [bigSepL_singleton, scM1, owns_whole]
  try rfl

/-- The region's invariant before position `n`: before the first point the scoped buffers no window stages, at
    anything; afterwards the scratch at what the point before left in it, and the other scoped buffers at anything. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1 fullShare (scAt1 V c ⟨n, hn⟩) ∗ restBut1 c)

theorem PhiS1_succ (c : Dev nD) (n : ℕ) (hn : n < cfg1.N) :
    PhiS1 V c (n + 1) hn = iprop(owns (c : Thread nD τ) scM1 fullShare (scAt1 V c ⟨n, hn⟩) ∗ restBut1 c) := rfl

/-- Whatever the position, the invariant gives the scratch at something and the other scoped buffers. -/
theorem PhiS1_any (c : Dev nD) (n : ℕ) (h : n ≤ cfg1.N) :
    PhiS1 V c n h ⊢ (iprop((∃ d, owns (c : Thread nD τ) scM1 fullShare d) ∗ restBut1 c) : sProp 𝕄) := by
  cases n with
  | zero => rw [show PhiS1 V c 0 h = Pipeline.scopedRest (Ix := Unit) (Name := ℕ) (U := UR sig nD τ) (Lvl := ℕ) (Val := Elt F) spec1 c from rfl, scopedRest_split1]
  | succ n =>
    rw [PhiS1_succ]
    iintro ⟨H, Hr⟩
    isplitl [H]; · iexists _; iexact H
    iexact Hr

/-- The proof data of this pipeline on core `c`: the arrays as the region finds them; after the body at point `t` the
    input's buffer at its block and the output's at `outAt`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc1 (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d

/-! ## Region 1: the body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4000000 in
/-- The body at any point. At the first row tile of an image (the branch taken) the scratch is entered at anything and
    left at the padded block of this point's input block, which is this image's; at the other row tiles it is entered
    at the padded block the first row tile left, read, and left as it was. Either way the output's buffer ends at the
    nine shifted windows of the scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ, after1_0, after1_1, Phi_castSucc1]
  by_cases h0 : t.val % 3 = 0
  · -- the branch is taken
    have hsc : scAt1 V c ⟨t.val, t.isLt⟩ = k1_pay6 (iblk1 V c 0 t) := by
      show padAt1 V c (fillPt1 t) = padAt1 V c t
      rw [fillPt1_of_fill t h0]
    have hout : outAt1 V c t = outOf1 (k1_pay6 (iblk1 V c 0 t)) (grid1.coords t) := by
      show outOf1 (scAt1 V c ⟨t.val, t.isLt⟩) (grid1.coords t) = _
      rw [hsc]
    rw [hsc, hout]
    iintro ⟨HΦ, Ho, ⟨%d0, H0⟩, ⟨%d1, H1⟩⟩
    ihave HΦ' := (PhiS1_any V c t.val (Nat.le_of_lt t.isLt)) $$ HΦ
    icases HΦ' with ⟨HS, Hr⟩
    iapply ((runFill1 c (grid1.coords t) _ (hs1_0 t) _ (hs1_1 t) scM1 (Memref.isWhole_whole _) ((hcond1 t).mpr h0) (iblk1 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr]
    · isplitl [HS]
      · unfold owns; iexists _; isplitr
        swap; · iexact HS
        ipureintro
        exact (View.read_writes_eq_canon _ _ _ (cover_fill_sc1 c _ _ _ _ _ _ _ _ _)).trans (canon_fill_sc1 c _ _ _ _ _ _ _ _ _)
      iexact Hr
    isplitl [Ho]; · iexact Ho
    isplitl [H0]; · iexact H0
    unfold owns; iexists _; isplitr
    swap; · iexact H1
    ipureintro
    exact (View.read_writes_eq_canon _ _ _ (cover_fill_out1 c _ _ _ _ _ _ _ _ _)).trans (canon_fill_out1 c _ _ _ _ _ _ _ _ _)
  · -- the branch is not taken: not the first point, and the same image as the point before
    obtain ⟨n, hn⟩ := t
    cases n with
    | zero => exact absurd (Nat.zero_mod _) h0
    | succ n =>
      have hsc : scAt1 V c ⟨n + 1, hn⟩ = scAt1 V c ⟨n, Nat.lt_of_succ_lt hn⟩ := by
        show padAt1 V c (fillPt1 ⟨n + 1, hn⟩) = padAt1 V c (fillPt1 ⟨n, Nat.lt_of_succ_lt hn⟩)
        rw [fillPt1_pred n hn h0]
      have hout : outAt1 V c ⟨n + 1, hn⟩ = outOf1 (scAt1 V c ⟨n, Nat.lt_of_succ_lt hn⟩) (grid1.coords ⟨n + 1, hn⟩) := by
        show outOf1 (scAt1 V c ⟨n + 1, hn⟩) _ = _
        rw [hsc]
      rw [show PhiS1 V c (n + 1) (Nat.le_of_lt hn) = iprop(owns (c : Thread nD τ) scM1 fullShare (scAt1 V c ⟨n, Nat.lt_of_succ_lt hn⟩) ∗ restBut1 c) from rfl]
      rw [show scAt1 V c ⟨(⟨n + 1, hn⟩ : Fin cfg1.N).val, hn⟩ = scAt1 V c ⟨n, Nat.lt_of_succ_lt hn⟩ from hsc, hout]
      iintro ⟨⟨HS, Hr⟩, Ho, ⟨%d0, H0⟩, ⟨%d1, H1⟩⟩
      iapply ((runKeep1 c (grid1.coords ⟨n + 1, hn⟩) _ (hs1_0 ⟨n + 1, hn⟩) _ (hs1_1 ⟨n + 1, hn⟩) scM1 (Memref.isWhole_whole _) (fun h => h0 ((hcond1 ⟨n + 1, hn⟩).mp h)) (iblk1 V c 0 ⟨n + 1, hn⟩) (scAt1 V c ⟨n, Nat.lt_of_succ_lt hn⟩)).2 Set.univ _)
      isplitl [H0]; · iexact H0
      isplitl [H1]; · iexists _; iexact H1
      isplitl [HS]; · iexact HS
      iintro ⟨H0, ⟨%e1, H1⟩, HS⟩
      isplitl [HS Hr]
      · isplitl [HS]; · iexact HS
        iexact Hr
      isplitl [Ho]; · iexact Ho
      isplitl [H0]; · iexact H0
      unfold owns; iexists _; isplitr
      swap; · iexact H1
      ipureintro
      exact (View.read_writes_eq_canon _ _ _ (cover_keep_out1 c _ _ _ _ _ _ _ _ _ _)).trans (canon_keep_out1 c _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Hand

end
-- ==== Proof.KernelFrame.lean ====
/-
  The program's run from launch to return, region by region: the buffer contents at each boundary (the launch memory;
  after region 0, its result array at what the twelve write-backs leave; after region 1, likewise; then the host
  operations that build the 9×9 identity and reshape it), one pipeline-region record per kernel launch over the
  proof data with the carried scratch, and the run itself — every weakly fair execution terminates, nothing faults,
  and every unscoped buffer ends at the last boundary's contents. The frame claim (the arguments end as launched)
  and the results' values are read off that.
-/
import proofs.«113457_j14800457302529_2_alg».proof.Proof.KernelR0
import proofs.«113457_j14800457302529_2_alg».proof.Proof.KernelR1
import proofs.«113457_j14800457302529_2_alg».proof.Proof.Gen.Kernel.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
/-- The same read at the TensorCore's references (what region 0's proof data take). -/
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents, region 1's entry). -/
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (Ve1 m) c).arrAt w cfg1.N
theorem W2_arr (c : Dev nD) (w : Fin cfg1.W) :
    W2 m c (Proc.devRef .tc (Pipeline.arrRef spec1 w)) = (dat1 (Ve1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Ve2 : (c : Dev nD) → (b : Ref sig .tc) → Buf (Elt F) ((c : Thread nD τ).loc b) := fun c b => W2 m c b
theorem hF1 (c : Dev nD) (w : Fin cfg1.W) : (dat1 (Ve1 m) c).arrAt w cfg1.N = Ve2 m c (Pipeline.arrRef spec1 w) :=
  (W2_arr m c w).symm
theorem hrest1 (c : Dev nD) : ∀ b, b ∉ Finset.univ.image (Pipeline.arrRef spec1) → Ve2 m c b = Ve1 m c b :=
  fun b hb => W2_of_ne m c b fun w e => hb (Finset.mem_image.mpr ⟨w, Finset.mem_univ _, e⟩)

/-- After the host operations that follow the two regions. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 over the thread state "every unscoped buffer at the boundary's contents, the generator register at some
    state, nothing owed": its two arrays are split out of the unscoped buffers on entry and put back at what the
    write-backs leave on exit; the scoped buffers no window stages enter the invariant as they are and come back with
    the scratch at whatever the last point left; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X _ := BI.emp
  Y _ := BI.emp
  Z c := iprop(Pipeline.unscopedRest (Ix := Unit) (Name := ℕ) (U := UR sig nD τ) (Lvl := ℕ) spec0 c (Ve0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none]
    show (pdats m 0 c).Φ (Fin.last cfg0.N) ⊢ (iprop(BI.emp ∗ BI.emp ∗ Pipeline.scopedRest (Ix := Unit) (Name := ℕ) (U := UR sig nD τ) (Lvl := ℕ) (Val := Elt F) spec0 c) : sProp 𝕄)
    rw [scopedRest_split0]
    have h : (pdats m 0 c).Φ (Fin.last cfg0.N) ⊢ (iprop((∃ d, owns (c : Thread nD τ) scM0 fullShare d) ∗ restBut0 c) : sProp 𝕄) :=
      PhiS0_any (Ve0 m) c (Fin.last cfg0.N).val (Nat.le_of_lt_succ (Fin.last cfg0.N).isLt)
    iintro HΦ
    isplitr; · iempintro
    isplitr; · iempintro
    iapply h
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => W1 m c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state "every unscoped buffer at the boundary's contents, the generator register at some
    state, nothing owed": its two arrays are split out of the unscoped buffers on entry and put back at what the
    write-backs leave on exit; the scoped buffers no window stages enter the invariant as they are and come back with
    the scratch at whatever the last point left; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec1 c (Ve1 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none]
    show (pdats m 1 c).Φ (Fin.last cfg1.N) ⊢ (iprop(BI.emp ∗ BI.emp ∗ Pipeline.scopedRest (Ix := Unit) (Name := ℕ) (U := UR sig nD τ) (Lvl := ℕ) (Val := Elt F) spec1 c) : sProp 𝕄)
    rw [scopedRest_split1]
    have h : (pdats m 1 c).Φ (Fin.last cfg1.N) ⊢ (iprop((∃ d, owns (c : Thread nD τ) scM1 fullShare d) ∗ restBut1 c) : sProp 𝕄) :=
      PhiS1_any (Ve1 m) c (Fin.last cfg1.N).val (Nat.le_of_lt_succ (Fin.last cfg1.N).isLt)
    iintro HΦ
    isplitr; · iempintro
    isplitr; · iempintro
    iapply h
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => W2 m c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the run -/

/-- The host operations after the regions as a segment, from region 1's exit contents. -/
def hostSeg : HostSeg (Name := ℕ) (U := UR sig nD τ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- @main's three segments in order (the same on every core). -/
abbrev segs (c : Dev nD) : List (Seg (pcfgs (F := F)) adm (pdats m) () defs₀ 𝒱₀ L lv) :=
  [.region (reg0 m), .region (reg1 m), .host (hostSeg m)]

-- the launch theorem's implicit arguments are found by unifying its conclusion with this one, which takes unfolding plain
-- definitions in a metavariable's type
set_option backward.isDefEq.respectTransparency.types false in
/-- THE RUN. From any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W3 m c))
    (hch := fun c => ⟨.rfl, .rfl, .rfl, sep_mono .rfl (by iintro ⟨-, H⟩; iexact H)⟩)
    (hinit := ?_) (QY := fun c s => ∀ b ∈ Pipeline.ucRefs τ sig, s.mem (((c : Thread nD τ)).1, b) = W3 m c b)
    (hfin := fun c s' => ?_) (hQ := fun _ h => h)
  · -- the launch: the unscoped buffers are held at the launch memory; the register and the empty `owes` ride along
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => (((c : Thread nD τ)).1, b)) (W3 m c) s')
    isplitl [Hh] <;> iassumption

/-! ## The last boundary's contents, buffer by buffer -/

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations after the regions write none of the regions' arrays. -/
theorem W3_of (c : Dev nD) (r : Ref sig .tc) (h : r ∉ hostOps2_W) : W3 m c r = W2 m c r :=
  StableHlo.after_of_writes_sub hostOps2 _ hostOps2_writes h

/-- Argument 0 ends as launched: no host operation writes it, region 1 does not touch it, region 0 only reads it. -/
theorem W3_main_arg0 (c : Dev nD) : W3 m c main_arg0 = m ((c : Thread nD τ).loc main_arg0) :=
  calc W3 m c main_arg0
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl

/-- Argument 1 ends as launched: no host operation writes it, region 1 only reads it, region 0 does not touch it. -/
theorem W3_main_arg1 (c : Dev nD) : W3 m c main_arg1 = m ((c : Thread nD τ).loc main_arg1) :=
  calc W3 m c main_arg1
    _ = W2 m c (Proc.devRef .tc main_arg1) := W3_of m c main_arg1 (by decide)
    _ = W1 m c (Proc.devRef .tc main_arg1) := (W2_arr m c 0).trans (((dat1 (Ve1 m) c).arrAt_in 0 rfl _).trans (A_eq1 (Ve1 m) c 0))
    _ = W0 m c (Proc.devRef .tc main_arg1) := W1_of_ne m c main_arg1 (by decide)
    _ = m ((c : Thread nD τ).loc main_arg1) := rfl

/-- Region 1 reads argument 1 as launched. -/
theorem Ve1_main_arg1 (c : Dev nD) : Ve1 m c main_arg1 = m ((c : Thread nD τ).loc main_arg1) :=
  (W1_of_ne m c main_arg1 (by decide)).trans rfl

/-- The first result ends at what region 0's twelve write-backs leave. -/
theorem W3_main_v0 (c : Dev nD) : W3 m c main_v0 = (dat0 (Ve0 m) c).arrAt 1 cfg0.N :=
  calc W3 m c main_v0
    _ = W2 m c (Proc.devRef .tc main_v0) := W3_of m c main_v0 (by decide)
    _ = W1 m c (Proc.devRef .tc main_v0) := W2_of_ne m c main_v0 (by decide)
    _ = (dat0 (Ve0 m) c).arrAt 1 cfg0.N := W1_arr m c 1

/-- The second result ends at what region 1's twelve write-backs leave. -/
theorem W3_main_v1 (c : Dev nD) : W3 m c main_v1 = (dat1 (Ve1 m) c).arrAt 1 cfg1.N :=
  calc W3 m c main_v1
    _ = W2 m c (Proc.devRef .tc main_v1) := W3_of m c main_v1 (by decide)
    _ = (dat1 (Ve1 m) c).arrAt 1 cfg1.N := W2_arr m c 1

/-- The third result is the host operations' own term: the 9×9 comparison of the two iotas, converted and reshaped. -/
theorem W3_main_v8 (c : Dev nD) : (W3 m c main_v8 : (⟨S9x1x1x3x3, .f32⟩ : BufTy).Contents (Elt F))
    = shapeCast _ (uitofp .f32 (cmpi .eq (addi (iotaInDim S9x9 32 0) (broadcastInDim S9x9 ![] bcast_S_S9x9 (constantI S_ 32 0#32))) (iotaInDim S9x9 32 1))) shapeCasts_S9x9_S9x1x1x3x3 := by
  show StableHlo.after hostOps2 _ (Proc.devRef .tc main_v8) = _
  after_results
  rfl

end Cert.Kernel.Hand

end
-- ==== Proof.KernelIdealR0Defs.lean ====
/-
  Region 0 of the program (the patch kernel run on argument 0): the body's one branch, its scratch, and what the body
  computes written as plain functions of the scratch contents — no memory, no separation logic.
-/
import proofs.«113457_j14800457302529_2_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.SL.Sem

variable {F : FTy → Type} [FloatOps F]

/-! ## Region 0: when the body refills its padded scratch -/

/-- The body's one branch: taken exactly when the point's second grid coordinate (the row tile) is 0, that is at the
    first of the three row tiles of each image. -/
abbrev cond0 (i : grid0.Coords) : Prop :=
  (Scalar.cmpi .ne (Scalar.extui (Scalar.cmpi .eq (BitVec.ofNat 32 (i 1).val) 0#32)) 0#32) = 1#1

/-- Over the 12 grid points (4 images × 3 row tiles, row tile fastest) the branch is taken at the points ≡ 0 mod 3. -/
theorem hcond0 : ∀ t : Fin cfg0.N, cond0 (grid0.coords t) ↔ t.val % 3 = 0 :=
  (by decide +kernel : ∀ t : Fin grid0.N, cond0 (grid0.coords t) ↔ t.val % 3 = 0)

/-- The kernel's scratch operand: the whole scoped buffer that holds the padded image between grid points. -/
abbrev scM0 : Memref sig .tc .vmem S3x386x1250 .f32 := Memref.whole cc0_scratch0

/-! ## Region 0: what the body computes, as plain functions -/

/-- The window of the padded scratch the body reads for vertical shift `r` (0, 1 or 2): all three channels, the 128
    rows starting at row `128·(row tile) + r`, all 1250 columns. -/
abbrev win0R (i : grid0.Coords) (r : Fin 3) : Rect S3x386x1250 :=
  Rect.unit (s := S3x386x1250) (k0_off1 i (BitVec.ofNat 32 r.val)) S3x128x1250.size (k0_off1_inb i r)

/-- The output block the body leaves when the scratch holds `s`: nine groups of three channels, group `3·dy + dx`
    being the window of `s` at vertical shift `dy` cut to the 1248 columns starting at column `dx` (listed last
    store first, as a list of pieces that tile the block). -/
def outOf0 (s : Vec F S3x386x1250 .f32) (i : grid0.Coords) : Vec F S1x27x128x1248 .f32 :=
  View.canon [
    ⟨Rect.unit (s := S1x27x128x1248) ![0, 24, 0, 0] S1x3x128x1248.size inb_S1x27x128x1248_S1x3x128x1248_0_24_0_0, k0_pay5 (View.ld s (win0R i 2))⟩,
    ⟨Rect.unit (s := S1x27x128x1248) ![0, 21, 0, 0] S1x3x128x1248.size inb_S1x27x128x1248_S1x3x128x1248_0_21_0_0, k0_pay4 (View.ld s (win0R i 2))⟩,
    ⟨Rect.unit (s := S1x27x128x1248) ![0, 18, 0, 0] S1x3x128x1248.size inb_S1x27x128x1248_S1x3x128x1248_0_18_0_0, k0_pay3 (View.ld s (win0R i 2))⟩,
    ⟨Rect.unit (s := S1x27x128x1248) ![0, 15, 0, 0] S1x3x128x1248.size inb_S1x27x128x1248_S1x3x128x1248_0_15_0_0, k0_pay2 (View.ld s (win0R i 1))⟩,
    ⟨Rect.unit (s := S1x27x128x1248) ![0, 12, 0, 0] S1x3x128x1248.size inb_S1x27x128x1248_S1x3x128x1248_0_12_0_0, k0_pay1 (k0_pay11 (View.ld s (win0R i 1)))⟩,
    ⟨Rect.unit (s := S1x27x128x1248) ![0, 9, 0, 0] S1x3x128x1248.size inb_S1x27x128x1248_S1x3x128x1248_0_9_0_0, k0_pay10 (View.ld s (win0R i 1))⟩,
    ⟨Rect.unit (s := S1x27x128x1248) ![0, 6, 0, 0] S1x3x128x1248.size inb_S1x27x128x1248_S1x3x128x1248_0_6_0_0, k0_pay9 (View.ld s (win0R i 0))⟩,
    ⟨Rect.unit (s := S1x27x128x1248) ![0, 3, 0, 0] S1x3x128x1248.size inb_S1x27x128x1248_S1x3x128x1248_0_3_0_0, k0_pay8 (View.ld s (win0R i 0))⟩,
    ⟨Rect.unit (s := S1x27x128x1248) ![0, 0, 0, 0] S1x3x128x1248.size inb_S1x27x128x1248_S1x3x128x1248_0_0_0_0, k0_pay7 (View.ld s (win0R i 0))⟩]

end Cert.KernelIdeal.Hand

end
-- ==== Proof.KernelIdealR0.lean ====
/-
  Region 0 of the program (the patch kernel run on argument 0) as a pipeline region: the body run symbolically in its
  two cases (the padded scratch refilled at the first row tile of an image; kept and only read at the other two), what
  each case leaves in the scratch and in the output's staging buffer as the plain functions of the Defs module, the
  pipeline's proof data with the scratch CARRIED between grid points in the region invariant, and the body obligation.
-/
import proofs.«113457_j14800457302529_2_alg».proof.Proof.Gen.KernelIdeal.Launch
import proofs.«113457_j14800457302529_2_alg».proof.Proof.Gen.KernelIdeal.Skeleton
import proofs.«113457_j14800457302529_2_alg».proof.Proof.Gen.KernelIdeal.Points
import proofs.«113457_j14800457302529_2_alg».proof.Proof.KernelIdealR0Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken. From the input block `x0` in its staging buffer, the output's
    staging buffer and the scratch at anything, the body overwrites the whole scratch (with the padded block), then
    copies nine shifted windows of the scratch into the nine channel groups of the output buffer. The witnesses are
    the pieces each buffer ends up written with (last store first). -/
noncomputable def runFill0 (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : cond0 i) (x0 : Vec F S1x3x384x1248 .f32) :
    Σ' (L1 : List (View.Piece (Elt F) S1x27x128x1248 .f32)), { LS : List (View.Piece (Elt F) S3x386x1250 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS)) -∗ K ⟨⟩))
          ⊢ wp frame (wpE (defs₀ (F := F)) Variants.none c none) E (cc0__extract_patches_kernel i arg2 harg2 arg3 harg3 arg4 harg4) K } := by
  refine ⟨?_, ?_, fun E K => ?run⟩
  case run =>
    simp only [cc0__extract_patches_kernel_eq_skeleton]; unfold cc0__extract_patches_kernel_skel
    simp only [k0_part1_eq_skeleton]
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]
    · iexists _; iexact H1
    iexists _; iexact HS

set_option maxHeartbeats 4000000 in
/-- The body at a point where the branch is not taken. The scratch still holds what an earlier point left (`xs`) and
    is only read: the body copies nine shifted windows of it into the nine channel groups of the output buffer. The
    witness is the list of pieces the output buffer ends up written with (last store first). -/
noncomputable def runKeep0 (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : ¬cond0 i) (x0 : Vec F S1x3x384x1248 .f32) (xs : Vec F S3x386x1250 .f32) :
    { L1 : List (View.Piece (Elt F) S1x27x128x1248 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f L1)
                ∗ owns (c : Thread nD τ) arg4 fullShare xs) -∗ K ⟨⟩))
          ⊢ wp frame (wpE (defs₀ (F := F)) Variants.none c none) E (cc0__extract_patches_kernel i arg2 harg2 arg3 harg3 arg4 harg4) K } := by
  refine ⟨?_, fun E K => ?run⟩
  case run =>
    simp only [cc0__extract_patches_kernel_eq_skeleton]; unfold cc0__extract_patches_kernel_skel
    simp only [k0_part1_eq_skeleton]
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]
    · iexists _; iexact H1
    iexists _; isplitr; · ipureintro; exact harg4.read_unread _
    iexact HS

/-! ## Region 0: the symbolic run's witnesses are those functions -/

theorem zero4_0 : (![0, 0, 0, 0] : Fin 4 → Nat) = fun _ => 0 := by funext a; fin_cases a <;> rfl
theorem zero3_0 : (![0, 0, 0] : Fin 3 → Nat) = fun _ => 0 := by funext a; fin_cases a <;> rfl

/-- A buffer overwritten whole reads back as what was written, whatever it held. -/
theorem cover_whole0 (w : S3x386x1250.Idx → Elt F .f32) (y : S3x386x1250.Idx) :
    ∃ p ∈ [(⟨Rect.unit (s := S3x386x1250) ![0, 0, 0] S3x386x1250.size inb_S3x386x1250_S3x386x1250_0_0_0, w⟩ : View.Piece (Elt F) S3x386x1250 .f32)], y ∈ p.1.set :=
  View.cover_of_tiledL [(⟨Rect.unit (s := S3x386x1250) ![0, 0, 0] S3x386x1250.size inb_S3x386x1250_S3x386x1250_0_0_0, w⟩ : View.Piece (Elt F) S3x386x1250 .f32)] S3x386x1250.size (by sl_kernel_rfl) y
theorem read_write_whole0 (v : View sig .tc .vmem S3x386x1250 .f32) (f : v.ty.Contents (Elt F)) (w : S3x386x1250.Idx → Elt F .f32) :
    v.read (Elt F) (v.writes (Elt F) f [(⟨Rect.unit (s := S3x386x1250) ![0, 0, 0] S3x386x1250.size inb_S3x386x1250_S3x386x1250_0_0_0, w⟩ : View.Piece (Elt F) S3x386x1250 .f32)]) = w :=
  (View.read_writes_eq_canon v f _ (cover_whole0 w)).trans
    (View.canon_unit_zero (S := S3x386x1250) zero3_0 inb_S3x386x1250_S3x386x1250_0_0_0 w)

theorem read_write_whole0' (v : View sig .tc .vmem S3x386x1250 .f32) (f : v.ty.Contents (Elt F)) (w : S3x386x1250.Idx → Elt F .f32) :
    v.read (Elt F) (v.writes (Elt F) f [(⟨Rect.unit (s := S3x386x1250) ![0, 0, 0] ![3, 386, 1250] inb_S3x386x1250_S3x386x1250_0_0_0, w⟩ : View.Piece (Elt F) S3x386x1250 .f32)]) = w :=
  read_write_whole0 v f w

section Witnesses
variable (c : Dev nD) (i : grid0.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (x0 : Vec F S1x3x384x1248 .f32)

/-- Where the branch is taken the scratch ends holding the padded input block. -/
theorem canon_fill_sc0 (hc : cond0 i) :
    View.canon (runFill0 (F := F) c i arg2 harg2 arg3 harg3 arg4 harg4 hc x0).2.1 = k0_pay6 x0 := by
  unfold runFill0; dsimp only; sl_unfold_run_names
  rw [View.canon_unit_zero zero3_0]
  simp only [View.readAt_eq_ld, harg2.read_unread, View.ld_unit_zero (S := S1x3x384x1248) zero4_0]

/-- and the output block is the nine shifted windows of that padded block. -/
theorem canon_fill_out0 (hc : cond0 i) :
    View.canon (runFill0 (F := F) c i arg2 harg2 arg3 harg3 arg4 harg4 hc x0).1 = outOf0 (k0_pay6 x0) i := by
  unfold runFill0; dsimp only; sl_unfold_run_names
  unfold outOf0
  simp only [View.readAt_eq_ld, harg2.read_unread, View.ld_unit_zero (S := S1x3x384x1248) zero4_0, read_write_whole0, read_write_whole0']
  rfl

/-- Where it is not taken the output block is the nine shifted windows of what the scratch held. -/
theorem canon_keep_out0 (hc : ¬cond0 i) (xs : Vec F S3x386x1250 .f32) :
    View.canon (runKeep0 (F := F) c i arg2 harg2 arg3 harg3 arg4 harg4 hc x0 xs).1 = outOf0 xs i := by
  unfold runKeep0; dsimp only; sl_unfold_run_names
  unfold outOf0
  simp only [View.readAt_eq_ld, harg4.read_unread]
  rfl

/-- The nine stores tile the output block; the one store of the scratch is the whole scratch. -/
theorem cover_fill_out0 (hc : cond0 i) (y : S1x27x128x1248.Idx) :
    ∃ pc ∈ (runFill0 (F := F) c i arg2 harg2 arg3 harg3 arg4 harg4 hc x0).1, y ∈ pc.1.set :=
  View.cover_of_tiledL (runFill0 (F := F) c i arg2 harg2 arg3 harg3 arg4 harg4 hc x0).1 S1x3x128x1248.size (by sl_kernel_rfl) y
theorem cover_fill_sc0 (hc : cond0 i) (y : S3x386x1250.Idx) :
    ∃ pc ∈ (runFill0 (F := F) c i arg2 harg2 arg3 harg3 arg4 harg4 hc x0).2.1, y ∈ pc.1.set :=
  View.cover_of_tiledL (runFill0 (F := F) c i arg2 harg2 arg3 harg3 arg4 harg4 hc x0).2.1 S3x386x1250.size (by sl_kernel_rfl) y
theorem cover_keep_out0 (hc : ¬cond0 i) (xs : Vec F S3x386x1250 .f32) (y : S1x27x128x1248.Idx) :
    ∃ pc ∈ (runKeep0 (F := F) c i arg2 harg2 arg3 harg3 arg4 harg4 hc x0 xs).1, y ∈ pc.1.set :=
  View.cover_of_tiledL (runKeep0 (F := F) c i arg2 harg2 arg3 harg3 arg4 harg4 hc x0 xs).1 S1x3x128x1248.size (by sl_kernel_rfl) y

end Witnesses

/-! ## Region 0: the proof data, at the buffer contents `V` the region is entered with -/

section Data
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not (between fetches
    the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it to the body. -/
abbrev ms0_0 (t : Fin cfg0.N) : Memref sig .tc .vmem S1x3x384x1248 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x27x128x1248 .f32 := win0_1.stage (cfg0.slots t 1)
abbrev hs0_1 (t : Fin cfg0.N) : (ms0_1 t).IsWhole := hstage0_1 ((cfg0.slots t 1).cast nbuf0_1)

/-- The point at which the image that point `t` belongs to was padded into the scratch: the first of its three row
    tiles. -/
def fillPt0 (t : Fin cfg0.N) : Fin cfg0.N :=
  ⟨3 * (t.val / 3), lt_of_lt_of_eq (b := 12) (by have h : t.val < 12 := lt_of_lt_of_eq t.isLt (show cfg0.N = 12 from N_0); omega) (show (12 : ℕ) = cfg0.N from N_0.symm)⟩

theorem fillPt0_of_fill (t : Fin cfg0.N) (h : t.val % 3 = 0) : fillPt0 t = t :=
  Fin.ext (by show 3 * (t.val / 3) = t.val; omega)

theorem fillPt0_pred (n : ℕ) (hn : n + 1 < cfg0.N) (h : ¬(n + 1) % 3 = 0) :
    fillPt0 ⟨n, Nat.lt_of_succ_lt hn⟩ = fillPt0 ⟨n + 1, hn⟩ :=
  Fin.ext (by show 3 * (n / 3) = 3 * ((n + 1) / 3); omega)

/-- The padded image as a function of the point whose input block it pads. -/
def padAt0 (c : Dev nD) (u : Fin cfg0.N) : Vec F S3x386x1250 .f32 := k0_pay6 (iblk0 V c 0 u)

/-- What the scratch holds after the body at point `t`: the padded image of `t`'s image, written at the first of its
    row tiles and kept since. -/
def scAt0 (c : Dev nD) (t : Fin cfg0.N) : Vec F S3x386x1250 .f32 := padAt0 V c (fillPt0 t)

/-- What the output's staging buffer holds after the body at point `t`: the nine shifted windows of that padded
    image at `t`'s row tile. -/
def outAt0 (c : Dev nD) (t : Fin cfg0.N) : Vec F S1x27x128x1248 .f32 := outOf0 (scAt0 V c t) (grid0.coords t)

/-- The core's scoped buffers other than this kernel's staging buffers and scratch (the other kernel's), each at
    something: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The scoped buffers no window stages are the scratch, at something, and those others. -/
theorem scopedRest_split0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restBut0 c) := by
  rw [Pipeline.scopedRest_split_of_list spec0 c [cc0_scratch0] (by decide) (by decide)]
  simp only [bigSepL_singleton, scM0, owns_whole]
  try rfl

/-- The region's invariant before position `n`: before the first point the scoped buffers no window stages, at
    anything; afterwards the scratch at what the point before left in it, and the other scoped buffers at anything. -/
def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (scAt0 V c ⟨n, hn⟩) ∗ restBut0 c)

theorem PhiS0_succ (c : Dev nD) (n : ℕ) (hn : n < cfg0.N) :
    PhiS0 V c (n + 1) hn = iprop(owns (c : Thread nD τ) scM0 fullShare (scAt0 V c ⟨n, hn⟩) ∗ restBut0 c) := rfl

/-- Whatever the position, the invariant gives the scratch at something and the other scoped buffers. -/
theorem PhiS0_any (c : Dev nD) (n : ℕ) (h : n ≤ cfg0.N) :
    PhiS0 V c n h ⊢ (iprop((∃ d, owns (c : Thread nD τ) scM0 fullShare d) ∗ restBut0 c) : sProp 𝕄) := by
  cases n with
  | zero => rw [show PhiS0 V c 0 h = Pipeline.scopedRest (Ix := Unit) (Name := ℕ) (U := UR sig nD τ) (Lvl := ℕ) (Val := Elt F) spec0 c from rfl, scopedRest_split0]
  | succ n =>
    rw [PhiS0_succ]
    iintro ⟨H, Hr⟩
    isplitl [H]; · iexists _; iexact H
    iexact Hr

/-- The proof data of this pipeline on core `c`: the arrays as the region finds them; after the body at point `t` the
    input's buffer at its block and the output's at `outAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc0 (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d

/-! ## Region 0: the body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 4000000 in
/-- The body at any point. At the first row tile of an image (the branch taken) the scratch is entered at anything and
    left at the padded block of this point's input block, which is this image's; at the other row tiles it is entered
    at the padded block the first row tile left, read, and left as it was. Either way the output's buffer ends at the
    nine shifted windows of the scratch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ, after0_0, after0_1, Phi_castSucc0]
  by_cases h0 : t.val % 3 = 0
  · -- the branch is taken
    have hsc : scAt0 V c ⟨t.val, t.isLt⟩ = k0_pay6 (iblk0 V c 0 t) := by
      show padAt0 V c (fillPt0 t) = padAt0 V c t
      rw [fillPt0_of_fill t h0]
    have hout : outAt0 V c t = outOf0 (k0_pay6 (iblk0 V c 0 t)) (grid0.coords t) := by
      show outOf0 (scAt0 V c ⟨t.val, t.isLt⟩) (grid0.coords t) = _
      rw [hsc]
    rw [hsc, hout]
    iintro ⟨HΦ, Ho, ⟨%d0, H0⟩, ⟨%d1, H1⟩⟩
    ihave HΦ' := (PhiS0_any V c t.val (Nat.le_of_lt t.isLt)) $$ HΦ
    icases HΦ' with ⟨HS, Hr⟩
    iapply ((runFill0 c (grid0.coords t) _ (hs0_0 t) _ (hs0_1 t) scM0 (Memref.isWhole_whole _) ((hcond0 t).mpr h0) (iblk0 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr]
    · isplitl [HS]
      · unfold owns; iexists _; isplitr
        swap; · iexact HS
        ipureintro
        exact (View.read_writes_eq_canon _ _ _ (cover_fill_sc0 c _ _ _ _ _ _ _ _ _)).trans (canon_fill_sc0 c _ _ _ _ _ _ _ _ _)
      iexact Hr
    isplitl [Ho]; · iexact Ho
    isplitl [H0]; · iexact H0
    unfold owns; iexists _; isplitr
    swap; · iexact H1
    ipureintro
    exact (View.read_writes_eq_canon _ _ _ (cover_fill_out0 c _ _ _ _ _ _ _ _ _)).trans (canon_fill_out0 c _ _ _ _ _ _ _ _ _)
  · -- the branch is not taken: not the first point, and the same image as the point before
    obtain ⟨n, hn⟩ := t
    cases n with
    | zero => exact absurd (Nat.zero_mod _) h0
    | succ n =>
      have hsc : scAt0 V c ⟨n + 1, hn⟩ = scAt0 V c ⟨n, Nat.lt_of_succ_lt hn⟩ := by
        show padAt0 V c (fillPt0 ⟨n + 1, hn⟩) = padAt0 V c (fillPt0 ⟨n, Nat.lt_of_succ_lt hn⟩)
        rw [fillPt0_pred n hn h0]
      have hout : outAt0 V c ⟨n + 1, hn⟩ = outOf0 (scAt0 V c ⟨n, Nat.lt_of_succ_lt hn⟩) (grid0.coords ⟨n + 1, hn⟩) := by
        show outOf0 (scAt0 V c ⟨n + 1, hn⟩) _ = _
        rw [hsc]
      rw [show PhiS0 V c (n + 1) (Nat.le_of_lt hn) = iprop(owns (c : Thread nD τ) scM0 fullShare (scAt0 V c ⟨n, Nat.lt_of_succ_lt hn⟩) ∗ restBut0 c) from rfl]
      rw [show scAt0 V c ⟨(⟨n + 1, hn⟩ : Fin cfg0.N).val, hn⟩ = scAt0 V c ⟨n, Nat.lt_of_succ_lt hn⟩ from hsc, hout]
      iintro ⟨⟨HS, Hr⟩, Ho, ⟨%d0, H0⟩, ⟨%d1, H1⟩⟩
      iapply ((runKeep0 c (grid0.coords ⟨n + 1, hn⟩) _ (hs0_0 ⟨n + 1, hn⟩) _ (hs0_1 ⟨n + 1, hn⟩) scM0 (Memref.isWhole_whole _) (fun h => h0 ((hcond0 ⟨n + 1, hn⟩).mp h)) (iblk0 V c 0 ⟨n + 1, hn⟩) (scAt0 V c ⟨n, Nat.lt_of_succ_lt hn⟩)).2 Set.univ _)
      isplitl [H0]; · iexact H0
      isplitl [H1]; · iexists _; iexact H1
      isplitl [HS]; · iexact HS
      iintro ⟨H0, ⟨%e1, H1⟩, HS⟩
      isplitl [HS Hr]
      · isplitl [HS]; · iexact HS
        iexact Hr
      isplitl [Ho]; · iexact Ho
      isplitl [H0]; · iexact H0
      unfold owns; iexists _; isplitr
      swap; · iexact H1
      ipureintro
      exact (View.read_writes_eq_canon _ _ _ (cover_keep_out0 c _ _ _ _ _ _ _ _ _ _)).trans (canon_keep_out0 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.KernelIdeal.Hand

end
-- ==== Proof.KernelIdealR1Defs.lean ====
/-
  Region 1 of the program (the patch kernel run on argument 1): the body's one branch, its scratch, and what the body
  computes written as plain functions of the scratch contents — no memory, no separation logic.
-/
import proofs.«113457_j14800457302529_2_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.SL.Sem

variable {F : FTy → Type} [FloatOps F]

/-! ## Region 1: when the body refills its padded scratch -/

/-- The body's one branch: taken exactly when the point's second grid coordinate (the row tile) is 0, that is at the
    first of the three row tiles of each image. -/
abbrev cond1 (i : grid1.Coords) : Prop :=
  (Scalar.cmpi .ne (Scalar.extui (Scalar.cmpi .eq (BitVec.ofNat 32 (i 1).val) 0#32)) 0#32) = 1#1

/-- Over the 12 grid points (4 images × 3 row tiles, row tile fastest) the branch is taken at the points ≡ 0 mod 3. -/
theorem hcond1 : ∀ t : Fin cfg1.N, cond1 (grid1.coords t) ↔ t.val % 3 = 0 :=
  (by decide +kernel : ∀ t : Fin grid1.N, cond1 (grid1.coords t) ↔ t.val % 3 = 0)

/-- The kernel's scratch operand: the whole scoped buffer that holds the padded image between grid points. -/
abbrev scM1 : Memref sig .tc .vmem S3x386x1250 .f32 := Memref.whole cc1_scratch0

/-! ## Region 1: what the body computes, as plain functions -/

/-- The window of the padded scratch the body reads for vertical shift `r` (0, 1 or 2): all three channels, the 128
    rows starting at row `128·(row tile) + r`, all 1250 columns. -/
abbrev win1R (i : grid1.Coords) (r : Fin 3) : Rect S3x386x1250 :=
  Rect.unit (s := S3x386x1250) (k1_off1 i (BitVec.ofNat 32 r.val)) S3x128x1250.size (k1_off1_inb i r)

/-- The output block the body leaves when the scratch holds `s`: nine groups of three channels, group `3·dy + dx`
    being the window of `s` at vertical shift `dy` cut to the 1248 columns starting at column `dx` (listed last
    store first, as a list of pieces that tile the block). -/
def outOf1 (s : Vec F S3x386x1250 .f32) (i : grid1.Coords) : Vec F S1x27x128x1248 .f32 :=
  View.canon [
    ⟨Rect.unit (s := S1x27x128x1248) ![0, 24, 0, 0] S1x3x128x1248.size inb_S1x27x128x1248_S1x3x128x1248_0_24_0_0, k1_pay5 (View.ld s (win1R i 2))⟩,
    ⟨Rect.unit (s := S1x27x128x1248) ![0, 21, 0, 0] S1x3x128x1248.size inb_S1x27x128x1248_S1x3x128x1248_0_21_0_0, k1_pay4 (View.ld s (win1R i 2))⟩,
    ⟨Rect.unit (s := S1x27x128x1248) ![0, 18, 0, 0] S1x3x128x1248.size inb_S1x27x128x1248_S1x3x128x1248_0_18_0_0, k1_pay3 (View.ld s (win1R i 2))⟩,
    ⟨Rect.unit (s := S1x27x128x1248) ![0, 15, 0, 0] S1x3x128x1248.size inb_S1x27x128x1248_S1x3x128x1248_0_15_0_0, k1_pay2 (View.ld s (win1R i 1))⟩,
    ⟨Rect.unit (s := S1x27x128x1248) ![0, 12, 0, 0] S1x3x128x1248.size inb_S1x27x128x1248_S1x3x128x1248_0_12_0_0, k1_pay1 (k1_pay11 (View.ld s (win1R i 1)))⟩,
    ⟨Rect.unit (s := S1x27x128x1248) ![0, 9, 0, 0] S1x3x128x1248.size inb_S1x27x128x1248_S1x3x128x1248_0_9_0_0, k1_pay10 (View.ld s (win1R i 1))⟩,
    ⟨Rect.unit (s := S1x27x128x1248) ![0, 6, 0, 0] S1x3x128x1248.size inb_S1x27x128x1248_S1x3x128x1248_0_6_0_0, k1_pay9 (View.ld s (win1R i 0))⟩,
    ⟨Rect.unit (s := S1x27x128x1248) ![0, 3, 0, 0] S1x3x128x1248.size inb_S1x27x128x1248_S1x3x128x1248_0_3_0_0, k1_pay8 (View.ld s (win1R i 0))⟩,
    ⟨Rect.unit (s := S1x27x128x1248) ![0, 0, 0, 0] S1x3x128x1248.size inb_S1x27x128x1248_S1x3x128x1248_0_0_0_0, k1_pay7 (View.ld s (win1R i 0))⟩]

end Cert.KernelIdeal.Hand

end
-- ==== Proof.KernelIdealR1.lean ====
/-
  Region 1 of the program (the patch kernel run on argument 1) as a pipeline region: the body run symbolically in its
  two cases (the padded scratch refilled at the first row tile of an image; kept and only read at the other two), what
  each case leaves in the scratch and in the output's staging buffer as the plain functions of the Defs module, the
  pipeline's proof data with the scratch CARRIED between grid points in the region invariant, and the body obligation.
-/
import proofs.«113457_j14800457302529_2_alg».proof.Proof.Gen.KernelIdeal.Launch
import proofs.«113457_j14800457302529_2_alg».proof.Proof.Gen.KernelIdeal.Skeleton
import proofs.«113457_j14800457302529_2_alg».proof.Proof.Gen.KernelIdeal.Points
import proofs.«113457_j14800457302529_2_alg».proof.Proof.KernelIdealR1Defs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point where the branch is taken. From the input block `x0` in its staging buffer, the output's
    staging buffer and the scratch at anything, the body overwrites the whole scratch (with the padded block), then
    copies nine shifted windows of the scratch into the nine channel groups of the output buffer. The witnesses are
    the pieces each buffer ends up written with (last store first). -/
noncomputable def runFill1 (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : cond1 i) (x0 : Vec F S1x3x384x1248 .f32) :
    Σ' (L1 : List (View.Piece (Elt F) S1x27x128x1248 .f32)), { LS : List (View.Piece (Elt F) S3x386x1250 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LS)) -∗ K ⟨⟩))
          ⊢ wp frame (wpE (defs₀ (F := F)) Variants.none c none) E (cc1__extract_patches_kernel i arg2 harg2 arg3 harg3 arg4 harg4) K } := by
  refine ⟨?_, ?_, fun E K => ?run⟩
  case run =>
    simp only [cc1__extract_patches_kernel_eq_skeleton]; unfold cc1__extract_patches_kernel_skel
    simp only [k1_part1_eq_skeleton]
    unfold owns
    iintro ⟨⟨%f0, %hf0, H0⟩, ⟨%d1, %f1, -, H1⟩, ⟨%ds, %fs, -, HS⟩, Hk⟩
    obtain rfl := harg2.eq_unread hf0
    sl_exec (disch := first | exact hc)
    sl_step
    iapply Hk
    isplitl [H0]
    · iexists _; isplitr; · ipureintro; exact harg2.read_unread _
      iexact H0
    isplitl [H1]
    · iexists _; iexact H1
    iexists _; iexact HS

set_option maxHeartbeats 4000000 in
/-- The body at a point where the branch is not taken. The scratch still holds what an earlier point left (`xs`) and
    is only read: the body copies nine shifted windows of it into the nine channel groups of the output buffer. The
    witness is the list of pieces the output buffer ends up written with (last store first). -/
noncomputable def runKeep1 (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (hc : ¬cond1 i) (x0 : Vec F S1x3x384x1248 .f32) (xs : Vec F S3x386x1250 .f32) :
    { L1 : List (View.Piece (Elt F) S1x27x128x1248 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f L1)
                ∗ owns (c : Thread nD τ) arg4 fullShare xs) -∗ K ⟨⟩))
          ⊢ wp frame (wpE (defs₀ (F := F)) Variants.none c none) E (cc1__extract_patches_kernel i arg2 harg2 arg3 harg3 arg4 harg4) K } := by
  refine ⟨?_, fun E K => ?run⟩
  case run =>
    simp only [cc1__extract_patches_kernel_eq_skeleton]; unfold cc1__extract_patches_kernel_skel
    simp only [k1_part1_eq_skeleton]
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hc)
    sl_step
    iapply Hk
    isplitl [H0]
    · iexists _; isplitr; · ipureintro; exact harg2.read_unread _
      iexact H0
    isplitl [H1]
    · iexists _; iexact H1
    iexists _; isplitr; · ipureintro; exact harg4.read_unread _
    iexact HS

/-! ## Region 1: the symbolic run's witnesses are those functions -/

theorem zero4_1 : (![0, 0, 0, 0] : Fin 4 → Nat) = fun _ => 0 := by funext a; fin_cases a <;> rfl
theorem zero3_1 : (![0, 0, 0] : Fin 3 → Nat) = fun _ => 0 := by funext a; fin_cases a <;> rfl

/-- A buffer overwritten whole reads back as what was written, whatever it held. -/
theorem cover_whole1 (w : S3x386x1250.Idx → Elt F .f32) (y : S3x386x1250.Idx) :
    ∃ p ∈ [(⟨Rect.unit (s := S3x386x1250) ![0, 0, 0] S3x386x1250.size inb_S3x386x1250_S3x386x1250_0_0_0, w⟩ : View.Piece (Elt F) S3x386x1250 .f32)], y ∈ p.1.set :=
  View.cover_of_tiledL [(⟨Rect.unit (s := S3x386x1250) ![0, 0, 0] S3x386x1250.size inb_S3x386x1250_S3x386x1250_0_0_0, w⟩ : View.Piece (Elt F) S3x386x1250 .f32)] S3x386x1250.size (by sl_kernel_rfl) y
theorem read_write_whole1 (v : View sig .tc .vmem S3x386x1250 .f32) (f : v.ty.Contents (Elt F)) (w : S3x386x1250.Idx → Elt F .f32) :
    v.read (Elt F) (v.writes (Elt F) f [(⟨Rect.unit (s := S3x386x1250) ![0, 0, 0] S3x386x1250.size inb_S3x386x1250_S3x386x1250_0_0_0, w⟩ : View.Piece (Elt F) S3x386x1250 .f32)]) = w :=
  (View.read_writes_eq_canon v f _ (cover_whole1 w)).trans
    (View.canon_unit_zero (S := S3x386x1250) zero3_1 inb_S3x386x1250_S3x386x1250_0_0_0 w)

theorem read_write_whole1' (v : View sig .tc .vmem S3x386x1250 .f32) (f : v.ty.Contents (Elt F)) (w : S3x386x1250.Idx → Elt F .f32) :
    v.read (Elt F) (v.writes (Elt F) f [(⟨Rect.unit (s := S3x386x1250) ![0, 0, 0] ![3, 386, 1250] inb_S3x386x1250_S3x386x1250_0_0_0, w⟩ : View.Piece (Elt F) S3x386x1250 .f32)]) = w :=
  read_write_whole1 v f w

section Witnesses
variable (c : Dev nD) (i : grid1.Coords) (arg2 : Memref sig .tc .vmem S1x3x384x1248 .f32) (harg2 : arg2.IsWhole)
    (arg3 : Memref sig .tc .vmem S1x27x128x1248 .f32) (harg3 : arg3.IsWhole) (arg4 : Memref sig .tc .vmem S3x386x1250 .f32) (harg4 : arg4.IsWhole)
    (x0 : Vec F S1x3x384x1248 .f32)

/-- Where the branch is taken the scratch ends holding the padded input block. -/
theorem canon_fill_sc1 (hc : cond1 i) :
    View.canon (runFill1 (F := F) c i arg2 harg2 arg3 harg3 arg4 harg4 hc x0).2.1 = k1_pay6 x0 := by
  unfold runFill1; dsimp only; sl_unfold_run_names
  rw [View.canon_unit_zero zero3_1]
  simp only [View.readAt_eq_ld, harg2.read_unread, View.ld_unit_zero (S := S1x3x384x1248) zero4_1]

/-- and the output block is the nine shifted windows of that padded block. -/
theorem canon_fill_out1 (hc : cond1 i) :
    View.canon (runFill1 (F := F) c i arg2 harg2 arg3 harg3 arg4 harg4 hc x0).1 = outOf1 (k1_pay6 x0) i := by
  unfold runFill1; dsimp only; sl_unfold_run_names
  unfold outOf1
  simp only [View.readAt_eq_ld, harg2.read_unread, View.ld_unit_zero (S := S1x3x384x1248) zero4_1, read_write_whole1, read_write_whole1']
  rfl

/-- Where it is not taken the output block is the nine shifted windows of what the scratch held. -/
theorem canon_keep_out1 (hc : ¬cond1 i) (xs : Vec F S3x386x1250 .f32) :
    View.canon (runKeep1 (F := F) c i arg2 harg2 arg3 harg3 arg4 harg4 hc x0 xs).1 = outOf1 xs i := by
  unfold runKeep1; dsimp only; sl_unfold_run_names
  unfold outOf1
  simp only [View.readAt_eq_ld, harg4.read_unread]
  rfl

/-- The nine stores tile the output block; the one store of the scratch is the whole scratch. -/
theorem cover_fill_out1 (hc : cond1 i) (y : S1x27x128x1248.Idx) :
    ∃ pc ∈ (runFill1 (F := F) c i arg2 harg2 arg3 harg3 arg4 harg4 hc x0).1, y ∈ pc.1.set :=
  View.cover_of_tiledL (runFill1 (F := F) c i arg2 harg2 arg3 harg3 arg4 harg4 hc x0).1 S1x3x128x1248.size (by sl_kernel_rfl) y
theorem cover_fill_sc1 (hc : cond1 i) (y : S3x386x1250.Idx) :
    ∃ pc ∈ (runFill1 (F := F) c i arg2 harg2 arg3 harg3 arg4 harg4 hc x0).2.1, y ∈ pc.1.set :=
  View.cover_of_tiledL (runFill1 (F := F) c i arg2 harg2 arg3 harg3 arg4 harg4 hc x0).2.1 S3x386x1250.size (by sl_kernel_rfl) y
theorem cover_keep_out1 (hc : ¬cond1 i) (xs : Vec F S3x386x1250 .f32) (y : S1x27x128x1248.Idx) :
    ∃ pc ∈ (runKeep1 (F := F) c i arg2 harg2 arg3 harg3 arg4 harg4 hc x0 xs).1, y ∈ pc.1.set :=
  View.cover_of_tiledL (runKeep1 (F := F) c i arg2 harg2 arg3 harg3 arg4 harg4 hc x0 xs).1 S1x3x128x1248.size (by sl_kernel_rfl) y

end Witnesses

/-! ## Region 1: the proof data, at the buffer contents `V` the region is entered with -/

section Data
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (between fetches
    the block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin cfg1.N) : Memref sig .tc .vmem S1x3x384x1248 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x27x128x1248 .f32 := win1_1.stage (cfg1.slots t 1)
abbrev hs1_1 (t : Fin cfg1.N) : (ms1_1 t).IsWhole := hstage1_1 ((cfg1.slots t 1).cast nbuf1_1)

/-- The point at which the image that point `t` belongs to was padded into the scratch: the first of its three row
    tiles. -/
def fillPt1 (t : Fin cfg1.N) : Fin cfg1.N :=
  ⟨3 * (t.val / 3), lt_of_lt_of_eq (b := 12) (by have h : t.val < 12 := lt_of_lt_of_eq t.isLt (show cfg1.N = 12 from N_1); omega) (show (12 : ℕ) = cfg1.N from N_1.symm)⟩

theorem fillPt1_of_fill (t : Fin cfg1.N) (h : t.val % 3 = 0) : fillPt1 t = t :=
  Fin.ext (by show 3 * (t.val / 3) = t.val; omega)

theorem fillPt1_pred (n : ℕ) (hn : n + 1 < cfg1.N) (h : ¬(n + 1) % 3 = 0) :
    fillPt1 ⟨n, Nat.lt_of_succ_lt hn⟩ = fillPt1 ⟨n + 1, hn⟩ :=
  Fin.ext (by show 3 * (n / 3) = 3 * ((n + 1) / 3); omega)

/-- The padded image as a function of the point whose input block it pads. -/
def padAt1 (c : Dev nD) (u : Fin cfg1.N) : Vec F S3x386x1250 .f32 := k1_pay6 (iblk1 V c 0 u)

/-- What the scratch holds after the body at point `t`: the padded image of `t`'s image, written at the first of its
    row tiles and kept since. -/
def scAt1 (c : Dev nD) (t : Fin cfg1.N) : Vec F S3x386x1250 .f32 := padAt1 V c (fillPt1 t)

/-- What the output's staging buffer holds after the body at point `t`: the nine shifted windows of that padded
    image at `t`'s row tile. -/
def outAt1 (c : Dev nD) (t : Fin cfg1.N) : Vec F S1x27x128x1248 .f32 := outOf1 (scAt1 V c t) (grid1.coords t)

/-- The core's scoped buffers other than this kernel's staging buffers and scratch (the other kernel's), each at
    something: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- The scoped buffers no window stages are the scratch, at something, and those others. -/
theorem scopedRest_split1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ restBut1 c) := by
  rw [Pipeline.scopedRest_split_of_list spec1 c [cc1_scratch0] (by decide) (by decide)]
  simp only [bigSepL_singleton, scM1, owns_whole]
  try rfl

/-- The region's invariant before position `n`: before the first point the scoped buffers no window stages, at
    anything; afterwards the scratch at what the point before left in it, and the other scoped buffers at anything. -/
def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1 fullShare (scAt1 V c ⟨n, hn⟩) ∗ restBut1 c)

theorem PhiS1_succ (c : Dev nD) (n : ℕ) (hn : n < cfg1.N) :
    PhiS1 V c (n + 1) hn = iprop(owns (c : Thread nD τ) scM1 fullShare (scAt1 V c ⟨n, hn⟩) ∗ restBut1 c) := rfl

/-- Whatever the position, the invariant gives the scratch at something and the other scoped buffers. -/
theorem PhiS1_any (c : Dev nD) (n : ℕ) (h : n ≤ cfg1.N) :
    PhiS1 V c n h ⊢ (iprop((∃ d, owns (c : Thread nD τ) scM1 fullShare d) ∗ restBut1 c) : sProp 𝕄) := by
  cases n with
  | zero => rw [show PhiS1 V c 0 h = Pipeline.scopedRest (Ix := Unit) (Name := ℕ) (U := UR sig nD τ) (Lvl := ℕ) (Val := Elt F) spec1 c from rfl, scopedRest_split1]
  | succ n =>
    rw [PhiS1_succ]
    iintro ⟨H, Hr⟩
    isplitl [H]; · iexists _; iexact H
    iexact Hr

/-- The proof data of this pipeline on core `c`: the arrays as the region finds them; after the body at point `t` the
    input's buffer at its block and the output's at `outAt`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi_castSucc1 (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d

/-! ## Region 1: the body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 4000000 in
/-- The body at any point. At the first row tile of an image (the branch taken) the scratch is entered at anything and
    left at the padded block of this point's input block, which is this image's; at the other row tiles it is entered
    at the padded block the first row tile left, read, and left as it was. Either way the output's buffer ends at the
    nine shifted windows of the scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ, after1_0, after1_1, Phi_castSucc1]
  by_cases h0 : t.val % 3 = 0
  · -- the branch is taken
    have hsc : scAt1 V c ⟨t.val, t.isLt⟩ = k1_pay6 (iblk1 V c 0 t) := by
      show padAt1 V c (fillPt1 t) = padAt1 V c t
      rw [fillPt1_of_fill t h0]
    have hout : outAt1 V c t = outOf1 (k1_pay6 (iblk1 V c 0 t)) (grid1.coords t) := by
      show outOf1 (scAt1 V c ⟨t.val, t.isLt⟩) (grid1.coords t) = _
      rw [hsc]
    rw [hsc, hout]
    iintro ⟨HΦ, Ho, ⟨%d0, H0⟩, ⟨%d1, H1⟩⟩
    ihave HΦ' := (PhiS1_any V c t.val (Nat.le_of_lt t.isLt)) $$ HΦ
    icases HΦ' with ⟨HS, Hr⟩
    iapply ((runFill1 c (grid1.coords t) _ (hs1_0 t) _ (hs1_1 t) scM1 (Memref.isWhole_whole _) ((hcond1 t).mpr h0) (iblk1 V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hr]
    · isplitl [HS]
      · unfold owns; iexists _; isplitr
        swap; · iexact HS
        ipureintro
        exact (View.read_writes_eq_canon _ _ _ (cover_fill_sc1 c _ _ _ _ _ _ _ _ _)).trans (canon_fill_sc1 c _ _ _ _ _ _ _ _ _)
      iexact Hr
    isplitl [Ho]; · iexact Ho
    isplitl [H0]; · iexact H0
    unfold owns; iexists _; isplitr
    swap; · iexact H1
    ipureintro
    exact (View.read_writes_eq_canon _ _ _ (cover_fill_out1 c _ _ _ _ _ _ _ _ _)).trans (canon_fill_out1 c _ _ _ _ _ _ _ _ _)
  · -- the branch is not taken: not the first point, and the same image as the point before
    obtain ⟨n, hn⟩ := t
    cases n with
    | zero => exact absurd (Nat.zero_mod _) h0
    | succ n =>
      have hsc : scAt1 V c ⟨n + 1, hn⟩ = scAt1 V c ⟨n, Nat.lt_of_succ_lt hn⟩ := by
        show padAt1 V c (fillPt1 ⟨n + 1, hn⟩) = padAt1 V c (fillPt1 ⟨n, Nat.lt_of_succ_lt hn⟩)
        rw [fillPt1_pred n hn h0]
      have hout : outAt1 V c ⟨n + 1, hn⟩ = outOf1 (scAt1 V c ⟨n, Nat.lt_of_succ_lt hn⟩) (grid1.coords ⟨n + 1, hn⟩) := by
        show outOf1 (scAt1 V c ⟨n + 1, hn⟩) _ = _
        rw [hsc]
      rw [show PhiS1 V c (n + 1) (Nat.le_of_lt hn) = iprop(owns (c : Thread nD τ) scM1 fullShare (scAt1 V c ⟨n, Nat.lt_of_succ_lt hn⟩) ∗ restBut1 c) from rfl]
      rw [show scAt1 V c ⟨(⟨n + 1, hn⟩ : Fin cfg1.N).val, hn⟩ = scAt1 V c ⟨n, Nat.lt_of_succ_lt hn⟩ from hsc, hout]
      iintro ⟨⟨HS, Hr⟩, Ho, ⟨%d0, H0⟩, ⟨%d1, H1⟩⟩
      iapply ((runKeep1 c (grid1.coords ⟨n + 1, hn⟩) _ (hs1_0 ⟨n + 1, hn⟩) _ (hs1_1 ⟨n + 1, hn⟩) scM1 (Memref.isWhole_whole _) (fun h => h0 ((hcond1 ⟨n + 1, hn⟩).mp h)) (iblk1 V c 0 ⟨n + 1, hn⟩) (scAt1 V c ⟨n, Nat.lt_of_succ_lt hn⟩)).2 Set.univ _)
      isplitl [H0]; · iexact H0
      isplitl [H1]; · iexists _; iexact H1
      isplitl [HS]; · iexact HS
      iintro ⟨H0, ⟨%e1, H1⟩, HS⟩
      isplitl [HS Hr]
      · isplitl [HS]; · iexact HS
        iexact Hr
      isplitl [Ho]; · iexact Ho
      isplitl [H0]; · iexact H0
      unfold owns; iexists _; isplitr
      swap; · iexact H1
      ipureintro
      exact (View.read_writes_eq_canon _ _ _ (cover_keep_out1 c _ _ _ _ _ _ _ _ _ _)).trans (canon_keep_out1 c _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Hand

end
-- ==== Proof.KernelIdealFrame.lean ====
/-
  The program's run from launch to return, region by region: the buffer contents at each boundary (the launch memory;
  after region 0, its result array at what the twelve write-backs leave; after region 1, likewise; then the host
  operations that build the 9×9 identity and reshape it), one pipeline-region record per kernel launch over the
  proof data with the carried scratch, and the run itself — every weakly fair execution terminates, nothing faults,
  and every unscoped buffer ends at the last boundary's contents. The frame claim (the arguments end as launched)
  and the results' values are read off that.
-/
import proofs.«113457_j14800457302529_2_alg».proof.Proof.KernelIdealR0
import proofs.«113457_j14800457302529_2_alg».proof.Proof.KernelIdealR1
import proofs.«113457_j14800457302529_2_alg».proof.Proof.Gen.KernelIdeal.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
/-- The same read at the TensorCore's references (what region 0's proof data take). -/
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (region 0's exit contents, region 1's entry). -/
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m c) fun w => (dat1 (Ve1 m) c).arrAt w cfg1.N
theorem W2_arr (c : Dev nD) (w : Fin cfg1.W) :
    W2 m c (Proc.devRef .tc (Pipeline.arrRef spec1 w)) = (dat1 (Ve1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Ve2 : (c : Dev nD) → (b : Ref sig .tc) → Buf (Elt F) ((c : Thread nD τ).loc b) := fun c b => W2 m c b
theorem hF1 (c : Dev nD) (w : Fin cfg1.W) : (dat1 (Ve1 m) c).arrAt w cfg1.N = Ve2 m c (Pipeline.arrRef spec1 w) :=
  (W2_arr m c w).symm
theorem hrest1 (c : Dev nD) : ∀ b, b ∉ Finset.univ.image (Pipeline.arrRef spec1) → Ve2 m c b = Ve1 m c b :=
  fun b hb => W2_of_ne m c b fun w e => hb (Finset.mem_image.mpr ⟨w, Finset.mem_univ _, e⟩)

/-- After the host operations that follow the two regions. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 over the thread state "every unscoped buffer at the boundary's contents, the generator register at some
    state, nothing owed": its two arrays are split out of the unscoped buffers on entry and put back at what the
    write-backs leave on exit; the scoped buffers no window stages enter the invariant as they are and come back with
    the scratch at whatever the last point left; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X _ := BI.emp
  Y _ := BI.emp
  Z c := iprop(Pipeline.unscopedRest (Ix := Unit) (Name := ℕ) (U := UR sig nD τ) (Lvl := ℕ) spec0 c (Ve0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none]
    show (pdats m 0 c).Φ (Fin.last cfg0.N) ⊢ (iprop(BI.emp ∗ BI.emp ∗ Pipeline.scopedRest (Ix := Unit) (Name := ℕ) (U := UR sig nD τ) (Lvl := ℕ) (Val := Elt F) spec0 c) : sProp 𝕄)
    rw [scopedRest_split0]
    have h : (pdats m 0 c).Φ (Fin.last cfg0.N) ⊢ (iprop((∃ d, owns (c : Thread nD τ) scM0 fullShare d) ∗ restBut0 c) : sProp 𝕄) :=
      PhiS0_any (Ve0 m) c (Fin.last cfg0.N).val (Nat.le_of_lt_succ (Fin.last cfg0.N).isLt)
    iintro HΦ
    isplitr; · iempintro
    isplitr; · iempintro
    iapply h
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => W1 m c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state "every unscoped buffer at the boundary's contents, the generator register at some
    state, nothing owed": its two arrays are split out of the unscoped buffers on entry and put back at what the
    write-backs leave on exit; the scoped buffers no window stages enter the invariant as they are and come back with
    the scratch at whatever the last point left; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec1 c (Ve1 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none]
    show (pdats m 1 c).Φ (Fin.last cfg1.N) ⊢ (iprop(BI.emp ∗ BI.emp ∗ Pipeline.scopedRest (Ix := Unit) (Name := ℕ) (U := UR sig nD τ) (Lvl := ℕ) (Val := Elt F) spec1 c) : sProp 𝕄)
    rw [scopedRest_split1]
    have h : (pdats m 1 c).Φ (Fin.last cfg1.N) ⊢ (iprop((∃ d, owns (c : Thread nD τ) scM1 fullShare d) ∗ restBut1 c) : sProp 𝕄) :=
      PhiS1_any (Ve1 m) c (Fin.last cfg1.N).val (Nat.le_of_lt_succ (Fin.last cfg1.N).isLt)
    iintro HΦ
    isplitr; · iempintro
    isplitr; · iempintro
    iapply h
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => W2 m c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the run -/

/-- The host operations after the regions as a segment, from region 1's exit contents. -/
def hostSeg : HostSeg (Name := ℕ) (U := UR sig nD τ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- @main's three segments in order (the same on every core). -/
abbrev segs (c : Dev nD) : List (Seg (pcfgs (F := F)) adm (pdats m) () defs₀ 𝒱₀ L lv) :=
  [.region (reg0 m), .region (reg1 m), .host (hostSeg m)]

-- the launch theorem's implicit arguments are found by unifying its conclusion with this one, which takes unfolding plain
-- definitions in a metavariable's type
set_option backward.isDefEq.respectTransparency.types false in
/-- THE RUN. From any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) := by
  refine Pipeline.θ_run_regions_kit_dev (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W3 m c))
    (hch := fun c => ⟨.rfl, .rfl, .rfl, sep_mono .rfl (by iintro ⟨-, H⟩; iexact H)⟩)
    (hinit := ?_) (QY := fun c s => ∀ b ∈ Pipeline.ucRefs τ sig, s.mem (((c : Thread nD τ)).1, b) = W3 m c b)
    (hfin := fun c s' => ?_) (hQ := fun _ h => h)
  · -- the launch: the unscoped buffers are held at the launch memory; the register and the empty `owes` ride along
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => (((c : Thread nD τ)).1, b)) (W3 m c) s')
    isplitl [Hh] <;> iassumption

/-! ## The last boundary's contents, buffer by buffer -/

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations after the regions write none of the regions' arrays. -/
theorem W3_of (c : Dev nD) (r : Ref sig .tc) (h : r ∉ hostOps2_W) : W3 m c r = W2 m c r :=
  StableHlo.after_of_writes_sub hostOps2 _ hostOps2_writes h

/-- Argument 0 ends as launched: no host operation writes it, region 1 does not touch it, region 0 only reads it. -/
theorem W3_main_arg0 (c : Dev nD) : W3 m c main_arg0 = m ((c : Thread nD τ).loc main_arg0) :=
  calc W3 m c main_arg0
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl

/-- Argument 1 ends as launched: no host operation writes it, region 1 only reads it, region 0 does not touch it. -/
theorem W3_main_arg1 (c : Dev nD) : W3 m c main_arg1 = m ((c : Thread nD τ).loc main_arg1) :=
  calc W3 m c main_arg1
    _ = W2 m c (Proc.devRef .tc main_arg1) := W3_of m c main_arg1 (by decide)
    _ = W1 m c (Proc.devRef .tc main_arg1) := (W2_arr m c 0).trans (((dat1 (Ve1 m) c).arrAt_in 0 rfl _).trans (A_eq1 (Ve1 m) c 0))
    _ = W0 m c (Proc.devRef .tc main_arg1) := W1_of_ne m c main_arg1 (by decide)
    _ = m ((c : Thread nD τ).loc main_arg1) := rfl

/-- Region 1 reads argument 1 as launched. -/
theorem Ve1_main_arg1 (c : Dev nD) : Ve1 m c main_arg1 = m ((c : Thread nD τ).loc main_arg1) :=
  (W1_of_ne m c main_arg1 (by decide)).trans rfl

/-- The first result ends at what region 0's twelve write-backs leave. -/
theorem W3_main_v0 (c : Dev nD) : W3 m c main_v0 = (dat0 (Ve0 m) c).arrAt 1 cfg0.N :=
  calc W3 m c main_v0
    _ = W2 m c (Proc.devRef .tc main_v0) := W3_of m c main_v0 (by decide)
    _ = W1 m c (Proc.devRef .tc main_v0) := W2_of_ne m c main_v0 (by decide)
    _ = (dat0 (Ve0 m) c).arrAt 1 cfg0.N := W1_arr m c 1

/-- The second result ends at what region 1's twelve write-backs leave. -/
theorem W3_main_v1 (c : Dev nD) : W3 m c main_v1 = (dat1 (Ve1 m) c).arrAt 1 cfg1.N :=
  calc W3 m c main_v1
    _ = W2 m c (Proc.devRef .tc main_v1) := W3_of m c main_v1 (by decide)
    _ = (dat1 (Ve1 m) c).arrAt 1 cfg1.N := W2_arr m c 1

/-- The third result is the host operations' own term: the 9×9 comparison of the two iotas, converted and reshaped. -/
theorem W3_main_v8 (c : Dev nD) : (W3 m c main_v8 : (⟨S9x1x1x3x3, .f32⟩ : BufTy).Contents (Elt F))
    = shapeCast _ (uitofp .f32 (cmpi .eq (addi (iotaInDim S9x9 32 0) (broadcastInDim S9x9 ![] bcast_S_S9x9 (constantI S_ 32 0#32))) (iotaInDim S9x9 32 1))) shapeCasts_S9x9_S9x1x1x3x3 := by
  show StableHlo.after hostOps2 _ (Proc.devRef .tc main_v8) = _
  after_results
  rfl

end Cert.KernelIdeal.Hand

end
-- ==== Proof.Spec.lean ====
/-
  The specification both programs meet: the 3×3 patch unfold of a zero-padded image stack.

  For an input `x` of shape [4, 3, 384, 1248] and a padding value `z`, the result has shape [4, 27, 384, 1248];
  its channel `ch = 3·k + c` (shift `k = 3·dy + dx`, input channel `c`) at row `y`, column `q` is the entry of the
  padded plane of `x[b, c]` at row `y + dy`, column `q + dx` — the padded plane being `x[b, c]` framed by one row and
  one column of `z` on every side (386 × 1250). No arithmetic is done on the entries: every result entry is one
  input entry or `z`.
-/
import Idealize.ShloMosaic.PureOps
import Idealize.ShloMosaic.Lib.ValueIdx

namespace Cert.Patches

open Idealize.ShloMosaic Idealize.ShloMosaic.ValueIdx

variable {α : Type}

/-- The padded plane at row `r`, column `q` (naturals, `r < 386`, `q < 1250` where it matters): the image entry at
    `(r - 1, q - 1)` strictly inside the frame, `z` on the one-entry border. -/
def padded (z : α) (img : Fin 384 → Fin 1248 → α) (r q : Nat) : α :=
  if h : 1 ≤ r ∧ r ≤ 384 ∧ 1 ≤ q ∧ q ≤ 1248 then img ⟨r - 1, by omega⟩ ⟨q - 1, by omega⟩ else z

/-- The patch unfold: result channel `ch` reads input channel `ch % 3` shifted down by `ch / 9` rows and right by
    `(ch / 3) % 3` columns inside the padded plane. -/
def patches (z : α) (x : (⟨4, ![4, 3, 384, 1248]⟩ : Shape).Idx → α) : (⟨4, ![4, 27, 384, 1248]⟩ : Shape).Idx → α :=
  fun j => padded z (fun r q => x (ix4 (⟨(j 0).val, (j 0).isLt⟩ : Fin 4) (⟨(j 1).val % 3, Nat.mod_lt _ (by decide)⟩ : Fin 3) r q))
    ((j 2).val + (j 1).val / 9) ((j 3).val + ((j 1).val / 3) % 3)

/-- The value the padding writes: the integer zero converted to a 32-bit float (both programs spell it so). -/
def zeroPad (F : FTy → Type) [FloatOps F] : F .f32 := Scalar.sitofp .f32 (0#32 : BitVec 32)

end Cert.Patches
-- ==== Proof.KernelIdealValue0.lean ====
/-
  One run of the patch kernel, values only: what the body leaves in its output block when the scratch holds the padded block of an image,
  read at an index, is the specification's padded plane.

  The padded block `k0_pay6 x` is `x` with its unit axis dropped, framed by one row of the padding value above and below
  (two concatenations along axis 1) and one column left and right (two along axis 2): at `(c, r, q)` it is
  `x (0, c, r - 1, q - 1)` when `1 ≤ r ≤ 384` and `1 ≤ q ≤ 1248`, and the padding value otherwise — the specification's
  `padded`. The window for vertical shift `dy` starts at row `128·(row tile) + dy` of the block, so the window at
  `(c, yy, q')` is the block at `(c, 128·(row tile) + dy + yy, q')`. The payload of channel group `g = 3·dy + dx` is the
  window's columns `dx … dx + 1247` under a leading unit axis, stored at channels `3g … 3g + 2`; the nine groups tile the
  output block. So output entry `(0, ch, yy, q)`, in group `ch / 3` at local channel `ch % 3`, is the padded plane of
  `x[0, ch % 3]` at row `128·(row tile) + yy + ch / 9`, column `q + (ch / 3) % 3`.
-/
import proofs.«113457_j14800457302529_2_alg».proof.Proof.KernelIdealR0Defs
import proofs.«113457_j14800457302529_2_alg».proof.Proof.Spec
import Idealize.ShloMosaic.Lib.Pipeline.Value
import Idealize.ShloMosaic.Lib.ValueIdx
import Idealize.ShloMosaic.Lib.Tactic
import Idealize.ShloMosaic.Lib.Ring

noncomputable section

namespace Cert.KernelIdeal.Hand.Value0

open Cert.KernelIdeal Cert.KernelIdeal.Gen Cert.KernelIdeal.Hand
open Idealize.ShloMosaic Idealize.ShloMosaic.ValueIdx Idealize.SL.Sem

variable {F : FTy → Type} [FloatOps F]

/-- The middle entry of the window's offsets, for the three row tiles and the three vertical shifts. -/
theorem offMid (n r : Fin 3) :
    (Scalar.indexCast (Scalar.addi (Scalar.muli (BitVec.ofNat 32 n.val) 128#32) (BitVec.ofNat 32 r.val))).toNat = 128 * n.val + r.val := by
  revert n r; decide

/-- The window's offsets in closed form: rows start at `128·(row tile) + r`. -/
theorem offEq (i : grid0.Coords) (r : Fin 3) :
    k0_off1 i (BitVec.ofNat 32 r.val) = ![0, 128 * (i 1).val + r.val, 0] := by
  have h := offMid (⟨(i 1).val, (i 1).isLt⟩ : Fin 3) r
  unfold k0_off1
  simp only []
  rw [h]

/-- The window read at `w`: the scratch at `w` moved down by the window's first row. -/
theorem ldWin (s : Vec F S3x386x1250 .f32) (i : grid0.Coords) (r : Fin 3) (w : S3x128x1250.Idx) (k : S3x386x1250.Idx)
    (hc : (k 0).val = (w 0).val) (hr : (k 1).val = 128 * (i 1).val + r.val + (w 1).val) (hq : (k 2).val = (w 2).val) :
    View.ld s (win0R i r) w = s k := by
  show s ((win0R i r).idx w) = s k
  refine congrArg s (funext fun a => Fin.ext ?_)
  show k0_off1 i (BitVec.ofNat 32 r.val) a + 1 * (w a).val = (k a).val
  rw [offEq]
  match a with
  | ⟨0, _⟩ => show 0 + 1 * (w 0).val = (k 0).val; omega
  | ⟨1, _⟩ => show 128 * (i 1).val + r.val + 1 * (w 1).val = (k 1).val; omega
  | ⟨2, _⟩ => show 0 + 1 * (w 2).val = (k 2).val; omega

/-- A payload read at `j`: the leading unit axis added to the window's columns `dx … dx + 1247`. -/
theorem payRead (dx : Nat) (hs : S3x128x1250.Slices ![0, 0, dx] S3x128x1248) (v : Vec F S3x128x1250 .f32)
    (j : S1x3x128x1248.Idx) (k : S3x128x1250.Idx)
    (hc : (k 0).val = (j 1).val) (hr : (k 1).val = (j 2).val) (hq : (k 2).val = dx + (j 3).val) :
    shapeCast S1x3x128x1248 (extractStridedSlice S3x128x1248 ![0, 0, dx] v hs) shapeCasts_S3x128x1248_S1x3x128x1248 j = v k := by
  have h0 : (j 0).val < 1 := (j 0).isLt
  have h1 : (j 1).val < 3 := (j 1).isLt
  have h2 : (j 2).val < 128 := (j 2).isLt
  have h3 : (j 3).val < 1248 := (j 3).isLt
  refine (shapeCast_apply _ _ j (ix3 (⟨(j 1).val, h1⟩ : Fin 3) (⟨(j 2).val, h2⟩ : Fin 128) (⟨(j 3).val, h3⟩ : Fin 1248))
    (by rw [Shape.rowMajor_val_three, Shape.rowMajor_val_four]
        show ((j 1).val * 128 + (j 2).val) * 1248 + (j 3).val = ((((j 0).val * 3 + (j 1).val) * 128 + (j 2).val) * 1248 + (j 3).val)
        omega)).trans ?_
  exact extractStridedSlice_apply _ _ hs _ k (fun a => match a with
    | ⟨0, _⟩ => by show (k 0).val = 0 + (j 1).val; omega
    | ⟨1, _⟩ => by show (k 1).val = 0 + (j 2).val; omega
    | ⟨2, _⟩ => by show (k 2).val = dx + (j 3).val; omega)

/-- The padded block read at `(c, r, q)`: the padded plane of `x[0, c]` at row `r`, column `q`. -/
theorem padRead (x : Vec F S1x3x384x1248 .f32) (c : Fin 3) (r : Fin 386) (q : Fin 1250) :
    k0_pay6 x (ix3 c r q)
      = Cert.Patches.padded (Cert.Patches.zeroPad F) (fun r' q' => x (ix4 (0 : Fin 1) c r' q')) r.val q.val := by
  have hr := r.isLt
  have hq := q.isLt
  unfold k0_pay6
  rw [shapeCast_self]
  unfold Cert.Patches.padded
  by_cases hq1 : q.val < 1249
  · refine (concatenate_pair_apply_left _ _ _ _ _ ?_ (ix3 c r (⟨q.val, hq1⟩ : Fin 1249)) ?_).trans ?_
    · rfl
    · exact fun b => match b with | ⟨0, _⟩ => rfl | ⟨1, _⟩ => rfl | ⟨2, _⟩ => rfl
    by_cases hq0 : q.val < 1
    · refine (concatenate_pair_apply_left _ _ _ _ _ ?_ (ix3 c r (⟨q.val, hq0⟩ : Fin 1)) ?_).trans ?_
      · rfl
      · exact fun b => match b with | ⟨0, _⟩ => rfl | ⟨1, _⟩ => rfl | ⟨2, _⟩ => rfl
      rw [dif_neg (by omega)]; rfl
    · refine (concatenate_pair_apply_right _ _ _ _ _ ?_ ?_ (ix3 c r (⟨q.val - 1, by omega⟩ : Fin 1248)) ?_ ?_).trans ?_
      · rfl
      · rfl
      · exact fun b => match b with | ⟨0, _⟩ => fun _ => rfl | ⟨1, _⟩ => fun _ => rfl | ⟨2, _⟩ => fun h => absurd rfl h
      · show q.val - 1 + 1 = q.val; omega
      by_cases hr1 : r.val < 385
      · refine (concatenate_pair_apply_left _ _ _ _ _ ?_ (ix3 c (⟨r.val, hr1⟩ : Fin 385) (⟨q.val - 1, by omega⟩ : Fin 1248)) ?_).trans ?_
        · rfl
        · exact fun b => match b with | ⟨0, _⟩ => rfl | ⟨1, _⟩ => rfl | ⟨2, _⟩ => rfl
        by_cases hr0 : r.val < 1
        · refine (concatenate_pair_apply_left _ _ _ _ _ ?_ (ix3 c (⟨r.val, hr0⟩ : Fin 1) (⟨q.val - 1, by omega⟩ : Fin 1248)) ?_).trans ?_
          · rfl
          · exact fun b => match b with | ⟨0, _⟩ => rfl | ⟨1, _⟩ => rfl | ⟨2, _⟩ => rfl
          rw [dif_neg (by omega)]; rfl
        · refine (concatenate_pair_apply_right _ _ _ _ _ ?_ ?_ (ix3 c (⟨r.val - 1, by omega⟩ : Fin 384) (⟨q.val - 1, by omega⟩ : Fin 1248)) ?_ ?_).trans ?_
          · rfl
          · rfl
          · exact fun b => match b with | ⟨0, _⟩ => fun _ => rfl | ⟨1, _⟩ => fun h => absurd rfl h | ⟨2, _⟩ => fun _ => rfl
          · show r.val - 1 + 1 = r.val; omega
          rw [dif_pos ⟨by omega, by omega, by omega, by omega⟩]
          exact shapeCast_apply x _ _ (ix4 (0 : Fin 1) c (⟨r.val - 1, by omega⟩ : Fin 384) (⟨q.val - 1, by omega⟩ : Fin 1248))
            (by rw [Shape.rowMajor_val_four, Shape.rowMajor_val_three]
                show ((0 * 3 + c.val) * 384 + (r.val - 1)) * 1248 + (q.val - 1) = (c.val * 384 + (r.val - 1)) * 1248 + (q.val - 1)
                omega)
      · refine (concatenate_pair_apply_right _ _ _ _ _ ?_ ?_ (ix3 c (⟨r.val - 385, by omega⟩ : Fin 1) (⟨q.val - 1, by omega⟩ : Fin 1248)) ?_ ?_).trans ?_
        · rfl
        · rfl
        · exact fun b => match b with | ⟨0, _⟩ => fun _ => rfl | ⟨1, _⟩ => fun h => absurd rfl h | ⟨2, _⟩ => fun _ => rfl
        · show r.val - 385 + 385 = r.val; omega
        rw [dif_neg (by omega)]; rfl
  · refine (concatenate_pair_apply_right _ _ _ _ _ ?_ ?_ (ix3 c r (⟨q.val - 1249, by omega⟩ : Fin 1)) ?_ ?_).trans ?_
    · rfl
    · rfl
    · exact fun b => match b with | ⟨0, _⟩ => fun _ => rfl | ⟨1, _⟩ => fun _ => rfl | ⟨2, _⟩ => fun h => absurd rfl h
    · show q.val - 1249 + 1249 = q.val; omega
    rw [dif_neg (by omega)]; rfl

/-- Piece `(dy, dx)` read at `j`: payload, window and padded block in turn. -/
theorem pieceRead (x : Vec F S1x3x384x1248 .f32) (i : grid0.Coords) (dy : Fin 3) (dx : Nat) (hdx : dx ≤ 2)
    (hs : S3x128x1250.Slices ![0, 0, dx] S3x128x1248) (j : S1x3x128x1248.Idx) :
    shapeCast S1x3x128x1248 (extractStridedSlice (s := S3x128x1250) S3x128x1248 ![0, 0, dx] (View.ld (k0_pay6 x) (win0R i dy) : Vec F S3x128x1250 .f32) hs)
        shapeCasts_S3x128x1248_S1x3x128x1248 j
      = Cert.Patches.padded (Cert.Patches.zeroPad F) (fun r' q' => x (ix4 (0 : Fin 1) (⟨(j 1).val, (j 1).isLt⟩ : Fin 3) r' q'))
          (128 * (i 1).val + dy.val + (j 2).val) (dx + (j 3).val) := by
  have h1 : (j 1).val < 3 := (j 1).isLt
  have h2 : (j 2).val < 128 := (j 2).isLt
  have h3 : (j 3).val < 1248 := (j 3).isLt
  have hi : (i 1).val < 3 := (i 1).isLt
  have hdy : dy.val < 3 := dy.isLt
  refine (payRead dx hs _ j (ix3 (⟨(j 1).val, h1⟩ : Fin 3) (⟨(j 2).val, h2⟩ : Fin 128) (⟨dx + (j 3).val, by omega⟩ : Fin 1250))
    rfl rfl rfl).trans ?_
  refine (ldWin _ i dy _ (ix3 (⟨(j 1).val, h1⟩ : Fin 3) (⟨128 * (i 1).val + dy.val + (j 2).val, by omega⟩ : Fin 386)
    (⟨dx + (j 3).val, by omega⟩ : Fin 1250)) rfl rfl rfl).trans ?_
  exact padRead x _ _ _

/-- Two entries of padded planes agree when their channels, rows and columns do. -/
theorem paddedCongr (z : F .f32) (x : Vec F S1x3x384x1248 .f32) {c c' r r' q q' : Nat} (hc : c < 3) (hc' : c' < 3)
    (ec : c = c') (er : r = r') (eq : q = q') :
    Cert.Patches.padded z (fun a b => x (ix4 (0 : Fin 1) (⟨c, hc⟩ : Fin 3) a b)) r q
      = Cert.Patches.padded z (fun a b => x (ix4 (0 : Fin 1) (⟨c', hc'⟩ : Fin 3) a b)) r' q' := by
  subst ec er eq; rfl

end Cert.KernelIdeal.Hand.Value0

namespace Cert.KernelIdeal.Hand

open Cert.KernelIdeal Cert.KernelIdeal.Gen Cert.KernelIdeal.Hand.Value0
open Idealize.ShloMosaic Idealize.ShloMosaic.ValueIdx Idealize.SL.Sem

variable {F : FTy → Type} [FloatOps F]

/-- What the body leaves in the output block when the scratch holds the padded block of `x`: entry `(0, ch, yy, q)` is the
    padded plane of `x[0, ch % 3]` at row `128·(row tile) + yy + ch / 9`, column `q + (ch / 3) % 3`. Channel `ch` lies in
    group `ch / 3 = 3·dy + dx` at local channel `ch % 3`; the group's payload reads the window at vertical shift `dy`,
    columns from `dx`, and the window starts at row `128·(row tile) + dy` of the padded block. -/
theorem outOf0_pad_apply (x : Vec F S1x3x384x1248 .f32) (i : grid0.Coords) (y : S1x27x128x1248.Idx) :
    outOf0 (k0_pay6 x) i y
      = Cert.Patches.padded (Cert.Patches.zeroPad F)
          (fun r q => x (ValueIdx.ix4 (0 : Fin 1) (⟨(y 1).val % 3, Nat.mod_lt _ (by decide)⟩ : Fin 3) r q))
          (128 * (i 1).val + (y 2).val + (y 1).val / 9) ((y 3).val + ((y 1).val / 3) % 3) := by
  unfold outOf0
  refine View.canon_apply_of_pieces
    (fun y : S1x27x128x1248.Idx => Cert.Patches.padded (Cert.Patches.zeroPad F)
      (fun r q => x (ValueIdx.ix4 (0 : Fin 1) (⟨(y 1).val % 3, Nat.mod_lt _ (by decide)⟩ : Fin 3) r q))
      (128 * (i 1).val + (y 2).val + (y 1).val / 9) ((y 3).val + ((y 1).val / 3) % 3))
    _ ?_ y (View.cover_of_tiledL (s := S1x27x128x1248) _ S1x3x128x1248.size (by sl_kernel_rfl) y)
  intro pc hpc j
  rcases List.mem_cons.mp hpc with rfl | hpc
  · refine (pieceRead x i 2 2 (by decide) slices_S3x128x1250_o0_0_2_S3x128x1248 j).trans ?_
    have h1 : (j 1).val < 3 := (j 1).isLt
    exact paddedCongr _ x _ _
      (by show (j 1).val = (24 + 1 * (j 1).val) % 3; omega)
      (by show 128 * (i 1).val + 2 + (j 2).val = 128 * (i 1).val + (0 + 1 * (j 2).val) + (24 + 1 * (j 1).val) / 9; omega)
      (by show 2 + (j 3).val = 0 + 1 * (j 3).val + (24 + 1 * (j 1).val) / 3 % 3; omega)
  rcases List.mem_cons.mp hpc with rfl | hpc
  · refine (pieceRead x i 2 1 (by decide) slices_S3x128x1250_o0_0_1_S3x128x1248 j).trans ?_
    have h1 : (j 1).val < 3 := (j 1).isLt
    exact paddedCongr _ x _ _
      (by show (j 1).val = (21 + 1 * (j 1).val) % 3; omega)
      (by show 128 * (i 1).val + 2 + (j 2).val = 128 * (i 1).val + (0 + 1 * (j 2).val) + (21 + 1 * (j 1).val) / 9; omega)
      (by show 1 + (j 3).val = 0 + 1 * (j 3).val + (21 + 1 * (j 1).val) / 3 % 3; omega)
  rcases List.mem_cons.mp hpc with rfl | hpc
  · refine (pieceRead x i 2 0 (by decide) slices_S3x128x1250_o0_0_0_S3x128x1248 j).trans ?_
    have h1 : (j 1).val < 3 := (j 1).isLt
    exact paddedCongr _ x _ _
      (by show (j 1).val = (18 + 1 * (j 1).val) % 3; omega)
      (by show 128 * (i 1).val + 2 + (j 2).val = 128 * (i 1).val + (0 + 1 * (j 2).val) + (18 + 1 * (j 1).val) / 9; omega)
      (by show 0 + (j 3).val = 0 + 1 * (j 3).val + (18 + 1 * (j 1).val) / 3 % 3; omega)
  rcases List.mem_cons.mp hpc with rfl | hpc
  · refine (pieceRead x i 1 2 (by decide) slices_S3x128x1250_o0_0_2_S3x128x1248 j).trans ?_
    have h1 : (j 1).val < 3 := (j 1).isLt
    exact paddedCongr _ x _ _
      (by show (j 1).val = (15 + 1 * (j 1).val) % 3; omega)
      (by show 128 * (i 1).val + 1 + (j 2).val = 128 * (i 1).val + (0 + 1 * (j 2).val) + (15 + 1 * (j 1).val) / 9; omega)
      (by show 2 + (j 3).val = 0 + 1 * (j 3).val + (15 + 1 * (j 1).val) / 3 % 3; omega)
  rcases List.mem_cons.mp hpc with rfl | hpc
  · refine (pieceRead x i 1 1 (by decide) slices_S3x128x1250_o0_0_1_S3x128x1248 j).trans ?_
    have h1 : (j 1).val < 3 := (j 1).isLt
    exact paddedCongr _ x _ _
      (by show (j 1).val = (12 + 1 * (j 1).val) % 3; omega)
      (by show 128 * (i 1).val + 1 + (j 2).val = 128 * (i 1).val + (0 + 1 * (j 2).val) + (12 + 1 * (j 1).val) / 9; omega)
      (by show 1 + (j 3).val = 0 + 1 * (j 3).val + (12 + 1 * (j 1).val) / 3 % 3; omega)
  rcases List.mem_cons.mp hpc with rfl | hpc
  · refine (pieceRead x i 1 0 (by decide) slices_S3x128x1250_o0_0_0_S3x128x1248 j).trans ?_
    have h1 : (j 1).val < 3 := (j 1).isLt
    exact paddedCongr _ x _ _
      (by show (j 1).val = (9 + 1 * (j 1).val) % 3; omega)
      (by show 128 * (i 1).val + 1 + (j 2).val = 128 * (i 1).val + (0 + 1 * (j 2).val) + (9 + 1 * (j 1).val) / 9; omega)
      (by show 0 + (j 3).val = 0 + 1 * (j 3).val + (9 + 1 * (j 1).val) / 3 % 3; omega)
  rcases List.mem_cons.mp hpc with rfl | hpc
  · refine (pieceRead x i 0 2 (by decide) slices_S3x128x1250_o0_0_2_S3x128x1248 j).trans ?_
    have h1 : (j 1).val < 3 := (j 1).isLt
    exact paddedCongr _ x _ _
      (by show (j 1).val = (6 + 1 * (j 1).val) % 3; omega)
      (by show 128 * (i 1).val + 0 + (j 2).val = 128 * (i 1).val + (0 + 1 * (j 2).val) + (6 + 1 * (j 1).val) / 9; omega)
      (by show 2 + (j 3).val = 0 + 1 * (j 3).val + (6 + 1 * (j 1).val) / 3 % 3; omega)
  rcases List.mem_cons.mp hpc with rfl | hpc
  · refine (pieceRead x i 0 1 (by decide) slices_S3x128x1250_o0_0_1_S3x128x1248 j).trans ?_
    have h1 : (j 1).val < 3 := (j 1).isLt
    exact paddedCongr _ x _ _
      (by show (j 1).val = (3 + 1 * (j 1).val) % 3; omega)
      (by show 128 * (i 1).val + 0 + (j 2).val = 128 * (i 1).val + (0 + 1 * (j 2).val) + (3 + 1 * (j 1).val) / 9; omega)
      (by show 1 + (j 3).val = 0 + 1 * (j 3).val + (3 + 1 * (j 1).val) / 3 % 3; omega)
  rcases List.mem_cons.mp hpc with rfl | hpc
  · refine (pieceRead x i 0 0 (by decide) slices_S3x128x1250_o0_0_0_S3x128x1248 j).trans ?_
    have h1 : (j 1).val < 3 := (j 1).isLt
    exact paddedCongr _ x _ _
      (by show (j 1).val = (0 + 1 * (j 1).val) % 3; omega)
      (by show 128 * (i 1).val + 0 + (j 2).val = 128 * (i 1).val + (0 + 1 * (j 2).val) + (0 + 1 * (j 1).val) / 9; omega)
      (by show 0 + (j 3).val = 0 + 1 * (j 3).val + (0 + 1 * (j 1).val) / 3 % 3; omega)
  nomatch hpc

end Cert.KernelIdeal.Hand

end
-- ==== Proof.KernelIdealArr0.lean ====
/-
  Region 0: from blocks to the whole array. What grid point `t` writes back is block `t` — image `t / 3`, row tile
  `t % 3` — of the patch unfold of the argument array: the scratch at `t` is the padded image `t / 3` (padded at the
  first row tile of that image, whose input block is that image), the output block is its nine shifted windows at
  row tile `t % 3`, and entry by entry that is Spec's `patches`. The twelve blocks tile the result array, so the array
  ends holding the patch unfold of the argument.
-/
import proofs.«113457_j14800457302529_2_alg».proof.Proof.KernelIdealR0
import proofs.«113457_j14800457302529_2_alg».proof.Proof.KernelIdealValue0
import proofs.«113457_j14800457302529_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- Two reads of a padded plane agree when the planes, the rows and the columns do. -/
theorem padded_congr0 {α : Type} (z : α) {img img' : Fin 384 → Fin 1248 → α} {r r' q q' : Nat}
    (hi : img = img') (hr : r = r') (hq : q = q') : Cert.Patches.padded z img r q = Cert.Patches.padded z img' r' q' := by
  subst hi; subst hr; subst hq; rfl

/-- The printed index maps, decided over the twelve grid points: the output's block at `t` is image `t / 3`, row tile
    `t % 3`; the input's block at the first row tile of `t`'s image is image `t / 3`; the body's row-tile coordinate is
    `t % 3`. -/
theorem idx_facts0 : ∀ t : Fin cfg0.N,
      win0_1.index t (0 : Fin 4) = t.val / 3 ∧ win0_1.index t (1 : Fin 4) = 0 ∧ win0_1.index t (2 : Fin 4) = t.val % 3 ∧ win0_1.index t (3 : Fin 4) = 0
    ∧ win0_0.index (fillPt0 t) (0 : Fin 4) = t.val / 3 ∧ win0_0.index (fillPt0 t) (1 : Fin 4) = 0
    ∧ win0_0.index (fillPt0 t) (2 : Fin 4) = 0 ∧ win0_0.index (fillPt0 t) (3 : Fin 4) = 0
    ∧ ((grid0.coords t) 1).val = t.val % 3 :=
  (by decide +kernel : ∀ t : Fin grid0.N, _)

/-- WHAT POINT `t` WRITES BACK is block `t` of the patch unfold of the argument array as the region finds it. -/
theorem flushed_eq0 (c : Dev nD) (t : Fin cfg0.N) :
    (dat0 V c).flushed 1 t
      = ((cfg0.win 1).blk t).view.read (Elt F) (Cert.Patches.patches (Cert.Patches.zeroPad F) (V c main_arg0)) := by
  show (cfg0.win 1).cut (grid0.coords t) ((dat0 V c).after 1 t) = _
  rw [after0_1]
  obtain ⟨e0, e1, e2, e3, f0, f1, f2, f3, g1⟩ := idx_facts0 t
  funext j
  show outOf0 (k0_pay6 (iblk0 V c 0 (fillPt0 t))) (grid0.coords t) j
    = Cert.Patches.patches (Cert.Patches.zeroPad F) (V c main_arg0) (((cfg0.win 1).blk t).view.emb j)
  rw [outOf0_pad_apply]
  unfold Cert.Patches.patches
  have hj0 : (j 0).val < 1 := (j 0).isLt
  have hj1 : (j 1).val < 27 := (j 1).isLt
  have hj2 : (j 2).val < 128 := (j 2).isLt
  have hj3 : (j 3).val < 1248 := (j 3).isLt
  have m0 : ((((cfg0.win 1).blk t).view.emb j) 0).val = t.val / 3 := by
    show win0_1.index t (0 : Fin 4) * 1 + 1 * (j 0).val = _; omega
  have m1 : ((((cfg0.win 1).blk t).view.emb j) 1).val = (j 1).val := by
    show win0_1.index t (1 : Fin 4) * 27 + 1 * (j 1).val = _; omega
  have m2 : ((((cfg0.win 1).blk t).view.emb j) 2).val = 128 * (t.val % 3) + (j 2).val := by
    show win0_1.index t (2 : Fin 4) * 128 + 1 * (j 2).val = _; omega
  have m3 : ((((cfg0.win 1).blk t).view.emb j) 3).val = (j 3).val := by
    show win0_1.index t (3 : Fin 4) * 1248 + 1 * (j 3).val = _; omega
  refine padded_congr0 _ ?_ ?_ ?_
  · funext r q
    show V c main_arg0 (((cfg0.win 0).blk (fillPt0 t)).view.emb (ix4 (0 : Fin 1) (⟨(j 1).val % 3, Nat.mod_lt _ (by decide)⟩ : Fin 3) r q)) = _
    refine congrArg _ (funext fun a => Fin.ext ?_)
    match a with
    | ⟨0, _⟩ => show win0_0.index (fillPt0 t) (0 : Fin 4) * 1 + 1 * 0 = ((((cfg0.win 1).blk t).view.emb j) 0).val; rw [m0]; omega
    | ⟨1, _⟩ => show win0_0.index (fillPt0 t) (1 : Fin 4) * 3 + 1 * ((j 1).val % 3) = ((((cfg0.win 1).blk t).view.emb j) 1).val % 3; rw [m1]; omega
    | ⟨2, _⟩ => show win0_0.index (fillPt0 t) (2 : Fin 4) * 384 + 1 * r.val = r.val; omega
    | ⟨3, _⟩ => show win0_0.index (fillPt0 t) (3 : Fin 4) * 1248 + 1 * q.val = q.val; omega
  · rw [m2, m1, g1]
  · rw [m3, m1]

/-- An index of the result array is in point `t`'s block iff each coordinate is in the block's range on its axis. -/
theorem mem_blk0 (t : Fin cfg0.N) (i : S4x27x384x1248.Idx) :
    i ∈ ((cfg0.win 1).blk t).view.set ↔ ∀ a : Fin 4, win0_1.index t a * S1x27x128x1248.size a ≤ (i a).val ∧ (i a).val < win0_1.index t a * S1x27x128x1248.size a + S1x27x128x1248.size a := by
  show i ∈ ((View.whole main_v0).slice (win0_1.rect t)).set ↔ _
  rw [View.set_slice_whole, Rect.mem_set_unit]
  exact Iff.rfl

/-- Every index of the result array is in the block of the point of its image and row tile. -/
theorem cover0 (i : S4x27x384x1248.Idx) : ∃ t : Fin cfg0.N, (cfg0.win 1).flush t = true ∧ i ∈ ((cfg0.win 1).blk t).view.set := by
  have hi0 : (i 0).val < 4 := (i 0).isLt
  have hi1 : (i 1).val < 27 := (i 1).isLt
  have hi2 : (i 2).val < 384 := (i 2).isLt
  have hi3 : (i 3).val < 1248 := (i 3).isLt
  let t : Fin cfg0.N := ⟨3 * (i 0).val + (i 2).val / 128, lt_of_lt_of_eq (b := 12) (by omega) (show (12 : ℕ) = cfg0.N from N_0.symm)⟩
  have ht : t.val = 3 * (i 0).val + (i 2).val / 128 := rfl
  obtain ⟨e0, e1, e2, e3, -⟩ := idx_facts0 t
  refine ⟨t, flush0_1 t, ?_⟩
  rw [mem_blk0]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 27 ≤ (i 1).val ∧ (i 1).val < win0_1.index t (1 : Fin 4) * 27 + 27; omega
  | ⟨2, _⟩ => show win0_1.index t (2 : Fin 4) * 128 ≤ (i 2).val ∧ (i 2).val < win0_1.index t (2 : Fin 4) * 128 + 128; omega
  | ⟨3, _⟩ => show win0_1.index t (3 : Fin 4) * 1248 ≤ (i 3).val ∧ (i 3).val < win0_1.index t (3 : Fin 4) * 1248 + 1248; omega

/-- THE RESULT ARRAY after the region's twelve write-backs: the patch unfold of the argument array. -/
theorem final0 (c : Dev nD) :
    (dat0 V c).arrAt 1 cfg0.N = Cert.Patches.patches (Cert.Patches.zeroPad F) (V c main_arg0) :=
  (dat0 V c).arrAt_eq_of_cover 1 _ (fun t _ => flushed_eq0 V c t) (cover0)

end Cert.KernelIdeal.Hand

end
-- ==== Proof.KernelIdealValue1.lean ====
/-
  One run of the patch kernel, values only: what the body leaves in its output block when the scratch holds the padded block of an image,
  read at an index, is the specification's padded plane.

  The padded block `k1_pay6 x` is `x` with its unit axis dropped, framed by one row of the padding value above and below
  (two concatenations along axis 1) and one column left and right (two along axis 2): at `(c, r, q)` it is
  `x (0, c, r - 1, q - 1)` when `1 ≤ r ≤ 384` and `1 ≤ q ≤ 1248`, and the padding value otherwise — the specification's
  `padded`. The window for vertical shift `dy` starts at row `128·(row tile) + dy` of the block, so the window at
  `(c, yy, q')` is the block at `(c, 128·(row tile) + dy + yy, q')`. The payload of channel group `g = 3·dy + dx` is the
  window's columns `dx … dx + 1247` under a leading unit axis, stored at channels `3g … 3g + 2`; the nine groups tile the
  output block. So output entry `(0, ch, yy, q)`, in group `ch / 3` at local channel `ch % 3`, is the padded plane of
  `x[0, ch % 3]` at row `128·(row tile) + yy + ch / 9`, column `q + (ch / 3) % 3`.
-/
import proofs.«113457_j14800457302529_2_alg».proof.Proof.KernelIdealR1Defs
import proofs.«113457_j14800457302529_2_alg».proof.Proof.Spec
import Idealize.ShloMosaic.Lib.Pipeline.Value
import Idealize.ShloMosaic.Lib.ValueIdx
import Idealize.ShloMosaic.Lib.Tactic
import Idealize.ShloMosaic.Lib.Ring

noncomputable section

namespace Cert.KernelIdeal.Hand.Value1

open Cert.KernelIdeal Cert.KernelIdeal.Gen Cert.KernelIdeal.Hand
open Idealize.ShloMosaic Idealize.ShloMosaic.ValueIdx Idealize.SL.Sem

variable {F : FTy → Type} [FloatOps F]

/-- The middle entry of the window's offsets, for the three row tiles and the three vertical shifts. -/
theorem offMid (n r : Fin 3) :
    (Scalar.indexCast (Scalar.addi (Scalar.muli (BitVec.ofNat 32 n.val) 128#32) (BitVec.ofNat 32 r.val))).toNat = 128 * n.val + r.val := by
  revert n r; decide

/-- The window's offsets in closed form: rows start at `128·(row tile) + r`. -/
theorem offEq (i : grid1.Coords) (r : Fin 3) :
    k1_off1 i (BitVec.ofNat 32 r.val) = ![0, 128 * (i 1).val + r.val, 0] := by
  have h := offMid (⟨(i 1).val, (i 1).isLt⟩ : Fin 3) r
  unfold k1_off1
  simp only []
  rw [h]

/-- The window read at `w`: the scratch at `w` moved down by the window's first row. -/
theorem ldWin (s : Vec F S3x386x1250 .f32) (i : grid1.Coords) (r : Fin 3) (w : S3x128x1250.Idx) (k : S3x386x1250.Idx)
    (hc : (k 0).val = (w 0).val) (hr : (k 1).val = 128 * (i 1).val + r.val + (w 1).val) (hq : (k 2).val = (w 2).val) :
    View.ld s (win1R i r) w = s k := by
  show s ((win1R i r).idx w) = s k
  refine congrArg s (funext fun a => Fin.ext ?_)
  show k1_off1 i (BitVec.ofNat 32 r.val) a + 1 * (w a).val = (k a).val
  rw [offEq]
  match a with
  | ⟨0, _⟩ => show 0 + 1 * (w 0).val = (k 0).val; omega
  | ⟨1, _⟩ => show 128 * (i 1).val + r.val + 1 * (w 1).val = (k 1).val; omega
  | ⟨2, _⟩ => show 0 + 1 * (w 2).val = (k 2).val; omega

/-- A payload read at `j`: the leading unit axis added to the window's columns `dx … dx + 1247`. -/
theorem payRead (dx : Nat) (hs : S3x128x1250.Slices ![0, 0, dx] S3x128x1248) (v : Vec F S3x128x1250 .f32)
    (j : S1x3x128x1248.Idx) (k : S3x128x1250.Idx)
    (hc : (k 0).val = (j 1).val) (hr : (k 1).val = (j 2).val) (hq : (k 2).val = dx + (j 3).val) :
    shapeCast S1x3x128x1248 (extractStridedSlice S3x128x1248 ![0, 0, dx] v hs) shapeCasts_S3x128x1248_S1x3x128x1248 j = v k := by
  have h0 : (j 0).val < 1 := (j 0).isLt
  have h1 : (j 1).val < 3 := (j 1).isLt
  have h2 : (j 2).val < 128 := (j 2).isLt
  have h3 : (j 3).val < 1248 := (j 3).isLt
  refine (shapeCast_apply _ _ j (ix3 (⟨(j 1).val, h1⟩ : Fin 3) (⟨(j 2).val, h2⟩ : Fin 128) (⟨(j 3).val, h3⟩ : Fin 1248))
    (by rw [Shape.rowMajor_val_three, Shape.rowMajor_val_four]
        show ((j 1).val * 128 + (j 2).val) * 1248 + (j 3).val = ((((j 0).val * 3 + (j 1).val) * 128 + (j 2).val) * 1248 + (j 3).val)
        omega)).trans ?_
  exact extractStridedSlice_apply _ _ hs _ k (fun a => match a with
    | ⟨0, _⟩ => by show (k 0).val = 0 + (j 1).val; omega
    | ⟨1, _⟩ => by show (k 1).val = 0 + (j 2).val; omega
    | ⟨2, _⟩ => by show (k 2).val = dx + (j 3).val; omega)

/-- The padded block read at `(c, r, q)`: the padded plane of `x[0, c]` at row `r`, column `q`. -/
theorem padRead (x : Vec F S1x3x384x1248 .f32) (c : Fin 3) (r : Fin 386) (q : Fin 1250) :
    k1_pay6 x (ix3 c r q)
      = Cert.Patches.padded (Cert.Patches.zeroPad F) (fun r' q' => x (ix4 (0 : Fin 1) c r' q')) r.val q.val := by
  have hr := r.isLt
  have hq := q.isLt
  unfold k1_pay6
  rw [shapeCast_self]
  unfold Cert.Patches.padded
  by_cases hq1 : q.val < 1249
  · refine (concatenate_pair_apply_left _ _ _ _ _ ?_ (ix3 c r (⟨q.val, hq1⟩ : Fin 1249)) ?_).trans ?_
    · rfl
    · exact fun b => match b with | ⟨0, _⟩ => rfl | ⟨1, _⟩ => rfl | ⟨2, _⟩ => rfl
    by_cases hq0 : q.val < 1
    · refine (concatenate_pair_apply_left _ _ _ _ _ ?_ (ix3 c r (⟨q.val, hq0⟩ : Fin 1)) ?_).trans ?_
      · rfl
      · exact fun b => match b with | ⟨0, _⟩ => rfl | ⟨1, _⟩ => rfl | ⟨2, _⟩ => rfl
      rw [dif_neg (by omega)]; rfl
    · refine (concatenate_pair_apply_right _ _ _ _ _ ?_ ?_ (ix3 c r (⟨q.val - 1, by omega⟩ : Fin 1248)) ?_ ?_).trans ?_
      · rfl
      · rfl
      · exact fun b => match b with | ⟨0, _⟩ => fun _ => rfl | ⟨1, _⟩ => fun _ => rfl | ⟨2, _⟩ => fun h => absurd rfl h
      · show q.val - 1 + 1 = q.val; omega
      by_cases hr1 : r.val < 385
      · refine (concatenate_pair_apply_left _ _ _ _ _ ?_ (ix3 c (⟨r.val, hr1⟩ : Fin 385) (⟨q.val - 1, by omega⟩ : Fin 1248)) ?_).trans ?_
        · rfl
        · exact fun b => match b with | ⟨0, _⟩ => rfl | ⟨1, _⟩ => rfl | ⟨2, _⟩ => rfl
        by_cases hr0 : r.val < 1
        · refine (concatenate_pair_apply_left _ _ _ _ _ ?_ (ix3 c (⟨r.val, hr0⟩ : Fin 1) (⟨q.val - 1, by omega⟩ : Fin 1248)) ?_).trans ?_
          · rfl
          · exact fun b => match b with | ⟨0, _⟩ => rfl | ⟨1, _⟩ => rfl | ⟨2, _⟩ => rfl
          rw [dif_neg (by omega)]; rfl
        · refine (concatenate_pair_apply_right _ _ _ _ _ ?_ ?_ (ix3 c (⟨r.val - 1, by omega⟩ : Fin 384) (⟨q.val - 1, by omega⟩ : Fin 1248)) ?_ ?_).trans ?_
          · rfl
          · rfl
          · exact fun b => match b with | ⟨0, _⟩ => fun _ => rfl | ⟨1, _⟩ => fun h => absurd rfl h | ⟨2, _⟩ => fun _ => rfl
          · show r.val - 1 + 1 = r.val; omega
          rw [dif_pos ⟨by omega, by omega, by omega, by omega⟩]
          exact shapeCast_apply x _ _ (ix4 (0 : Fin 1) c (⟨r.val - 1, by omega⟩ : Fin 384) (⟨q.val - 1, by omega⟩ : Fin 1248))
            (by rw [Shape.rowMajor_val_four, Shape.rowMajor_val_three]
                show ((0 * 3 + c.val) * 384 + (r.val - 1)) * 1248 + (q.val - 1) = (c.val * 384 + (r.val - 1)) * 1248 + (q.val - 1)
                omega)
      · refine (concatenate_pair_apply_right _ _ _ _ _ ?_ ?_ (ix3 c (⟨r.val - 385, by omega⟩ : Fin 1) (⟨q.val - 1, by omega⟩ : Fin 1248)) ?_ ?_).trans ?_
        · rfl
        · rfl
        · exact fun b => match b with | ⟨0, _⟩ => fun _ => rfl | ⟨1, _⟩ => fun h => absurd rfl h | ⟨2, _⟩ => fun _ => rfl
        · show r.val - 385 + 385 = r.val; omega
        rw [dif_neg (by omega)]; rfl
  · refine (concatenate_pair_apply_right _ _ _ _ _ ?_ ?_ (ix3 c r (⟨q.val - 1249, by omega⟩ : Fin 1)) ?_ ?_).trans ?_
    · rfl
    · rfl
    · exact fun b => match b with | ⟨0, _⟩ => fun _ => rfl | ⟨1, _⟩ => fun _ => rfl | ⟨2, _⟩ => fun h => absurd rfl h
    · show q.val - 1249 + 1249 = q.val; omega
    rw [dif_neg (by omega)]; rfl

/-- Piece `(dy, dx)` read at `j`: payload, window and padded block in turn. -/
theorem pieceRead (x : Vec F S1x3x384x1248 .f32) (i : grid1.Coords) (dy : Fin 3) (dx : Nat) (hdx : dx ≤ 2)
    (hs : S3x128x1250.Slices ![0, 0, dx] S3x128x1248) (j : S1x3x128x1248.Idx) :
    shapeCast S1x3x128x1248 (extractStridedSlice (s := S3x128x1250) S3x128x1248 ![0, 0, dx] (View.ld (k1_pay6 x) (win1R i dy) : Vec F S3x128x1250 .f32) hs)
        shapeCasts_S3x128x1248_S1x3x128x1248 j
      = Cert.Patches.padded (Cert.Patches.zeroPad F) (fun r' q' => x (ix4 (0 : Fin 1) (⟨(j 1).val, (j 1).isLt⟩ : Fin 3) r' q'))
          (128 * (i 1).val + dy.val + (j 2).val) (dx + (j 3).val) := by
  have h1 : (j 1).val < 3 := (j 1).isLt
  have h2 : (j 2).val < 128 := (j 2).isLt
  have h3 : (j 3).val < 1248 := (j 3).isLt
  have hi : (i 1).val < 3 := (i 1).isLt
  have hdy : dy.val < 3 := dy.isLt
  refine (payRead dx hs _ j (ix3 (⟨(j 1).val, h1⟩ : Fin 3) (⟨(j 2).val, h2⟩ : Fin 128) (⟨dx + (j 3).val, by omega⟩ : Fin 1250))
    rfl rfl rfl).trans ?_
  refine (ldWin _ i dy _ (ix3 (⟨(j 1).val, h1⟩ : Fin 3) (⟨128 * (i 1).val + dy.val + (j 2).val, by omega⟩ : Fin 386)
    (⟨dx + (j 3).val, by omega⟩ : Fin 1250)) rfl rfl rfl).trans ?_
  exact padRead x _ _ _

/-- Two entries of padded planes agree when their channels, rows and columns do. -/
theorem paddedCongr (z : F .f32) (x : Vec F S1x3x384x1248 .f32) {c c' r r' q q' : Nat} (hc : c < 3) (hc' : c' < 3)
    (ec : c = c') (er : r = r') (eq : q = q') :
    Cert.Patches.padded z (fun a b => x (ix4 (0 : Fin 1) (⟨c, hc⟩ : Fin 3) a b)) r q
      = Cert.Patches.padded z (fun a b => x (ix4 (0 : Fin 1) (⟨c', hc'⟩ : Fin 3) a b)) r' q' := by
  subst ec er eq; rfl

end Cert.KernelIdeal.Hand.Value1

namespace Cert.KernelIdeal.Hand

open Cert.KernelIdeal Cert.KernelIdeal.Gen Cert.KernelIdeal.Hand.Value1
open Idealize.ShloMosaic Idealize.ShloMosaic.ValueIdx Idealize.SL.Sem

variable {F : FTy → Type} [FloatOps F]

/-- What the body leaves in the output block when the scratch holds the padded block of `x`: entry `(0, ch, yy, q)` is the
    padded plane of `x[0, ch % 3]` at row `128·(row tile) + yy + ch / 9`, column `q + (ch / 3) % 3`. Channel `ch` lies in
    group `ch / 3 = 3·dy + dx` at local channel `ch % 3`; the group's payload reads the window at vertical shift `dy`,
    columns from `dx`, and the window starts at row `128·(row tile) + dy` of the padded block. -/
theorem outOf1_pad_apply (x : Vec F S1x3x384x1248 .f32) (i : grid1.Coords) (y : S1x27x128x1248.Idx) :
    outOf1 (k1_pay6 x) i y
      = Cert.Patches.padded (Cert.Patches.zeroPad F)
          (fun r q => x (ValueIdx.ix4 (0 : Fin 1) (⟨(y 1).val % 3, Nat.mod_lt _ (by decide)⟩ : Fin 3) r q))
          (128 * (i 1).val + (y 2).val + (y 1).val / 9) ((y 3).val + ((y 1).val / 3) % 3) := by
  unfold outOf1
  refine View.canon_apply_of_pieces
    (fun y : S1x27x128x1248.Idx => Cert.Patches.padded (Cert.Patches.zeroPad F)
      (fun r q => x (ValueIdx.ix4 (0 : Fin 1) (⟨(y 1).val % 3, Nat.mod_lt _ (by decide)⟩ : Fin 3) r q))
      (128 * (i 1).val + (y 2).val + (y 1).val / 9) ((y 3).val + ((y 1).val / 3) % 3))
    _ ?_ y (View.cover_of_tiledL (s := S1x27x128x1248) _ S1x3x128x1248.size (by sl_kernel_rfl) y)
  intro pc hpc j
  rcases List.mem_cons.mp hpc with rfl | hpc
  · refine (pieceRead x i 2 2 (by decide) slices_S3x128x1250_o0_0_2_S3x128x1248 j).trans ?_
    have h1 : (j 1).val < 3 := (j 1).isLt
    exact paddedCongr _ x _ _
      (by show (j 1).val = (24 + 1 * (j 1).val) % 3; omega)
      (by show 128 * (i 1).val + 2 + (j 2).val = 128 * (i 1).val + (0 + 1 * (j 2).val) + (24 + 1 * (j 1).val) / 9; omega)
      (by show 2 + (j 3).val = 0 + 1 * (j 3).val + (24 + 1 * (j 1).val) / 3 % 3; omega)
  rcases List.mem_cons.mp hpc with rfl | hpc
  · refine (pieceRead x i 2 1 (by decide) slices_S3x128x1250_o0_0_1_S3x128x1248 j).trans ?_
    have h1 : (j 1).val < 3 := (j 1).isLt
    exact paddedCongr _ x _ _
      (by show (j 1).val = (21 + 1 * (j 1).val) % 3; omega)
      (by show 128 * (i 1).val + 2 + (j 2).val = 128 * (i 1).val + (0 + 1 * (j 2).val) + (21 + 1 * (j 1).val) / 9; omega)
      (by show 1 + (j 3).val = 0 + 1 * (j 3).val + (21 + 1 * (j 1).val) / 3 % 3; omega)
  rcases List.mem_cons.mp hpc with rfl | hpc
  · refine (pieceRead x i 2 0 (by decide) slices_S3x128x1250_o0_0_0_S3x128x1248 j).trans ?_
    have h1 : (j 1).val < 3 := (j 1).isLt
    exact paddedCongr _ x _ _
      (by show (j 1).val = (18 + 1 * (j 1).val) % 3; omega)
      (by show 128 * (i 1).val + 2 + (j 2).val = 128 * (i 1).val + (0 + 1 * (j 2).val) + (18 + 1 * (j 1).val) / 9; omega)
      (by show 0 + (j 3).val = 0 + 1 * (j 3).val + (18 + 1 * (j 1).val) / 3 % 3; omega)
  rcases List.mem_cons.mp hpc with rfl | hpc
  · refine (pieceRead x i 1 2 (by decide) slices_S3x128x1250_o0_0_2_S3x128x1248 j).trans ?_
    have h1 : (j 1).val < 3 := (j 1).isLt
    exact paddedCongr _ x _ _
      (by show (j 1).val = (15 + 1 * (j 1).val) % 3; omega)
      (by show 128 * (i 1).val + 1 + (j 2).val = 128 * (i 1).val + (0 + 1 * (j 2).val) + (15 + 1 * (j 1).val) / 9; omega)
      (by show 2 + (j 3).val = 0 + 1 * (j 3).val + (15 + 1 * (j 1).val) / 3 % 3; omega)
  rcases List.mem_cons.mp hpc with rfl | hpc
  · refine (pieceRead x i 1 1 (by decide) slices_S3x128x1250_o0_0_1_S3x128x1248 j).trans ?_
    have h1 : (j 1).val < 3 := (j 1).isLt
    exact paddedCongr _ x _ _
      (by show (j 1).val = (12 + 1 * (j 1).val) % 3; omega)
      (by show 128 * (i 1).val + 1 + (j 2).val = 128 * (i 1).val + (0 + 1 * (j 2).val) + (12 + 1 * (j 1).val) / 9; omega)
      (by show 1 + (j 3).val = 0 + 1 * (j 3).val + (12 + 1 * (j 1).val) / 3 % 3; omega)
  rcases List.mem_cons.mp hpc with rfl | hpc
  · refine (pieceRead x i 1 0 (by decide) slices_S3x128x1250_o0_0_0_S3x128x1248 j).trans ?_
    have h1 : (j 1).val < 3 := (j 1).isLt
    exact paddedCongr _ x _ _
      (by show (j 1).val = (9 + 1 * (j 1).val) % 3; omega)
      (by show 128 * (i 1).val + 1 + (j 2).val = 128 * (i 1).val + (0 + 1 * (j 2).val) + (9 + 1 * (j 1).val) / 9; omega)
      (by show 0 + (j 3).val = 0 + 1 * (j 3).val + (9 + 1 * (j 1).val) / 3 % 3; omega)
  rcases List.mem_cons.mp hpc with rfl | hpc
  · refine (pieceRead x i 0 2 (by decide) slices_S3x128x1250_o0_0_2_S3x128x1248 j).trans ?_
    have h1 : (j 1).val < 3 := (j 1).isLt
    exact paddedCongr _ x _ _
      (by show (j 1).val = (6 + 1 * (j 1).val) % 3; omega)
      (by show 128 * (i 1).val + 0 + (j 2).val = 128 * (i 1).val + (0 + 1 * (j 2).val) + (6 + 1 * (j 1).val) / 9; omega)
      (by show 2 + (j 3).val = 0 + 1 * (j 3).val + (6 + 1 * (j 1).val) / 3 % 3; omega)
  rcases List.mem_cons.mp hpc with rfl | hpc
  · refine (pieceRead x i 0 1 (by decide) slices_S3x128x1250_o0_0_1_S3x128x1248 j).trans ?_
    have h1 : (j 1).val < 3 := (j 1).isLt
    exact paddedCongr _ x _ _
      (by show (j 1).val = (3 + 1 * (j 1).val) % 3; omega)
      (by show 128 * (i 1).val + 0 + (j 2).val = 128 * (i 1).val + (0 + 1 * (j 2).val) + (3 + 1 * (j 1).val) / 9; omega)
      (by show 1 + (j 3).val = 0 + 1 * (j 3).val + (3 + 1 * (j 1).val) / 3 % 3; omega)
  rcases List.mem_cons.mp hpc with rfl | hpc
  · refine (pieceRead x i 0 0 (by decide) slices_S3x128x1250_o0_0_0_S3x128x1248 j).trans ?_
    have h1 : (j 1).val < 3 := (j 1).isLt
    exact paddedCongr _ x _ _
      (by show (j 1).val = (0 + 1 * (j 1).val) % 3; omega)
      (by show 128 * (i 1).val + 0 + (j 2).val = 128 * (i 1).val + (0 + 1 * (j 2).val) + (0 + 1 * (j 1).val) / 9; omega)
      (by show 0 + (j 3).val = 0 + 1 * (j 3).val + (0 + 1 * (j 1).val) / 3 % 3; omega)
  nomatch hpc

end Cert.KernelIdeal.Hand

end
-- ==== Proof.KernelIdealArr1.lean ====
/-
  Region 1: from blocks to the whole array. What grid point `t` writes back is block `t` — image `t / 3`, row tile
  `t % 3` — of the patch unfold of the argument array: the scratch at `t` is the padded image `t / 3` (padded at the
  first row tile of that image, whose input block is that image), the output block is its nine shifted windows at
  row tile `t % 3`, and entry by entry that is Spec's `patches`. The twelve blocks tile the result array, so the array
  ends holding the patch unfold of the argument.
-/
import proofs.«113457_j14800457302529_2_alg».proof.Proof.KernelIdealR1
import proofs.«113457_j14800457302529_2_alg».proof.Proof.KernelIdealValue1
import proofs.«113457_j14800457302529_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- Two reads of a padded plane agree when the planes, the rows and the columns do. -/
theorem padded_congr1 {α : Type} (z : α) {img img' : Fin 384 → Fin 1248 → α} {r r' q q' : Nat}
    (hi : img = img') (hr : r = r') (hq : q = q') : Cert.Patches.padded z img r q = Cert.Patches.padded z img' r' q' := by
  subst hi; subst hr; subst hq; rfl

/-- The printed index maps, decided over the twelve grid points: the output's block at `t` is image `t / 3`, row tile
    `t % 3`; the input's block at the first row tile of `t`'s image is image `t / 3`; the body's row-tile coordinate is
    `t % 3`. -/
theorem idx_facts1 : ∀ t : Fin cfg1.N,
      win1_1.index t (0 : Fin 4) = t.val / 3 ∧ win1_1.index t (1 : Fin 4) = 0 ∧ win1_1.index t (2 : Fin 4) = t.val % 3 ∧ win1_1.index t (3 : Fin 4) = 0
    ∧ win1_0.index (fillPt1 t) (0 : Fin 4) = t.val / 3 ∧ win1_0.index (fillPt1 t) (1 : Fin 4) = 0
    ∧ win1_0.index (fillPt1 t) (2 : Fin 4) = 0 ∧ win1_0.index (fillPt1 t) (3 : Fin 4) = 0
    ∧ ((grid1.coords t) 1).val = t.val % 3 :=
  (by decide +kernel : ∀ t : Fin grid1.N, _)

/-- WHAT POINT `t` WRITES BACK is block `t` of the patch unfold of the argument array as the region finds it. -/
theorem flushed_eq1 (c : Dev nD) (t : Fin cfg1.N) :
    (dat1 V c).flushed 1 t
      = ((cfg1.win 1).blk t).view.read (Elt F) (Cert.Patches.patches (Cert.Patches.zeroPad F) (V c main_arg1)) := by
  show (cfg1.win 1).cut (grid1.coords t) ((dat1 V c).after 1 t) = _
  rw [after1_1]
  obtain ⟨e0, e1, e2, e3, f0, f1, f2, f3, g1⟩ := idx_facts1 t
  funext j
  show outOf1 (k1_pay6 (iblk1 V c 0 (fillPt1 t))) (grid1.coords t) j
    = Cert.Patches.patches (Cert.Patches.zeroPad F) (V c main_arg1) (((cfg1.win 1).blk t).view.emb j)
  rw [outOf1_pad_apply]
  unfold Cert.Patches.patches
  have hj0 : (j 0).val < 1 := (j 0).isLt
  have hj1 : (j 1).val < 27 := (j 1).isLt
  have hj2 : (j 2).val < 128 := (j 2).isLt
  have hj3 : (j 3).val < 1248 := (j 3).isLt
  have m0 : ((((cfg1.win 1).blk t).view.emb j) 0).val = t.val / 3 := by
    show win1_1.index t (0 : Fin 4) * 1 + 1 * (j 0).val = _; omega
  have m1 : ((((cfg1.win 1).blk t).view.emb j) 1).val = (j 1).val := by
    show win1_1.index t (1 : Fin 4) * 27 + 1 * (j 1).val = _; omega
  have m2 : ((((cfg1.win 1).blk t).view.emb j) 2).val = 128 * (t.val % 3) + (j 2).val := by
    show win1_1.index t (2 : Fin 4) * 128 + 1 * (j 2).val = _; omega
  have m3 : ((((cfg1.win 1).blk t).view.emb j) 3).val = (j 3).val := by
    show win1_1.index t (3 : Fin 4) * 1248 + 1 * (j 3).val = _; omega
  refine padded_congr1 _ ?_ ?_ ?_
  · funext r q
    show V c main_arg1 (((cfg1.win 0).blk (fillPt1 t)).view.emb (ix4 (0 : Fin 1) (⟨(j 1).val % 3, Nat.mod_lt _ (by decide)⟩ : Fin 3) r q)) = _
    refine congrArg _ (funext fun a => Fin.ext ?_)
    match a with
    | ⟨0, _⟩ => show win1_0.index (fillPt1 t) (0 : Fin 4) * 1 + 1 * 0 = ((((cfg1.win 1).blk t).view.emb j) 0).val; rw [m0]; omega
    | ⟨1, _⟩ => show win1_0.index (fillPt1 t) (1 : Fin 4) * 3 + 1 * ((j 1).val % 3) = ((((cfg1.win 1).blk t).view.emb j) 1).val % 3; rw [m1]; omega
    | ⟨2, _⟩ => show win1_0.index (fillPt1 t) (2 : Fin 4) * 384 + 1 * r.val = r.val; omega
    | ⟨3, _⟩ => show win1_0.index (fillPt1 t) (3 : Fin 4) * 1248 + 1 * q.val = q.val; omega
  · rw [m2, m1, g1]
  · rw [m3, m1]

/-- An index of the result array is in point `t`'s block iff each coordinate is in the block's range on its axis. -/
theorem mem_blk1 (t : Fin cfg1.N) (i : S4x27x384x1248.Idx) :
    i ∈ ((cfg1.win 1).blk t).view.set ↔ ∀ a : Fin 4, win1_1.index t a * S1x27x128x1248.size a ≤ (i a).val ∧ (i a).val < win1_1.index t a * S1x27x128x1248.size a + S1x27x128x1248.size a := by
  show i ∈ ((View.whole main_v1).slice (win1_1.rect t)).set ↔ _
  rw [View.set_slice_whole, Rect.mem_set_unit]
  exact Iff.rfl

/-- Every index of the result array is in the block of the point of its image and row tile. -/
theorem cover1 (i : S4x27x384x1248.Idx) : ∃ t : Fin cfg1.N, (cfg1.win 1).flush t = true ∧ i ∈ ((cfg1.win 1).blk t).view.set := by
  have hi0 : (i 0).val < 4 := (i 0).isLt
  have hi1 : (i 1).val < 27 := (i 1).isLt
  have hi2 : (i 2).val < 384 := (i 2).isLt
  have hi3 : (i 3).val < 1248 := (i 3).isLt
  let t : Fin cfg1.N := ⟨3 * (i 0).val + (i 2).val / 128, lt_of_lt_of_eq (b := 12) (by omega) (show (12 : ℕ) = cfg1.N from N_1.symm)⟩
  have ht : t.val = 3 * (i 0).val + (i 2).val / 128 := rfl
  obtain ⟨e0, e1, e2, e3, -⟩ := idx_facts1 t
  refine ⟨t, flush1_1 t, ?_⟩
  rw [mem_blk1]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 27 ≤ (i 1).val ∧ (i 1).val < win1_1.index t (1 : Fin 4) * 27 + 27; omega
  | ⟨2, _⟩ => show win1_1.index t (2 : Fin 4) * 128 ≤ (i 2).val ∧ (i 2).val < win1_1.index t (2 : Fin 4) * 128 + 128; omega
  | ⟨3, _⟩ => show win1_1.index t (3 : Fin 4) * 1248 ≤ (i 3).val ∧ (i 3).val < win1_1.index t (3 : Fin 4) * 1248 + 1248; omega

/-- THE RESULT ARRAY after the region's twelve write-backs: the patch unfold of the argument array. -/
theorem final1 (c : Dev nD) :
    (dat1 V c).arrAt 1 cfg1.N = Cert.Patches.patches (Cert.Patches.zeroPad F) (V c main_arg1) :=
  (dat1 V c).arrAt_eq_of_cover 1 _ (fun t _ => flushed_eq1 V c t) (cover1)

end Cert.KernelIdeal.Hand

end
-- ==== Proof.RefPatches.lean ====
/-
  The reference program read as the specification: its result, the row-major reshape of a stack of nine slices of the
  zero-padded argument, is the 3×3 patch unfold `Cert.Patches.patches` of the argument.

  Result entry `(b, ch, y, q)` is entry `(b, ch / 3, ch % 3, y, q)` of the stack (the reshape is row-major and
  27 = 9 · 3); entry `(b, k, c, y, q)` of the stack is entry `(b, c, y, q)` of its piece `k`, the slice of the padded
  array at offset `(k / 3, k % 3)` on the last two axes, so it is the padded array at `(b, c, y + k / 3, q + k % 3)`;
  and the padded array at `(b, c, r, s)` is the argument at `(b, c, r - 1, s - 1)` when `1 ≤ r ≤ 384` and `1 ≤ s ≤ 1248`,
  and the padding value otherwise. With `k = ch / 3` the row offset is `ch / 9` and the column offset `(ch / 3) % 3`.
  The padding value is the integer zero converted to a 32-bit float, which at the ideal values is the specification's
  `zeroPad`. No arithmetic is done on the entries.
-/
import proofs.«113457_j14800457302529_2_alg».proof.Proof.Gen.ReferenceIdeal.Read
import proofs.«113457_j14800457302529_2_alg».proof.Proof.Spec
import Idealize.ShloMosaic.Lib.KernelVsHost

noncomputable section

namespace Cert.Patches.Ref

open Cert.ReferenceIdeal Cert.ReferenceIdeal.Gen Cert.ReferenceIdeal.Read Idealize.ShloMosaic Idealize.ShloMosaic.ValueIdx

variable {F : FTy → Type} [FloatOps F]

/-- The padding value the reference writes, read at the one index of the rank-zero shape, is the specification's. -/
theorem padValue_eq (i : S_.Idx) : val_main_call0_v0 (F := Ideal) i = Cert.Patches.zeroPad Ideal := rfl

/-- The padded array read at `(b, c, r, q)`: the padded plane of `x[b, c]` at row `r`, column `q`. -/
theorem v0_read (x : (⟨S4x3x384x1248, .f32⟩ : BufTy).Contents (Elt Ideal)) (b : Fin 4) (c : Fin 3) (r : Fin 386) (q : Fin 1250) :
    val_main_v0 (F := Ideal) x (ix4 b c r q)
      = Cert.Patches.padded (Cert.Patches.zeroPad Ideal) (fun r' q' => x (ix4 b c r' q')) r.val q.val := by
  unfold val_main_v0 Cert.Patches.padded
  by_cases h : 1 ≤ r.val ∧ r.val ≤ 384 ∧ 1 ≤ q.val ∧ q.val ≤ 1248
  · rw [dif_pos h]
    exact pad_apply_of_inside _ _ _ x _ pads_S4x3x384x1248_S4x3x386x1250_000_000_110_110 h_S_ (ix4 b c r q)
      (ix4 b c ⟨r.val - 1, by omega⟩ ⟨q.val - 1, by omega⟩) (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show q.val = 1 + (q.val - 1) * (0 + 1); omega)
  · rw [dif_neg h]
    by_cases hr : 1 ≤ r.val ∧ r.val ≤ 384
    · refine (pad_apply_of_not_inside _ _ _ x _ pads_S4x3x384x1248_S4x3x386x1250_000_000_110_110 h_S_ (ix4 b c r q) ⟨3, by decide⟩ ?_).trans (padValue_eq _)
      show ¬(1 ≤ q.val ∧ (q.val - 1) % (0 + 1) = 0 ∧ (q.val - 1) / (0 + 1) < 1248)
      omega
    · refine (pad_apply_of_not_inside _ _ _ x _ pads_S4x3x384x1248_S4x3x386x1250_000_000_110_110 h_S_ (ix4 b c r q) ⟨2, by decide⟩ ?_).trans (padValue_eq _)
      show ¬(1 ≤ r.val ∧ (r.val - 1) % (0 + 1) = 0 ∧ (r.val - 1) / (0 + 1) < 384)
      omega

/-- The padded array read at any index whose coordinates are `(b, c, y + dy, q + dx)`. -/
theorem v0_shift (x : (⟨S4x3x384x1248, .f32⟩ : BufTy).Contents (Elt Ideal)) (b : Fin 4) (c : Fin 3) (y : Fin 384) (q : Fin 1248)
    (dy dx : Nat) (hdy : dy ≤ 2) (hdx : dx ≤ 2) (k : S4x3x386x1250.Idx)
    (h0 : (k 0).val = b.val) (h1 : (k 1).val = c.val) (h2 : (k 2).val = dy + y.val) (h3 : (k 3).val = dx + q.val) :
    val_main_v0 (F := Ideal) x k
      = Cert.Patches.padded (Cert.Patches.zeroPad Ideal) (fun r' q' => x (ix4 b c r' q')) (y.val + dy) (q.val + dx) := by
  have hk : k = ix4 b c (⟨y.val + dy, by omega⟩ : Fin 386) (⟨q.val + dx, by omega⟩ : Fin 1250) := by
    funext a
    match a with
    | ⟨0, _⟩ => exact Fin.ext h0
    | ⟨1, _⟩ => exact Fin.ext h1
    | ⟨2, _⟩ => exact Fin.ext (by show (k 2).val = y.val + dy; omega)
    | ⟨3, _⟩ => exact Fin.ext (by show (k 3).val = q.val + dx; omega)
  rw [hk]
  exact v0_read x b c _ _

theorem piece0_read (x : (⟨S4x3x384x1248, .f32⟩ : BufTy).Contents (Elt Ideal)) (b : Fin 4) (e : Fin 1) (c : Fin 3) (y : Fin 384) (q : Fin 1248) :
    val_main_v10 (F := Ideal) x (ix5 b e c y q)
      = Cert.Patches.padded (Cert.Patches.zeroPad Ideal) (fun r' q' => x (ix4 b c r' q')) (y.val + 0) (q.val + 0) := by
  rw [val_main_v10_apply, val_main_v1_apply]
  exact v0_shift x b c y q 0 0 (by decide) (by decide) _ rfl rfl (Nat.zero_add _).symm (Nat.zero_add _).symm

theorem piece1_read (x : (⟨S4x3x384x1248, .f32⟩ : BufTy).Contents (Elt Ideal)) (b : Fin 4) (e : Fin 1) (c : Fin 3) (y : Fin 384) (q : Fin 1248) :
    val_main_v11 (F := Ideal) x (ix5 b e c y q)
      = Cert.Patches.padded (Cert.Patches.zeroPad Ideal) (fun r' q' => x (ix4 b c r' q')) (y.val + 0) (q.val + 1) := by
  rw [val_main_v11_apply, val_main_v2_apply]
  exact v0_shift x b c y q 0 1 (by decide) (by decide) _ rfl rfl (Nat.zero_add _).symm rfl

theorem piece2_read (x : (⟨S4x3x384x1248, .f32⟩ : BufTy).Contents (Elt Ideal)) (b : Fin 4) (e : Fin 1) (c : Fin 3) (y : Fin 384) (q : Fin 1248) :
    val_main_v12 (F := Ideal) x (ix5 b e c y q)
      = Cert.Patches.padded (Cert.Patches.zeroPad Ideal) (fun r' q' => x (ix4 b c r' q')) (y.val + 0) (q.val + 2) := by
  rw [val_main_v12_apply, val_main_v3_apply]
  exact v0_shift x b c y q 0 2 (by decide) (by decide) _ rfl rfl (Nat.zero_add _).symm rfl

theorem piece3_read (x : (⟨S4x3x384x1248, .f32⟩ : BufTy).Contents (Elt Ideal)) (b : Fin 4) (e : Fin 1) (c : Fin 3) (y : Fin 384) (q : Fin 1248) :
    val_main_v13 (F := Ideal) x (ix5 b e c y q)
      = Cert.Patches.padded (Cert.Patches.zeroPad Ideal) (fun r' q' => x (ix4 b c r' q')) (y.val + 1) (q.val + 0) := by
  rw [val_main_v13_apply, val_main_v4_apply]
  exact v0_shift x b c y q 1 0 (by decide) (by decide) _ rfl rfl rfl (Nat.zero_add _).symm

theorem piece4_read (x : (⟨S4x3x384x1248, .f32⟩ : BufTy).Contents (Elt Ideal)) (b : Fin 4) (e : Fin 1) (c : Fin 3) (y : Fin 384) (q : Fin 1248) :
    val_main_v14 (F := Ideal) x (ix5 b e c y q)
      = Cert.Patches.padded (Cert.Patches.zeroPad Ideal) (fun r' q' => x (ix4 b c r' q')) (y.val + 1) (q.val + 1) := by
  rw [val_main_v14_apply, val_main_v5_apply]
  exact v0_shift x b c y q 1 1 (by decide) (by decide) _ rfl rfl rfl rfl

theorem piece5_read (x : (⟨S4x3x384x1248, .f32⟩ : BufTy).Contents (Elt Ideal)) (b : Fin 4) (e : Fin 1) (c : Fin 3) (y : Fin 384) (q : Fin 1248) :
    val_main_v15 (F := Ideal) x (ix5 b e c y q)
      = Cert.Patches.padded (Cert.Patches.zeroPad Ideal) (fun r' q' => x (ix4 b c r' q')) (y.val + 1) (q.val + 2) := by
  rw [val_main_v15_apply, val_main_v6_apply]
  exact v0_shift x b c y q 1 2 (by decide) (by decide) _ rfl rfl rfl rfl

theorem piece6_read (x : (⟨S4x3x384x1248, .f32⟩ : BufTy).Contents (Elt Ideal)) (b : Fin 4) (e : Fin 1) (c : Fin 3) (y : Fin 384) (q : Fin 1248) :
    val_main_v16 (F := Ideal) x (ix5 b e c y q)
      = Cert.Patches.padded (Cert.Patches.zeroPad Ideal) (fun r' q' => x (ix4 b c r' q')) (y.val + 2) (q.val + 0) := by
  rw [val_main_v16_apply, val_main_v7_apply]
  exact v0_shift x b c y q 2 0 (by decide) (by decide) _ rfl rfl rfl (Nat.zero_add _).symm

theorem piece7_read (x : (⟨S4x3x384x1248, .f32⟩ : BufTy).Contents (Elt Ideal)) (b : Fin 4) (e : Fin 1) (c : Fin 3) (y : Fin 384) (q : Fin 1248) :
    val_main_v17 (F := Ideal) x (ix5 b e c y q)
      = Cert.Patches.padded (Cert.Patches.zeroPad Ideal) (fun r' q' => x (ix4 b c r' q')) (y.val + 2) (q.val + 1) := by
  rw [val_main_v17_apply, val_main_v8_apply]
  exact v0_shift x b c y q 2 1 (by decide) (by decide) _ rfl rfl rfl rfl

theorem piece8_read (x : (⟨S4x3x384x1248, .f32⟩ : BufTy).Contents (Elt Ideal)) (b : Fin 4) (e : Fin 1) (c : Fin 3) (y : Fin 384) (q : Fin 1248) :
    val_main_v18 (F := Ideal) x (ix5 b e c y q)
      = Cert.Patches.padded (Cert.Patches.zeroPad Ideal) (fun r' q' => x (ix4 b c r' q')) (y.val + 2) (q.val + 2) := by
  rw [val_main_v18_apply, val_main_v9_apply]
  exact v0_shift x b c y q 2 2 (by decide) (by decide) _ rfl rfl rfl rfl

/-- The stack read at `(b, k, c, y, q)`: piece `k` is the slice at offset `(k / 3, k % 3)`. -/
theorem v19_read (x : (⟨S4x3x384x1248, .f32⟩ : BufTy).Contents (Elt Ideal)) (b : Fin 4) (k : Fin 9) (c : Fin 3) (y : Fin 384) (q : Fin 1248) :
    val_main_v19 (F := Ideal) x (ix5 b k c y q)
      = Cert.Patches.padded (Cert.Patches.zeroPad Ideal) (fun r' q' => x (ix4 b c r' q')) (y.val + k.val / 3) (q.val + k.val % 3) := by
  unfold val_main_v19
  match k with
  | ⟨0, _⟩ =>
    simp only [Nat.reduceDiv, Nat.reduceMod]
    refine (concatenate_apply_piece _ _ _ _ 0 ?hk S4x1x3x384x1248 (val_main_v10 (F := Ideal) x) ?hxk ?hr 0 ?hpre
      (ix5 b (0 : Fin 1) c y q) ?hi ?ha).trans (piece0_read x b 0 c y q)
    case hk => exact (show 0 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨1, _⟩ =>
    simp only [Nat.reduceDiv, Nat.reduceMod]
    refine (concatenate_apply_piece _ _ _ _ 1 ?hk S4x1x3x384x1248 (val_main_v11 (F := Ideal) x) ?hxk ?hr 1 ?hpre
      (ix5 b (0 : Fin 1) c y q) ?hi ?ha).trans (piece1_read x b 0 c y q)
    case hk => exact (show 1 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨2, _⟩ =>
    simp only [Nat.reduceDiv, Nat.reduceMod]
    refine (concatenate_apply_piece _ _ _ _ 2 ?hk S4x1x3x384x1248 (val_main_v12 (F := Ideal) x) ?hxk ?hr 2 ?hpre
      (ix5 b (0 : Fin 1) c y q) ?hi ?ha).trans (piece2_read x b 0 c y q)
    case hk => exact (show 2 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨3, _⟩ =>
    simp only [Nat.reduceDiv, Nat.reduceMod]
    refine (concatenate_apply_piece _ _ _ _ 3 ?hk S4x1x3x384x1248 (val_main_v13 (F := Ideal) x) ?hxk ?hr 3 ?hpre
      (ix5 b (0 : Fin 1) c y q) ?hi ?ha).trans (piece3_read x b 0 c y q)
    case hk => exact (show 3 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨4, _⟩ =>
    simp only [Nat.reduceDiv, Nat.reduceMod]
    refine (concatenate_apply_piece _ _ _ _ 4 ?hk S4x1x3x384x1248 (val_main_v14 (F := Ideal) x) ?hxk ?hr 4 ?hpre
      (ix5 b (0 : Fin 1) c y q) ?hi ?ha).trans (piece4_read x b 0 c y q)
    case hk => exact (show 4 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨5, _⟩ =>
    simp only [Nat.reduceDiv, Nat.reduceMod]
    refine (concatenate_apply_piece _ _ _ _ 5 ?hk S4x1x3x384x1248 (val_main_v15 (F := Ideal) x) ?hxk ?hr 5 ?hpre
      (ix5 b (0 : Fin 1) c y q) ?hi ?ha).trans (piece5_read x b 0 c y q)
    case hk => exact (show 5 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨6, _⟩ =>
    simp only [Nat.reduceDiv, Nat.reduceMod]
    refine (concatenate_apply_piece _ _ _ _ 6 ?hk S4x1x3x384x1248 (val_main_v16 (F := Ideal) x) ?hxk ?hr 6 ?hpre
      (ix5 b (0 : Fin 1) c y q) ?hi ?ha).trans (piece6_read x b 0 c y q)
    case hk => exact (show 6 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨7, _⟩ =>
    simp only [Nat.reduceDiv, Nat.reduceMod]
    refine (concatenate_apply_piece _ _ _ _ 7 ?hk S4x1x3x384x1248 (val_main_v17 (F := Ideal) x) ?hxk ?hr 7 ?hpre
      (ix5 b (0 : Fin 1) c y q) ?hi ?ha).trans (piece7_read x b 0 c y q)
    case hk => exact (show 7 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl
  | ⟨8, _⟩ =>
    simp only [Nat.reduceDiv, Nat.reduceMod]
    refine (concatenate_apply_piece _ _ _ _ 8 ?hk S4x1x3x384x1248 (val_main_v18 (F := Ideal) x) ?hxk ?hr 8 ?hpre
      (ix5 b (0 : Fin 1) c y q) ?hi ?ha).trans (piece8_read x b 0 c y q)
    case hk => exact (show 8 < 9 by decide)
    case hxk => rfl
    case hr => rfl
    case hpre => rfl
    case hi =>
      exact fun b' => match b' with
        | ⟨0, _⟩ => fun _ => rfl
        | ⟨1, _⟩ => fun h => absurd rfl h
        | ⟨2, _⟩ => fun _ => rfl
        | ⟨3, _⟩ => fun _ => rfl
        | ⟨4, _⟩ => fun _ => rfl
    case ha => rfl

/-- The reference's first result is the specification's patch unfold of its first argument: the row-major reshape sends
    `(b, ch, y, q)` to `(b, ch / 3, ch % 3, y, q)`, the stack picks the slice at offset `(ch / 9, (ch / 3) % 3)`, and the
    slice of the padded array reads the padded plane of `x[b, ch % 3]` at `(y + ch / 9, q + (ch / 3) % 3)`. -/
theorem val_main_v20_patches (x : (⟨S4x3x384x1248, .f32⟩ : BufTy).Contents (Elt Ideal)) :
    val_main_v20 (F := Ideal) x = Cert.Patches.patches (Cert.Patches.zeroPad Ideal) x := by
  funext j
  have h0 : (j 0).val < 4 := (j 0).isLt
  have h1 : (j 1).val < 27 := (j 1).isLt
  have h2 : (j 2).val < 384 := (j 2).isLt
  have h3 : (j 3).val < 1248 := (j 3).isLt
  rw [val_main_v20_apply]
  have hj : idx_main_v20 j = ix5 (⟨(j 0).val, h0⟩ : Fin 4) (⟨(j 1).val / 3, by omega⟩ : Fin 9)
      (⟨(j 1).val % 3, by omega⟩ : Fin 3) (⟨(j 2).val, h2⟩ : Fin 384) (⟨(j 3).val, h3⟩ : Fin 1248) := by
    funext a
    match a with
    | ⟨0, _⟩ => exact Fin.ext (by show ((((j 0).val * 27 + (j 1).val) * 384 + (j 2).val) * 1248 + (j 3).val) / 12939264 = (j 0).val; omega)
    | ⟨1, _⟩ => exact Fin.ext (by show ((((j 0).val * 27 + (j 1).val) * 384 + (j 2).val) * 1248 + (j 3).val) / 1437696 % 9 = (j 1).val / 3; omega)
    | ⟨2, _⟩ => exact Fin.ext (by show ((((j 0).val * 27 + (j 1).val) * 384 + (j 2).val) * 1248 + (j 3).val) / 479232 % 3 = (j 1).val % 3; omega)
    | ⟨3, _⟩ => exact Fin.ext (by show ((((j 0).val * 27 + (j 1).val) * 384 + (j 2).val) * 1248 + (j 3).val) / 1248 % 384 = (j 2).val; omega)
    | ⟨4, _⟩ => exact Fin.ext (by show ((((j 0).val * 27 + (j 1).val) * 384 + (j 2).val) * 1248 + (j 3).val) % 1248 = (j 3).val; omega)
  rw [hj, v19_read]
  unfold Cert.Patches.patches
  congr 1
  show (j 2).val + (j 1).val / 3 / 3 = (j 2).val + (j 1).val / 9
  omega

/-- The second result's stage is the first's, as a function of its argument: the two halves of the program are the same
    operations. -/
theorem val_main_v41_eq_v20 (x : (⟨S4x3x384x1248, .f32⟩ : BufTy).Contents (Elt Ideal)) :
    val_main_v41 (F := Ideal) x = val_main_v20 (F := Ideal) x := rfl

/-- The reference's second result is the specification's patch unfold of its second argument. -/
theorem val_main_v41_patches (x : (⟨S4x3x384x1248, .f32⟩ : BufTy).Contents (Elt Ideal)) :
    val_main_v41 (F := Ideal) x = Cert.Patches.patches (Cert.Patches.zeroPad Ideal) x :=
  (val_main_v41_eq_v20 x).trans (val_main_v20_patches x)

/-- The term the reference's run states for its first result, at any argument `x`, is the patch unfold of `x`; the second
    result's term is the same function of the second argument. -/
theorem result_eq (x : (⟨S4x3x384x1248, .f32⟩ : BufTy).Contents (Elt Ideal)) :
    shapeCast _ (concatenate S4x9x3x384x1248 1 [⟨S4x1x3x384x1248, (broadcastInDim S4x1x3x384x1248 ![0, 2, 3, 4] bcast_S4x3x384x1248_S4x1x3x384x1248_0_2_3_4 (extractStridedSlice S4x3x384x1248 ![0, 0, 0, 0] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_0_0))⟩, ⟨S4x1x3x384x1248, (broadcastInDim S4x1x3x384x1248 ![0, 2, 3, 4] bcast_S4x3x384x1248_S4x1x3x384x1248_0_2_3_4 (extractStridedSlice S4x3x384x1248 ![0, 0, 0, 1] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_0_1))⟩, ⟨S4x1x3x384x1248, (broadcastInDim S4x1x3x384x1248 ![0, 2, 3, 4] bcast_S4x3x384x1248_S4x1x3x384x1248_0_2_3_4 (extractStridedSlice S4x3x384x1248 ![0, 0, 0, 2] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_0_2))⟩, ⟨S4x1x3x384x1248, (broadcastInDim S4x1x3x384x1248 ![0, 2, 3, 4] bcast_S4x3x384x1248_S4x1x3x384x1248_0_2_3_4 (extractStridedSlice S4x3x384x1248 ![0, 0, 1, 0] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_1_0))⟩, ⟨S4x1x3x384x1248, (broadcastInDim S4x1x3x384x1248 ![0, 2, 3, 4] bcast_S4x3x384x1248_S4x1x3x384x1248_0_2_3_4 (extractStridedSlice S4x3x384x1248 ![0, 0, 1, 1] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_1_1))⟩, ⟨S4x1x3x384x1248, (broadcastInDim S4x1x3x384x1248 ![0, 2, 3, 4] bcast_S4x3x384x1248_S4x1x3x384x1248_0_2_3_4 (extractStridedSlice S4x3x384x1248 ![0, 0, 1, 2] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_1_2))⟩, ⟨S4x1x3x384x1248, (broadcastInDim S4x1x3x384x1248 ![0, 2, 3, 4] bcast_S4x3x384x1248_S4x1x3x384x1248_0_2_3_4 (extractStridedSlice S4x3x384x1248 ![0, 0, 2, 0] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_2_0))⟩, ⟨S4x1x3x384x1248, (broadcastInDim S4x1x3x384x1248 ![0, 2, 3, 4] bcast_S4x3x384x1248_S4x1x3x384x1248_0_2_3_4 (extractStridedSlice S4x3x384x1248 ![0, 0, 2, 1] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_2_1))⟩, ⟨S4x1x3x384x1248, (broadcastInDim S4x1x3x384x1248 ![0, 2, 3, 4] bcast_S4x3x384x1248_S4x1x3x384x1248_0_2_3_4 (extractStridedSlice S4x3x384x1248 ![0, 0, 2, 2] (pad S4x3x386x1250 ![0, 0, 1, 1] ![0, 0, 1, 1] ![0, 0, 0, 0] (x) (sitofp (F := Ideal) .f32 (constantI S_ 32 0#32)) pads_S4x3x384x1248_S4x3x386x1250_000_000_110_110 h_S_) slices_S4x3x386x1250_S4x3x384x1248_0_0_2_2))⟩] concatenates_S4x1x3x384x1248_S4x1x3x384x1248_S4x1x3x384x1248_S4x1x3x384x1248_S4x1x3x384x1248_S4x1x3x384x1248_S4x1x3x384x1248_S4x1x3x384x1248_S4x1x3x384x1248_S4x9x3x384x1248_d1) shapeCasts_S4x9x3x384x1248_S4x27x384x1248
      = Cert.Patches.patches (Cert.Patches.zeroPad Ideal) x :=
  (val_main_v20_eq (F := Ideal) x).trans (val_main_v20_patches x)

end Cert.Patches.Ref
end
-- ==== Proof.lean ====
/-
  The certificate of the patch-unfold kernel against its jnp reference.

  Both programs compute, for each of two image stacks `x` of shape [4, 3, 384, 1248], the 3×3 patch unfold of the
  zero-padded stack — result channel `3·(3·dy + dx) + c` at (y, q) is the padded plane of `x[b, c]` at (y + dy, q + dx)
  (Spec.lean's `patches`) — and the 9×9 identity reshaped to [9, 1, 1, 3, 3]. No arithmetic is done on the entries:
  every result entry is one input entry or the zero of the padding, so the two programs agree entry by entry on every
  extended real, and the precondition (finite inputs) is never opened.

  The kernel runs one pipelined region per stack over a 4 × 3 grid (image, row tile). At the first row tile of an image
  its body pads the whole image into a scratch buffer, which the two later row tiles of the same image only read: the
  scratch is carried between grid points, so each region's frame is proved here against the library's launch theorems
  with the scratch contents in the region invariant (KernelIdealR0/R1, KernelR0/R1: the body run symbolically in its two
  cases; KernelIdealFrame, KernelFrame: the region records and the run). The value side reads each region's twelve
  written-back blocks as blocks of `patches` of the argument (KernelIdealValue0/1, KernelIdealArr0/1); the reference's
  pad / slice / stack / reshape chain is read at an index to the same function (RefPatches). The third result is the same
  host term in both programs.
-/
import proofs.«113457_j14800457302529_2_alg».proof.Defs
import proofs.«113457_j14800457302529_2_alg».proof.Proof.Gen.Kernel
import proofs.«113457_j14800457302529_2_alg».proof.Proof.Gen.KernelIdeal
import proofs.«113457_j14800457302529_2_alg».proof.Proof.Gen.ReferenceIdeal
import proofs.«113457_j14800457302529_2_alg».proof.Proof.Gen.ReferenceIdeal.Run
import proofs.«113457_j14800457302529_2_alg».proof.Proof.Gen.ReferenceIdeal.Read
import proofs.«113457_j14800457302529_2_alg».proof.Proof.Gen.Pre_finite_inputs
import proofs.«113457_j14800457302529_2_alg».proof.Proof.KernelFrame
import proofs.«113457_j14800457302529_2_alg».proof.Proof.KernelIdealFrame
import proofs.«113457_j14800457302529_2_alg».proof.Proof.KernelIdealArr0
import proofs.«113457_j14800457302529_2_alg».proof.Proof.KernelIdealArr1
import proofs.«113457_j14800457302529_2_alg».proof.Proof.RefPatches
import Idealize.ShloMosaic.Adequacy
import Idealize.ShloMosaic.Init

noncomputable section

namespace Cert.Proof

open Idealize.ShloMosaic Idealize.ShloMosaic.TcCoe Idealize.SL.Sem

/-- The word-level kernel runs, faults nowhere and leaves both arguments as launched: the run's last boundary read at
    the two argument arrays. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_main_arg0 m c),
     (h c _ (Cert.Kernel.Hand.mem_uc Cert.Kernel.main_arg1 (by decide))).trans (Cert.Kernel.Hand.W3_main_arg1 m c)⟩)
    (Cert.Kernel.Hand.run_all (F := Bits) m ρ)

/-- The same of the idealized kernel. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W3_main_arg0 m c),
     (h c _ (Cert.KernelIdeal.Hand.mem_uc Cert.KernelIdeal.main_arg1 (by decide))).trans (Cert.KernelIdeal.Hand.W3_main_arg1 m c)⟩)
    (Cert.KernelIdeal.Hand.run_all (F := Ideal) m ρ)

/-- The reference is host operations only: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing in this kernel. -/
theorem preserves : Cert.preserves_Kernel_KernelIdeal := trivial

/-- Both idealized programs end with each patch result at `patches` of the corresponding argument and the third result
    at the identity's host term; the arguments agree, so the results do. -/
theorem algebraic : Cert.algebraic_KernelIdeal_ReferenceIdeal := by
  intro m ρ m' ρ' _ hagree
  refine ⟨fun c => Cert.Patches.patches (Cert.Patches.zeroPad Ideal) (m ((c.tc : Thread Cert.KernelIdeal.nD Cert.KernelIdeal.τ).loc Cert.KernelIdeal.main_arg0)),
    fun c => Cert.Patches.patches (Cert.Patches.zeroPad Ideal) (m ((c.tc : Thread Cert.KernelIdeal.nD Cert.KernelIdeal.τ).loc Cert.KernelIdeal.main_arg1)),
    fun c => Cert.KernelIdeal.Hand.W3 m c Cert.KernelIdeal.main_v8, ?_, ?_⟩
  · refine (θ_run Cert.KernelIdeal.defs _ _).mono (fun r h c => ⟨?_, ?_, ?_, ?_, ?_⟩) (Cert.KernelIdeal.Hand.run_all (F := Ideal) m ρ)
    · exact ((h c _ (Cert.KernelIdeal.Hand.mem_uc Cert.KernelIdeal.main_v0 (by decide))).trans (Cert.KernelIdeal.Hand.W3_main_v0 m c)).trans
        (Cert.KernelIdeal.Hand.final0 (Cert.KernelIdeal.Hand.Ve0 m) c)
    · exact ((h c _ (Cert.KernelIdeal.Hand.mem_uc Cert.KernelIdeal.main_v1 (by decide))).trans (Cert.KernelIdeal.Hand.W3_main_v1 m c)).trans
        ((Cert.KernelIdeal.Hand.final1 (Cert.KernelIdeal.Hand.Ve1 m) c).trans (congrArg _ (Cert.KernelIdeal.Hand.Ve1_main_arg1 m c)))
    · exact h c _ (Cert.KernelIdeal.Hand.mem_uc Cert.KernelIdeal.main_v8 (by decide))
    · exact (h c _ (Cert.KernelIdeal.Hand.mem_uc Cert.KernelIdeal.main_arg0 (by decide))).trans (Cert.KernelIdeal.Hand.W3_main_arg0 m c)
    · exact (h c _ (Cert.KernelIdeal.Hand.mem_uc Cert.KernelIdeal.main_arg1 (by decide))).trans (Cert.KernelIdeal.Hand.W3_main_arg1 m c)
  · refine (θ_run Cert.ReferenceIdeal.defs _ _).mono (fun r h c => ⟨?_, ?_, ?_, (h c).2.2.2.1, (h c).2.2.2.2⟩)
      (Cert.ReferenceIdeal.Value.run (F := Ideal) m' ρ')
    · exact ((h c).1.trans (Cert.Patches.Ref.result_eq _)).trans (congrArg _ (hagree c).1)
    · exact ((h c).2.1.trans (Cert.Patches.Ref.result_eq _)).trans (congrArg _ (hagree c).2)
    · exact (h c).2.2.1.trans (Cert.KernelIdeal.Hand.W3_main_v8 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
